-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x24x256x256 : Shape := ⟨4, ![32, 24, 256, 256]⟩
abbrev S32x12x256x256 : Shape := ⟨4, ![32, 12, 256, 256]⟩
abbrev S32x10x12x2 : Shape := ⟨4, ![32, 10, 12, 2]⟩
abbrev S32 : Shape := ⟨1, ![32]⟩
abbrev S_ : Shape := ⟨0, ![]⟩

class Facts : Prop where
  bcast_S_S32x24x256x256 : S_.BroadcastsInDim S32x24x256x256 (![] : Fin 0 → Fin S32x24x256x256.rank)
  reducesTo_S32x24x256x256_S_d0_1_2_3 : S32x24x256x256.ReducesTo [0, 1, 2, 3] S_
  h_S_ : 0 < S_.numel
  bcast_S_S32x12x256x256 : S_.BroadcastsInDim S32x12x256x256 (![] : Fin 0 → Fin S32x12x256x256.rank)
  reducesTo_S32x12x256x256_S_d0_1_2_3 : S32x12x256x256.ReducesTo [0, 1, 2, 3] S_
  bcast_S_S32x10x12x2 : S_.BroadcastsInDim S32x10x12x2 (![] : Fin 0 → Fin S32x10x12x2.rank)
  reducesTo_S32x10x12x2_S_d0_1_2_3 : S32x10x12x2.ReducesTo [0, 1, 2, 3] S_

variable [Facts]

def fn {F : FTy → Type} [FloatOps F] (main_arg0 : FVec F S32x24x256x256 .f32) (main_arg1 : FVec F S32x12x256x256 .f32) (main_arg2 : FVec F S32x10x12x2 .f32) (main_arg3 : IVec S32 32) : IVec S_ 1 :=
  let main_v0 : FVec F S32x24x256x256 .f32 := Host.absf main_arg0
  let main_cst : FVec F S_ .f32 := constant S_ .f32 0x7F800000#32
  let main_v1 : FVec F S32x24x256x256 .f32 := broadcastInDim S32x24x256x256 ![] bcast_S_S32x24x256x256 main_cst
  let main_v2 : IVec S32x24x256x256 1 := cmpf .olt main_v0 main_v1
  let main_c : IVec S_ 1 := constantI S_ 1 1#1
  let main_v3 : IVec S_ 1 := (fun x v => Host.reduce IntOp.andi x v reducesTo_S32x24x256x256_S_d0_1_2_3 h_S_) main_v2 main_c
  let main_v4 : FVec F S32x12x256x256 .f32 := Host.absf main_arg1
  let main_cst_0 : FVec F S_ .f32 := constant S_ .f32 0x7F800000#32
  let main_v5 : FVec F S32x12x256x256 .f32 := broadcastInDim S32x12x256x256 ![] bcast_S_S32x12x256x256 main_cst_0
  let main_v6 : IVec S32x12x256x256 1 := cmpf .olt main_v4 main_v5
  let main_c_1 : IVec S_ 1 := constantI S_ 1 1#1
  let main_v7 : IVec S_ 1 := (fun x v => Host.reduce IntOp.andi x v reducesTo_S32x12x256x256_S_d0_1_2_3 h_S_) main_v6 main_c_1
  let main_v8 : IVec S_ 1 := andi main_v3 main_v7
  let main_v9 : FVec F S32x10x12x2 .f32 := Host.absf main_arg2
  let main_cst_2 : FVec F S_ .f32 := constant S_ .f32 0x7F800000#32
  let main_v10 : FVec F S32x10x12x2 .f32 := broadcastInDim S32x10x12x2 ![] bcast_S_S32x10x12x2 main_cst_2
  let main_v11 : IVec S32x10x12x2 1 := cmpf .olt main_v9 main_v10
  let main_c_3 : IVec S_ 1 := constantI S_ 1 1#1
  let main_v12 : IVec S_ 1 := (fun x v => Host.reduce IntOp.andi x v reducesTo_S32x10x12x2_S_d0_1_2_3 h_S_) main_v11 main_c_3
  let main_v13 : IVec S_ 1 := andi main_v8 main_v12
  main_v13
-- ==== Kernel.lean ====
abbrev S32x24x256x256 : Shape := ⟨4, ![32, 24, 256, 256]⟩
abbrev S32x12x256x256 : Shape := ⟨4, ![32, 12, 256, 256]⟩
abbrev S32x10x12x2 : Shape := ⟨4, ![32, 10, 12, 2]⟩
abbrev S32 : Shape := ⟨1, ![32]⟩
abbrev S32x10x12x1 : Shape := ⟨4, ![32, 10, 12, 1]⟩
abbrev S32x10x12 : Shape := ⟨3, ![32, 10, 12]⟩
abbrev S_ : Shape := ⟨0, ![]⟩
abbrev S32x12x10 : Shape := ⟨3, ![32, 12, 10]⟩
abbrev S256 : Shape := ⟨1, ![256]⟩
abbrev S32x12x10x1 : Shape := ⟨4, ![32, 12, 10, 1]⟩
abbrev S1x1x1x256 : Shape := ⟨4, ![1, 1, 1, 256]⟩
abbrev S32x12x10x256 : Shape := ⟨4, ![32, 12, 10, 256]⟩
abbrev S32x1x128 : Shape := ⟨3, ![32, 1, 128]⟩
abbrev S1x12x256x256 : Shape := ⟨4, ![1, 12, 256, 256]⟩
abbrev S1x12x10x256 : Shape := ⟨4, ![1, 12, 10, 256]⟩
abbrev S1x1x128 : Shape := ⟨3, ![1, 1, 128]⟩
abbrev S1x10x12 : Shape := ⟨3, ![1, 10, 12]⟩
abbrev S12x256x256 : Shape := ⟨3, ![12, 256, 256]⟩
abbrev S12x256 : Shape := ⟨2, ![12, 256]⟩
abbrev S12x256x1 : Shape := ⟨3, ![12, 256, 1]⟩
abbrev S12x1 : Shape := ⟨2, ![12, 1]⟩
abbrev S12x1x1 : Shape := ⟨3, ![12, 1, 1]⟩
abbrev S1x1 : Shape := ⟨2, ![1, 1]⟩
abbrev S1x1x1 : Shape := ⟨3, ![1, 1, 1]⟩
abbrev S1x128 : Shape := ⟨2, ![1, 128]⟩
abbrev S1x1x10x256 : Shape := ⟨4, ![1, 1, 10, 256]⟩
abbrev S10x256 : Shape := ⟨2, ![10, 256]⟩
abbrev S1x1x256x256 : Shape := ⟨4, ![1, 1, 256, 256]⟩
abbrev S256x256 : Shape := ⟨2, ![256, 256]⟩
abbrev S10 : Shape := ⟨1, ![10]⟩
abbrev S10x1 : Shape := ⟨2, ![10, 1]⟩
abbrev S1x10x1 : Shape := ⟨3, ![1, 10, 1]⟩
abbrev S32x1x1 : Shape := ⟨3, ![32, 1, 1]⟩
abbrev S1x10 : Shape := ⟨2, ![1, 10]⟩
abbrev S32x1 : Shape := ⟨2, ![32, 1]⟩
abbrev S32x10 : Shape := ⟨2, ![32, 10]⟩
abbrev S32x10x1 : Shape := ⟨3, ![32, 10, 1]⟩
abbrev S32x1x10 : Shape := ⟨3, ![32, 1, 10]⟩
abbrev S32x10x10 : Shape := ⟨3, ![32, 10, 10]⟩
abbrev S10x10 : Shape := ⟨2, ![10, 10]⟩
abbrev S1x10x10 : Shape := ⟨3, ![1, 10, 10]⟩

abbrev nBuf : Space → Nat
  | .hbm => 184
  | .vmem => 14
  | .smem => 0
  | _ => 0

abbrev hbmTy0_0 (i : Nat) : BufTy := match i % 128 with
  | 0 => ⟨S32x24x256x256, .f32⟩
  | 1 => ⟨S32x12x256x256, .f32⟩
  | 2 => ⟨S32x10x12x2, .f32⟩
  | 3 => ⟨S32, .i32⟩
  | 4 => ⟨S32x10x12x2, .f32⟩
  | 5 => ⟨S32x10x12x2, .i32⟩
  | 6 => ⟨S32x10x12x1, .i32⟩
  | 7 => ⟨S32x10x12, .i32⟩
  | 8 => ⟨S32x10x12x1, .i32⟩
  | 9 => ⟨S32x10x12, .i32⟩
  | 10 => ⟨S_, .i32⟩
  | 11 => ⟨S_, .i32⟩
  | 12 => ⟨S_, .i32⟩
  | 13 => ⟨S32x10x12, .i32⟩
  | 14 => ⟨S32x10x12, .i32⟩
  | 15 => ⟨S_, .i32⟩
  | 16 => ⟨S32x10x12, .i32⟩
  | 17 => ⟨S32x10x12, .i32⟩
  | 18 => ⟨S_, .i32⟩
  | 19 => ⟨S_, .i32⟩
  | 20 => ⟨S_, .i32⟩
  | 21 => ⟨S32x10x12, .i32⟩
  | 22 => ⟨S32x10x12, .i32⟩
  | 23 => ⟨S_, .i32⟩
  | 24 => ⟨S32x10x12, .i32⟩
  | 25 => ⟨S32x10x12, .i32⟩
  | 26 => ⟨S32x12x10, .i32⟩
  | 27 => ⟨S32x12x10, .i32⟩
  | 28 => ⟨S256, .i32⟩
  | 29 => ⟨S256, .i32⟩
  | 30 => ⟨S32x12x10x1, .i32⟩
  | 31 => ⟨S1x1x1x256, .i32⟩
  | 32 => ⟨S32x12x10x256, .i32⟩
  | 33 => ⟨S32x12x10x256, .i32⟩
  | 34 => ⟨S32x12x10x256, .i1⟩
  | 35 => ⟨S32x12x10x256, .f32⟩
  | 36 => ⟨S32x12x10x1, .i32⟩
  | 37 => ⟨S1x1x1x256, .i32⟩
  | 38 => ⟨S32x12x10x256, .i32⟩
  | 39 => ⟨S32x12x10x256, .i32⟩
  | 40 => ⟨S32x12x10x256, .i1⟩
  | 41 => ⟨S32x12x10x256, .f32⟩
  | 42 => ⟨S32x1x128, .f32⟩
  | 43 => ⟨S32x10x12, .f32⟩
  | 44 => ⟨S32x1x1, .f32⟩
  | 45 => ⟨S32, .f32⟩
  | 46 => ⟨S_, .f32⟩
  | 47 => ⟨S_, .f32⟩
  | 48 => ⟨S_, .f32⟩
  | 49 => ⟨S_, .f32⟩
  | 50 => ⟨S10, .i32⟩
  | 51 => ⟨S1x10, .i32⟩
  | 52 => ⟨S32x1, .i32⟩
  | 53 => ⟨S32x10, .i32⟩
  | 54 => ⟨S32x10, .i32⟩
  | 55 => ⟨S32x10, .i1⟩
  | 56 => ⟨S_, .i32⟩
  | 57 => ⟨S32x10x12, .i32⟩
  | 58 => ⟨S32x10x12, .i1⟩
  | 59 => ⟨S_, .i32⟩
  | 60 => ⟨S32x10x12, .i32⟩
  | 61 => ⟨S32x10x12, .i1⟩
  | 62 => ⟨S32x10x12, .i1⟩
  | 63 => ⟨S_, .i32⟩
  | 64 => ⟨S32x10x12, .i32⟩
  | 65 => ⟨S32x10x12, .i1⟩
  | 66 => ⟨S32x10x12, .i1⟩
  | 67 => ⟨S_, .i32⟩
  | 68 => ⟨S32x10x12, .i32⟩
  | 69 => ⟨S32x10x12, .i1⟩
  | 70 => ⟨S32x10x12, .i1⟩
  | 71 => ⟨S32x10x1, .i1⟩
  | 72 => ⟨S32x10x12, .i1⟩
  | 73 => ⟨S32x10x12, .i1⟩
  | 74 => ⟨S_, .f32⟩
  | 75 => ⟨S_, .f32⟩
  | 76 => ⟨S32x10x12, .f32⟩
  | 77 => ⟨S32x10x12, .f32⟩
  | 78 => ⟨S32x10x12, .i32⟩
  | 79 => ⟨S_, .i32⟩
  | 80 => ⟨S32x10, .i32⟩
  | 81 => ⟨S_, .i32⟩
  | 82 => ⟨S32x10, .i32⟩
  | 83 => ⟨S32x10, .i1⟩
  | 84 => ⟨S_, .f32⟩
  | 85 => ⟨S32x10, .f32⟩
  | 86 => ⟨S_, .i32⟩
  | 87 => ⟨S32x10, .i32⟩
  | 88 => ⟨S32x10, .i32⟩
  | 89 => ⟨S32x10, .f32⟩
  | 90 => ⟨S32x10, .f32⟩
  | 91 => ⟨S32x10, .i32⟩
  | 92 => ⟨S_, .i32⟩
  | 93 => ⟨S32, .i32⟩
  | 94 => ⟨S32, .f32⟩
  | 95 => ⟨S32x10x1, .f32⟩
  | 96 => ⟨S32x10x12, .f32⟩
  | 97 => ⟨S32x10x12, .f32⟩
  | 98 => ⟨S32x10x12, .f32⟩
  | 99 => ⟨S_, .f32⟩
  | 100 => ⟨S_, .f32⟩
  | 101 => ⟨S32x10x12, .f32⟩
  | 102 => ⟨S32x10x12, .f32⟩
  | 103 => ⟨S_, .i32⟩
  | 104 => ⟨S32, .i32⟩
  | 105 => ⟨S32, .i1⟩
  | 106 => ⟨S_, .f32⟩
  | 107 => ⟨S32, .f32⟩
  | 108 => ⟨S_, .f32⟩
  | 109 => ⟨S32, .f32⟩
  | 110 => ⟨S32, .f32⟩
  | 111 => ⟨S32, .f32⟩
  | 112 => ⟨S_, .f32⟩
  | 113 => ⟨S_, .f32⟩
  | 114 => ⟨S32, .f32⟩
  | 115 => ⟨S32, .f32⟩
  | 116 => ⟨S32x10x1, .f32⟩
  | 117 => ⟨S32x1x10, .f32⟩
  | 118 => ⟨S32x10x10, .f32⟩
  | 119 => ⟨S32x10x10, .f32⟩
  | 120 => ⟨S32x10x10, .f32⟩
  | 121 => ⟨S32x10x10, .f32⟩
  | 122 => ⟨S10, .i32⟩
  | 123 => ⟨S10x1, .i32⟩
  | 124 => ⟨S1x10, .i32⟩
  | 125 => ⟨S10x10, .i32⟩
  | 126 => ⟨S10x10, .i32⟩
  | 127 => ⟨S10x10, .i1⟩
  | _ => ⟨S32x24x256x256, .f32⟩

abbrev hbmTy0_1 (i : Nat) : BufTy := match i % 128 with
  | 0 => ⟨S1x10x10, .i1⟩
  | 1 => ⟨S32x10x1, .i1⟩
  | 2 => ⟨S32x1x10, .i1⟩
  | 3 => ⟨S32x10x10, .i1⟩
  | 4 => ⟨S32x10x10, .i1⟩
  | 5 => ⟨S32x10x10, .i1⟩
  | 6 => ⟨S32x10x10, .i1⟩
  | 7 => ⟨S32x10x10, .i1⟩
  | 8 => ⟨S_, .f32⟩
  | 9 => ⟨S32x10x10, .f32⟩
  | 10 => ⟨S32x10x10, .f32⟩
  | 11 => ⟨S32x10x10, .f32⟩
  | 12 => ⟨S_, .f32⟩
  | 13 => ⟨S_, .f32⟩
  | 14 => ⟨S32x10x10, .f32⟩
  | 15 => ⟨S32x10x10, .f32⟩
  | 16 => ⟨S_, .f32⟩
  | 17 => ⟨S32, .f32⟩
  | 18 => ⟨S_, .f32⟩
  | 19 => ⟨S32, .f32⟩
  | 20 => ⟨S32, .f32⟩
  | 21 => ⟨S32, .f32⟩
  | 22 => ⟨S_, .f32⟩
  | 23 => ⟨S32, .f32⟩
  | 24 => ⟨S32, .f32⟩
  | 25 => ⟨S_, .f32⟩
  | 26 => ⟨S32, .f32⟩
  | 27 => ⟨S32, .f32⟩
  | 28 => ⟨S32, .f32⟩
  | 29 => ⟨S_, .i32⟩
  | 30 => ⟨S32, .i32⟩
  | 31 => ⟨S32, .i1⟩
  | 32 => ⟨S_, .f32⟩
  | 33 => ⟨S32, .f32⟩
  | 34 => ⟨S32, .f32⟩
  | 35 => ⟨S32, .f32⟩
  | 36 => ⟨S_, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S_, .f32⟩
  | 44 => ⟨S32, .f32⟩
  | 45 => ⟨S32, .f32⟩
  | 46 => ⟨S32, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | _ => ⟨S32x24x256x256, .f32⟩

abbrev hbmTy (i : Nat) : BufTy := match i / 128 with
  | 0 => hbmTy0_0 i
  | 1 => hbmTy0_1 i
  | _ => ⟨S32x24x256x256, .f32⟩

abbrev bufTy : (tb : Table) → Fin (tcTables nBuf tb) → BufTy
  | .hbm, ⟨i, _⟩ => hbmTy i
  | .local _ .vmem, ⟨0, _⟩ => ⟨S1x12x256x256, .f32⟩
  | .local _ .vmem, ⟨1, _⟩ => ⟨S1x12x256x256, .f32⟩
  | .local _ .vmem, ⟨2, _⟩ => ⟨S1x12x256x256, .f32⟩
  | .local _ .vmem, ⟨3, _⟩ => ⟨S1x12x256x256, .f32⟩
  | .local _ .vmem, ⟨4, _⟩ => ⟨S1x12x256x256, .f32⟩
  | .local _ .vmem, ⟨5, _⟩ => ⟨S1x12x256x256, .f32⟩
  | .local _ .vmem, ⟨6, _⟩ => ⟨S1x12x10x256, .f32⟩
  | .local _ .vmem, ⟨7, _⟩ => ⟨S1x12x10x256, .f32⟩
  | .local _ .vmem, ⟨8, _⟩ => ⟨S1x12x10x256, .f32⟩
  | .local _ .vmem, ⟨9, _⟩ => ⟨S1x12x10x256, .f32⟩
  | .local _ .vmem, ⟨10, _⟩ => ⟨S1x1x128, .f32⟩
  | .local _ .vmem, ⟨11, _⟩ => ⟨S1x1x128, .f32⟩
  | .local _ .vmem, ⟨12, _⟩ => ⟨S1x10x12, .f32⟩
  | .local _ .vmem, ⟨13, _⟩ => ⟨S1x10x12, .f32⟩
  | _, _ => ⟨S32x24x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_c_0 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v6 : Ref sig .tc := ⟨.hbm, 17, rfl⟩
abbrev main_c_1 : Ref sig .tc := ⟨.hbm, 18, rfl⟩
abbrev main_c_2 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24_0 : Ref sig .tc := ⟨.hbm, 42, rfl⟩
abbrev main_v24_1 : Ref sig .tc := ⟨.hbm, 43, rfl⟩
abbrev main_v25 : Ref sig .tc := ⟨.hbm, 44, rfl⟩
abbrev main_v26 : Ref sig .tc := ⟨.hbm, 45, rfl⟩
abbrev main_cst : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_4 : Ref sig .tc := ⟨.hbm, 56, rfl⟩
abbrev main_v35 : Ref sig .tc := ⟨.hbm, 57, rfl⟩
abbrev main_v36 : Ref sig .tc := ⟨.hbm, 58, rfl⟩
abbrev main_c_5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_6 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_8 : Ref sig .tc := ⟨.hbm, 74, rfl⟩
abbrev main_call3_v0 : Ref sig .tc := ⟨.hbm, 75, rfl⟩
abbrev main_call3_v1 : Ref sig .tc := ⟨.hbm, 76, rfl⟩
abbrev main_v49 : Ref sig .tc := ⟨.hbm, 77, rfl⟩
abbrev main_v50 : Ref sig .tc := ⟨.hbm, 78, rfl⟩
abbrev main_c_9 : Ref sig .tc := ⟨.hbm, 79, rfl⟩
abbrev main_v51 : Ref sig .tc := ⟨.hbm, 80, rfl⟩
abbrev main_c_10 : Ref sig .tc := ⟨.hbm, 81, rfl⟩
abbrev main_v52 : Ref sig .tc := ⟨.hbm, 82, rfl⟩
abbrev main_v53 : Ref sig .tc := ⟨.hbm, 83, rfl⟩
abbrev main_cst_11 : Ref sig .tc := ⟨.hbm, 84, rfl⟩
abbrev main_v54 : Ref sig .tc := ⟨.hbm, 85, rfl⟩
abbrev main_c_12 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_c_13 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_14 : Ref sig .tc := ⟨.hbm, 99, rfl⟩
abbrev main_call4_v0 : Ref sig .tc := ⟨.hbm, 100, rfl⟩
abbrev main_call4_v1 : Ref sig .tc := ⟨.hbm, 101, rfl⟩
abbrev main_v66 : Ref sig .tc := ⟨.hbm, 102, rfl⟩
abbrev main_c_15 : Ref sig .tc := ⟨.hbm, 103, rfl⟩
abbrev main_v67 : Ref sig .tc := ⟨.hbm, 104, rfl⟩
abbrev main_v68 : Ref sig .tc := ⟨.hbm, 105, rfl⟩
abbrev main_cst_16 : Ref sig .tc := ⟨.hbm, 106, rfl⟩
abbrev main_v69 : Ref sig .tc := ⟨.hbm, 107, rfl⟩
abbrev main_cst_17 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_18 : Ref sig .tc := ⟨.hbm, 112, rfl⟩
abbrev main_call5_v0 : Ref sig .tc := ⟨.hbm, 113, rfl⟩
abbrev main_call5_v1 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_19 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_20 : Ref sig .tc := ⟨.hbm, 140, rfl⟩
abbrev main_call6_v0 : Ref sig .tc := ⟨.hbm, 141, rfl⟩
abbrev main_call6_v1 : Ref sig .tc := ⟨.hbm, 142, rfl⟩
abbrev main_v97 : Ref sig .tc := ⟨.hbm, 143, rfl⟩
abbrev main_cst_21 : Ref sig .tc := ⟨.hbm, 144, rfl⟩
abbrev main_v98 : Ref sig .tc := ⟨.hbm, 145, rfl⟩
abbrev main_cst_22 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_cst_23 : Ref sig .tc := ⟨.hbm, 150, rfl⟩
abbrev main_v102 : Ref sig .tc := ⟨.hbm, 151, rfl⟩
abbrev main_v103 : Ref sig .tc := ⟨.hbm, 152, rfl⟩
abbrev main_cst_24 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_c_25 : Ref sig .tc := ⟨.hbm, 157, rfl⟩
abbrev main_v107 : Ref sig .tc := ⟨.hbm, 158, rfl⟩
abbrev main_v108 : Ref sig .tc := ⟨.hbm, 159, rfl⟩
abbrev main_cst_26 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_cst_27 : Ref sig .tc := ⟨.hbm, 164, rfl⟩
abbrev main_call7_v0 : Ref sig .tc := ⟨.hbm, 165, rfl⟩
abbrev main_call7_v1 : Ref sig .tc := ⟨.hbm, 166, rfl⟩
abbrev main_v112 : Ref sig .tc := ⟨.hbm, 167, rfl⟩
abbrev main_cst_28 : Ref sig .tc := ⟨.hbm, 168, rfl⟩
abbrev main_v113 : Ref sig .tc := ⟨.hbm, 169, rfl⟩
abbrev main_v114 : Ref sig .tc := ⟨.hbm, 170, rfl⟩
abbrev main_cst_29 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_cst_30 : Ref sig .tc := ⟨.hbm, 175, rfl⟩
abbrev main_v118 : Ref sig .tc := ⟨.hbm, 176, rfl⟩
abbrev main_cst_31 : Ref sig .tc := ⟨.hbm, 177, rfl⟩
abbrev main_v119 : Ref sig .tc := ⟨.hbm, 178, rfl⟩
abbrev main_cst_32 : Ref sig .tc := ⟨.hbm, 179, rfl⟩
abbrev main_v120 : Ref sig .tc := ⟨.hbm, 180, rfl⟩
abbrev main_cst_33 : Ref sig .tc := ⟨.hbm, 181, rfl⟩
abbrev main_v121 : Ref sig .tc := ⟨.hbm, 182, rfl⟩
abbrev main_v122 : Ref sig .tc := ⟨.hbm, 183, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x12x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x12x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x12x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x12x10x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x12x10x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x10x12 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S32x10x12x2_S32x10x12x1_0_0_0_0 : S32x10x12x2.Slices ![0, 0, 0, 0] S32x10x12x1
  shapeCasts_S32x10x12x1_S32x10x12 : S32x10x12x1.ShapeCasts S32x10x12
  slices_S32x10x12x2_S32x10x12x1_0_0_0_1 : S32x10x12x2.Slices ![0, 0, 0, 1] S32x10x12x1
  bcast_S_S32x10x12 : S_.BroadcastsInDim S32x10x12 (![] : Fin 0 → Fin S32x10x12.rank)
  transposes_S32x10x12_S32x12x10_0_2_1 : S32x10x12.Transposes [0, 2, 1] S32x12x10
  bcast_S32x12x10_S32x12x10x1_0_1_2 : S32x12x10.BroadcastsInDim S32x12x10x1 (![0, 1, 2] : Fin 3 → Fin S32x12x10x1.rank)
  bcast_S256_S1x1x1x256_3 : S256.BroadcastsInDim S1x1x1x256 (![3] : Fin 1 → Fin S1x1x1x256.rank)
  bcast_S32x12x10x1_S32x12x10x256_0_1_2_3 : S32x12x10x1.BroadcastsInDim S32x12x10x256 (![0, 1, 2, 3] : Fin 4 → Fin S32x12x10x256.rank)
  bcast_S1x1x1x256_S32x12x10x256_0_1_2_3 : S1x1x1x256.BroadcastsInDim S32x12x10x256 (![0, 1, 2, 3] : Fin 4 → Fin S32x12x10x256.rank)
  inb_S1x12x256x256_S1x12x256x256_0_0_0_0 : ∀ a, (![0, 0, 0, 0] : Fin 4 → Nat) a + S1x12x256x256.size a ≤ S1x12x256x256.size a
  h_S1x12x256x256 : 0 < S1x12x256x256.numel
  shapeCasts_S1x12x256x256_S12x256x256 : S1x12x256x256.ShapeCasts S12x256x256
  reduces_S12x256x256_S12x256 : S12x256x256.Reduces [2] S12x256
  shapeCasts_S12x256_S12x256x1 : S12x256.ShapeCasts S12x256x1
  reduces_S12x256x1_S12x1 : S12x256x1.Reduces [1] S12x1
  shapeCasts_S12x1_S12x1x1 : S12x1.ShapeCasts S12x1x1
  reduces_S12x1x1_S1x1 : S12x1x1.Reduces [0] S1x1
  shapeCasts_S1x1_S1x1x1 : S1x1.ShapeCasts S1x1x1
  shapeCasts_S1x1x1_S1x1 : S1x1x1.ShapeCasts S1x1
  shapeCasts_S1x1_S1x1 : S1x1.ShapeCasts S1x1
  broadcasts_S1x1_S1x128 : S1x1.Broadcasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S1x12x10x256_S1x1x10x256_0_0_0_0 : ∀ a, (![0, 0, 0, 0] : Fin 4 → Nat) a + S1x1x10x256.size a ≤ S1x12x10x256.size a
  h_S1x1x10x256 : 0 < S1x1x10x256.numel
  shapeCasts_S1x1x10x256_S10x256 : S1x1x10x256.ShapeCasts S10x256
  inb_S1x12x256x256_S1x1x256x256_0_0_0_0 : ∀ a, (![0, 0, 0, 0] : Fin 4 → Nat) a + S1x1x256x256.size a ≤ S1x12x256x256.size a
  h_S1x1x256x256 : 0 < S1x1x256x256.numel
  shapeCasts_S1x1x256x256_S256x256 : S1x1x256x256.ShapeCasts S256x256
  reduces_S10x256_S10 : S10x256.Reduces [1] S10
  shapeCasts_S10_S10x1 : S10.ShapeCasts S10x1
  inb_S1x10x12_S1x10x1_0_0_0 : ∀ a, (![0, 0, 0] : Fin 3 → Nat) a + S1x10x1.size a ≤ S1x10x12.size a
  h_S1x10x1 : 0 < S1x10x1.numel
  shapeCasts_S1x10x1_S10x1 : S1x10x1.ShapeCasts S10x1
  shapeCasts_S10x1_S1x10x1 : S10x1.ShapeCasts S1x10x1
  inb_S1x12x10x256_S1x1x10x256_0_1_0_0 : ∀ a, (![0, 1, 0, 0] : Fin 4 → Nat) a + S1x1x10x256.size a ≤ S1x12x10x256.size a
  inb_S1x12x256x256_S1x1x256x256_0_1_0_0 : ∀ a, (![0, 1, 0, 0] : Fin 4 → Nat) a + S1x1x256x256.size a ≤ S1x12x256x256.size a
  inb_S1x10x12_S1x10x1_0_0_1 : ∀ a, (![0, 0, 1] : Fin 3 → Nat) a + S1x10x1.size a ≤ S1x10x12.size a
  inb_S1x12x10x256_S1x1x10x256_0_2_0_0 : ∀ a, (![0, 2, 0, 0] : Fin 4 → Nat) a + S1x1x10x256.size a ≤ S1x12x10x256.size a
  inb_S1x12x256x256_S1x1x256x256_0_2_0_0 : ∀ a, (![0, 2, 0, 0] : Fin 4 → Nat) a + S1x1x256x256.size a ≤ S1x12x256x256.size a
  inb_S1x10x12_S1x10x1_0_0_2 : ∀ a, (![0, 0, 2] : Fin 3 → Nat) a + S1x10x1.size a ≤ S1x10x12.size a
  inb_S1x12x10x256_S1x1x10x256_0_3_0_0 : ∀ a, (![0, 3, 0, 0] : Fin 4 → Nat) a + S1x1x10x256.size a ≤ S1x12x10x256.size a
  inb_S1x12x256x256_S1x1x256x256_0_3_0_0 : ∀ a, (![0, 3, 0, 0] : Fin 4 → Nat) a + S1x1x256x256.size a ≤ S1x12x256x256.size a
  inb_S1x10x12_S1x10x1_0_0_3 : ∀ a, (![0, 0, 3] : Fin 3 → Nat) a + S1x10x1.size a ≤ S1x10x12.size a
  inb_S1x12x10x256_S1x1x10x256_0_4_0_0 : ∀ a, (![0, 4, 0, 0] : Fin 4 → Nat) a + S1x1x10x256.size a ≤ S1x12x10x256.size a
  inb_S1x12x256x256_S1x1x256x256_0_4_0_0 : ∀ a, (![0, 4, 0, 0] : Fin 4 → Nat) a + S1x1x256x256.size a ≤ S1x12x256x256.size a
  inb_S1x10x12_S1x10x1_0_0_4 : ∀ a, (![0, 0, 4] : Fin 3 → Nat) a + S1x10x1.size a ≤ S1x10x12.size a
  inb_S1x12x10x256_S1x1x10x256_0_5_0_0 : ∀ a, (![0, 5, 0, 0] : Fin 4 → Nat) a + S1x1x10x256.size a ≤ S1x12x10x256.size a
  inb_S1x12x256x256_S1x1x256x256_0_5_0_0 : ∀ a, (![0, 5, 0, 0] : Fin 4 → Nat) a + S1x1x256x256.size a ≤ S1x12x256x256.size a
  inb_S1x10x12_S1x10x1_0_0_5 : ∀ a, (![0, 0, 5] : Fin 3 → Nat) a + S1x10x1.size a ≤ S1x10x12.size a
  inb_S1x12x10x256_S1x1x10x256_0_6_0_0 : ∀ a, (![0, 6, 0, 0] : Fin 4 → Nat) a + S1x1x10x256.size a ≤ S1x12x10x256.size a
  inb_S1x12x256x256_S1x1x256x256_0_6_0_0 : ∀ a, (![0, 6, 0, 0] : Fin 4 → Nat) a + S1x1x256x256.size a ≤ S1x12x256x256.size a
  inb_S1x10x12_S1x10x1_0_0_6 : ∀ a, (![0, 0, 6] : Fin 3 → Nat) a + S1x10x1.size a ≤ S1x10x12.size a
  inb_S1x12x10x256_S1x1x10x256_0_7_0_0 : ∀ a, (![0, 7, 0, 0] : Fin 4 → Nat) a + S1x1x10x256.size a ≤ S1x12x10x256.size a
  inb_S1x12x256x256_S1x1x256x256_0_7_0_0 : ∀ a, (![0, 7, 0, 0] : Fin 4 → Nat) a + S1x1x256x256.size a ≤ S1x12x256x256.size a
  inb_S1x10x12_S1x10x1_0_0_7 : ∀ a, (![0, 0, 7] : Fin 3 → Nat) a + S1x10x1.size a ≤ S1x10x12.size a
  inb_S1x12x10x256_S1x1x10x256_0_8_0_0 : ∀ a, (![0, 8, 0, 0] : Fin 4 → Nat) a + S1x1x10x256.size a ≤ S1x12x10x256.size a
  inb_S1x12x256x256_S1x1x256x256_0_8_0_0 : ∀ a, (![0, 8, 0, 0] : Fin 4 → Nat) a + S1x1x256x256.size a ≤ S1x12x256x256.size a
  inb_S1x10x12_S1x10x1_0_0_8 : ∀ a, (![0, 0, 8] : Fin 3 → Nat) a + S1x10x1.size a ≤ S1x10x12.size a
  inb_S1x12x10x256_S1x1x10x256_0_9_0_0 : ∀ a, (![0, 9, 0, 0] : Fin 4 → Nat) a + S1x1x10x256.size a ≤ S1x12x10x256.size a
  inb_S1x12x256x256_S1x1x256x256_0_9_0_0 : ∀ a, (![0, 9, 0, 0] : Fin 4 → Nat) a + S1x1x256x256.size a ≤ S1x12x256x256.size a
  inb_S1x10x12_S1x10x1_0_0_9 : ∀ a, (![0, 0, 9] : Fin 3 → Nat) a + S1x10x1.size a ≤ S1x10x12.size a
  inb_S1x12x10x256_S1x1x10x256_0_10_0_0 : ∀ a, (![0, 10, 0, 0] : Fin 4 → Nat) a + S1x1x10x256.size a ≤ S1x12x10x256.size a
  inb_S1x12x256x256_S1x1x256x256_0_10_0_0 : ∀ a, (![0, 10, 0, 0] : Fin 4 → Nat) a + S1x1x256x256.size a ≤ S1x12x256x256.size a
  inb_S1x10x12_S1x10x1_0_0_10 : ∀ a, (![0, 0, 10] : Fin 3 → Nat) a + S1x10x1.size a ≤ S1x10x12.size a
  inb_S1x12x10x256_S1x1x10x256_0_11_0_0 : ∀ a, (![0, 11, 0, 0] : Fin 4 → Nat) a + S1x1x10x256.size a ≤ S1x12x10x256.size a
  inb_S1x12x256x256_S1x1x256x256_0_11_0_0 : ∀ a, (![0, 11, 0, 0] : Fin 4 → Nat) a + S1x1x256x256.size a ≤ S1x12x256x256.size a
  inb_S1x10x12_S1x10x1_0_0_11 : ∀ a, (![0, 0, 11] : Fin 3 → Nat) a + S1x10x1.size a ≤ S1x10x12.size a
  slices_S32x1x128_S32x1x1_0_0_0 : S32x1x128.Slices ![0, 0, 0] S32x1x1
  shapeCasts_S32x1x1_S32 : S32x1x1.ShapeCasts S32
  reducesTo_S32_S_d0 : S32.ReducesTo [0] S_
  h_S_ : 0 < S_.numel
  bcast_S10_S1x10_1 : S10.BroadcastsInDim S1x10 (![1] : Fin 1 → Fin S1x10.rank)
  bcast_S32_S32x1_0 : S32.BroadcastsInDim S32x1 (![0] : Fin 1 → Fin S32x1.rank)
  bcast_S1x10_S32x10_0_1 : S1x10.BroadcastsInDim S32x10 (![0, 1] : Fin 2 → Fin S32x10.rank)
  bcast_S32x1_S32x10_0_1 : S32x1.BroadcastsInDim S32x10 (![0, 1] : Fin 2 → Fin S32x10.rank)
  bcast_S32x10_S32x10x1_0_1 : S32x10.BroadcastsInDim S32x10x1 (![0, 1] : Fin 2 → Fin S32x10x1.rank)
  bcast_S32x10x1_S32x10x12_0_1_2 : S32x10x1.BroadcastsInDim S32x10x12 (![0, 1, 2] : Fin 3 → Fin S32x10x12.rank)
  natLt_1_32 : 1 < 32
  reducesTo_S32x10x12_S32x10_d2 : S32x10x12.ReducesTo [2] S32x10
  bcast_S_S32x10 : S_.BroadcastsInDim S32x10 (![] : Fin 0 → Fin S32x10.rank)
  reducesTo_S32x10_S32_d1 : S32x10.ReducesTo [1] S32
  bcast_S_S32 : S_.BroadcastsInDim S32 (![] : Fin 0 → Fin S32.rank)
  reducesTo_S32x10x12_S32_d1_2 : S32x10x12.ReducesTo [1, 2] S32
  bcast_S32x10_S32x1x10_0_2 : S32x10.BroadcastsInDim S32x1x10 (![0, 2] : Fin 2 → Fin S32x1x10.rank)
  bcast_S32x10x1_S32x10x10_0_1_2 : S32x10x1.BroadcastsInDim S32x10x10 (![0, 1, 2] : Fin 3 → Fin S32x10x10.rank)
  bcast_S32x1x10_S32x10x10_0_1_2 : S32x1x10.BroadcastsInDim S32x10x10 (![0, 1, 2] : Fin 3 → Fin S32x10x10.rank)
  bcast_S10_S10x1_0 : S10.BroadcastsInDim S10x1 (![0] : Fin 1 → Fin S10x1.rank)
  bcast_S10x1_S10x10_0_1 : S10x1.BroadcastsInDim S10x10 (![0, 1] : Fin 2 → Fin S10x10.rank)
  bcast_S1x10_S10x10_0_1 : S1x10.BroadcastsInDim S10x10 (![0, 1] : Fin 2 → Fin S10x10.rank)
  bcast_S10x10_S1x10x10_1_2 : S10x10.BroadcastsInDim S1x10x10 (![1, 2] : Fin 2 → Fin S1x10x10.rank)
  bcast_S1x10x10_S32x10x10_0_1_2 : S1x10x10.BroadcastsInDim S32x10x10 (![0, 1, 2] : Fin 3 → Fin S32x10x10.rank)
  bcast_S_S32x10x10 : S_.BroadcastsInDim S32x10x10 (![] : Fin 0 → Fin S32x10x10.rank)
  reducesTo_S32x10x10_S32_d1_2 : S32x10x10.ReducesTo [1, 2] S32
  dot_S10x256_S256x256_S10x256_1_0_0_1_n_n_wf : DotDims.WF S10x256 S256x256 S10x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x12x256x256.size a ≤ S32x24x256x256.size a
  hwx0_0 : ∀ i : grid0.Coords, EltTy.bits .f32 = 32 ∨ (Rect.block (s := S32x24x256x256) S1x12x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x12x256x256.size a ≤ S32x24x256x256.size a
  hwx0_1 : ∀ i : grid0.Coords, EltTy.bits .f32 = 32 ∨ (Rect.block (s := S32x24x256x256) S1x12x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x12x256x256.size a ≤ S32x12x256x256.size a
  hwx0_2 : ∀ i : grid0.Coords, EltTy.bits .f32 = 32 ∨ (Rect.block (s := S32x12x256x256) S1x12x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x12x10x256.size a ≤ S32x12x10x256.size a
  hwx0_3 : ∀ i : grid0.Coords, EltTy.bits .f32 = 32 ∨ (Rect.block (s := S32x12x10x256) S1x12x10x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x12x10x256.size a ≤ S32x12x10x256.size a
  hwx0_4 : ∀ i : grid0.Coords, EltTy.bits .f32 = 32 ∨ (Rect.block (s := S32x12x10x256) S1x12x10x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S32x1x128.size a
  hwx0_5 : ∀ i : grid0.Coords, EltTy.bits .f32 = 32 ∨ (Rect.block (s := S32x1x128) S1x1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x10x12.size a ≤ S32x10x12.size a
  hwx0_6 : ∀ i : grid0.Coords, EltTy.bits .f32 = 32 ∨ (Rect.block (s := S32x10x12) S1x10x12.size (cc0_transform_6 i) (hinb0_6 i)).WholeWords (EltTy.packing .f32)

variable [Facts₀]

def dot_S10x256_S256x256_S10x256_1_0_0_1_n_n : DotDims S10x256 S256x256 S10x256 where
  lhsContracting := [1]
  rhsContracting := [0]
  lhsNonContracting := [0]
  rhsNonContracting := [1]
  lhsBatch := []
  rhsBatch := []
  wf := dot_S10x256_S256x256_S10x256_1_0_0_1_n_n_wf

abbrev win0_0 : Pipeline.Window sig grid0 :=
  Pipeline.Window.ofSpec (Memref.whole main_arg0) S1x12x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x12x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x12x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x12x10x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x12x10x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v24_0) S1x1x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v24_1) S1x10x12.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x24x256x256 : Shape := ⟨4, ![32, 24, 256, 256]⟩
abbrev S32x12x256x256 : Shape := ⟨4, ![32, 12, 256, 256]⟩
abbrev S32x10x12x2 : Shape := ⟨4, ![32, 10, 12, 2]⟩
abbrev S32 : Shape := ⟨1, ![32]⟩
abbrev S_ : Shape := ⟨0, ![]⟩
abbrev S32x10x12x1 : Shape := ⟨4, ![32, 10, 12, 1]⟩
abbrev S32x10x12 : Shape := ⟨3, ![32, 10, 12]⟩
abbrev S10 : Shape := ⟨1, ![10]⟩
abbrev S1x10 : Shape := ⟨2, ![1, 10]⟩
abbrev S32x1 : Shape := ⟨2, ![32, 1]⟩
abbrev S32x10 : Shape := ⟨2, ![32, 10]⟩
abbrev S32x10x1 : Shape := ⟨3, ![32, 10, 1]⟩
abbrev S12 : Shape := ⟨1, ![12]⟩
abbrev S1x12 : Shape := ⟨2, ![1, 12]⟩
abbrev S10x12 : Shape := ⟨2, ![10, 12]⟩
abbrev S10x12x1 : Shape := ⟨3, ![10, 12, 1]⟩
abbrev S32x10x12x3 : Shape := ⟨4, ![32, 10, 12, 3]⟩
abbrev S32x1x10 : Shape := ⟨3, ![32, 1, 10]⟩
abbrev S32x10x10 : Shape := ⟨3, ![32, 10, 10]⟩
abbrev S10x1 : Shape := ⟨2, ![10, 1]⟩
abbrev S10x10 : Shape := ⟨2, ![10, 10]⟩
abbrev S1x10x10 : Shape := ⟨3, ![1, 10, 10]⟩

abbrev nBuf : Space → Nat
  | .hbm => 201
  | .vmem => 0
  | .smem => 0
  | _ => 0

abbrev hbmTy0_0 (i : Nat) : BufTy := match i % 128 with
  | 0 => ⟨S32x24x256x256, .f32⟩
  | 1 => ⟨S32x12x256x256, .f32⟩
  | 2 => ⟨S32x10x12x2, .f32⟩
  | 3 => ⟨S32, .i32⟩
  | 4 => ⟨S32x12x256x256, .f32⟩
  | 5 => ⟨S32x12x256x256, .f32⟩
  | 6 => ⟨S32x12x256x256, .f32⟩
  | 7 => ⟨S32x12x256x256, .f32⟩
  | 8 => ⟨S_, .f32⟩
  | 9 => ⟨S_, .f32⟩
  | 10 => ⟨S_, .f32⟩
  | 11 => ⟨S_, .f32⟩
  | 12 => ⟨S32x10x12x2, .f32⟩
  | 13 => ⟨S32x10x12x2, .i32⟩
  | 14 => ⟨S32x10x12x1, .i32⟩
  | 15 => ⟨S32x10x12, .i32⟩
  | 16 => ⟨S32x10x12x1, .i32⟩
  | 17 => ⟨S32x10x12, .i32⟩
  | 18 => ⟨S10, .i32⟩
  | 19 => ⟨S1x10, .i32⟩
  | 20 => ⟨S32x1, .i32⟩
  | 21 => ⟨S32x10, .i32⟩
  | 22 => ⟨S32x10, .i32⟩
  | 23 => ⟨S32x10, .i1⟩
  | 24 => ⟨S_, .i32⟩
  | 25 => ⟨S32x10x12, .i32⟩
  | 26 => ⟨S32x10x12, .i1⟩
  | 27 => ⟨S_, .i32⟩
  | 28 => ⟨S32x10x12, .i32⟩
  | 29 => ⟨S32x10x12, .i1⟩
  | 30 => ⟨S32x10x12, .i1⟩
  | 31 => ⟨S_, .i32⟩
  | 32 => ⟨S32x10x12, .i32⟩
  | 33 => ⟨S32x10x12, .i1⟩
  | 34 => ⟨S32x10x12, .i1⟩
  | 35 => ⟨S_, .i32⟩
  | 36 => ⟨S32x10x12, .i32⟩
  | 37 => ⟨S32x10x12, .i1⟩
  | 38 => ⟨S32x10x12, .i1⟩
  | 39 => ⟨S32x10x1, .i1⟩
  | 40 => ⟨S32x10x12, .i1⟩
  | 41 => ⟨S32x10x12, .i1⟩
  | 42 => ⟨S_, .i32⟩
  | 43 => ⟨S_, .i32⟩
  | 44 => ⟨S_, .i32⟩
  | 45 => ⟨S32x10x12, .i32⟩
  | 46 => ⟨S32x10x12, .i32⟩
  | 47 => ⟨S_, .i32⟩
  | 48 => ⟨S32x10x12, .i32⟩
  | 49 => ⟨S32x10x12, .i32⟩
  | 50 => ⟨S_, .i32⟩
  | 51 => ⟨S_, .i32⟩
  | 52 => ⟨S_, .i32⟩
  | 53 => ⟨S32x10x12, .i32⟩
  | 54 => ⟨S32x10x12, .i32⟩
  | 55 => ⟨S_, .i32⟩
  | 56 => ⟨S32x10x12, .i32⟩
  | 57 => ⟨S32x10x12, .i32⟩
  | 58 => ⟨S12, .i32⟩
  | 59 => ⟨S1x12, .i32⟩
  | 60 => ⟨S_, .i32⟩
  | 61 => ⟨S1x12, .i32⟩
  | 62 => ⟨S1x12, .i1⟩
  | 63 => ⟨S_, .i32⟩
  | 64 => ⟨S1x12, .i32⟩
  | 65 => ⟨S1x12, .i32⟩
  | 66 => ⟨S1x12, .i32⟩
  | 67 => ⟨S_, .i32⟩
  | 68 => ⟨S32x10x12, .i32⟩
  | 69 => ⟨S32x10x12, .i1⟩
  | 70 => ⟨S_, .i32⟩
  | 71 => ⟨S32x10x12, .i32⟩
  | 72 => ⟨S32x10x12, .i32⟩
  | 73 => ⟨S32x10x12, .i32⟩
  | 74 => ⟨S_, .i32⟩
  | 75 => ⟨S32x10x12, .i32⟩
  | 76 => ⟨S32x10x12, .i1⟩
  | 77 => ⟨S_, .i32⟩
  | 78 => ⟨S32x10x12, .i32⟩
  | 79 => ⟨S32x10x12, .i32⟩
  | 80 => ⟨S32x10x12, .i32⟩
  | 81 => ⟨S10x12, .i32⟩
  | 82 => ⟨S10x12x1, .i32⟩
  | 83 => ⟨S32x10x12x1, .i32⟩
  | 84 => ⟨S32x10x12x1, .i32⟩
  | 85 => ⟨S32x10x12x1, .i32⟩
  | 86 => ⟨S32x10x12x3, .i32⟩
  | 87 => ⟨S32x10x12, .f32⟩
  | 88 => ⟨S_, .f32⟩
  | 89 => ⟨S_, .f32⟩
  | 90 => ⟨S10x12, .f32⟩
  | 91 => ⟨S32x10x12, .f32⟩
  | 92 => ⟨S32x10x12, .f32⟩
  | 93 => ⟨S32x10x12, .i32⟩
  | 94 => ⟨S_, .i32⟩
  | 95 => ⟨S32x10, .i32⟩
  | 96 => ⟨S_, .i32⟩
  | 97 => ⟨S32x10, .i32⟩
  | 98 => ⟨S32x10, .i1⟩
  | 99 => ⟨S_, .f32⟩
  | 100 => ⟨S32x10, .f32⟩
  | 101 => ⟨S_, .i32⟩
  | 102 => ⟨S32x10, .i32⟩
  | 103 => ⟨S32x10, .i32⟩
  | 104 => ⟨S32x10, .f32⟩
  | 105 => ⟨S32x10, .f32⟩
  | 106 => ⟨S32x10, .i32⟩
  | 107 => ⟨S_, .i32⟩
  | 108 => ⟨S32, .i32⟩
  | 109 => ⟨S32, .f32⟩
  | 110 => ⟨S32x10x1, .f32⟩
  | 111 => ⟨S32x10x12, .f32⟩
  | 112 => ⟨S32x10x12, .f32⟩
  | 113 => ⟨S32x10x12, .f32⟩
  | 114 => ⟨S_, .f32⟩
  | 115 => ⟨S_, .f32⟩
  | 116 => ⟨S10x12, .f32⟩
  | 117 => ⟨S32x10x12, .f32⟩
  | 118 => ⟨S32x10x12, .f32⟩
  | 119 => ⟨S_, .i32⟩
  | 120 => ⟨S32, .i32⟩
  | 121 => ⟨S32, .i1⟩
  | 122 => ⟨S_, .f32⟩
  | 123 => ⟨S32, .f32⟩
  | 124 => ⟨S_, .f32⟩
  | 125 => ⟨S32, .f32⟩
  | 126 => ⟨S32, .f32⟩
  | 127 => ⟨S32, .f32⟩
  | _ => ⟨S32x24x256x256, .f32⟩

abbrev hbmTy0_1 (i : Nat) : BufTy := match i % 128 with
  | 0 => ⟨S_, .f32⟩
  | 1 => ⟨S_, .f32⟩
  | 2 => ⟨S32, .f32⟩
  | 3 => ⟨S32, .f32⟩
  | 4 => ⟨S32x10x1, .f32⟩
  | 5 => ⟨S32x1x10, .f32⟩
  | 6 => ⟨S32x10x10, .f32⟩
  | 7 => ⟨S32x10x10, .f32⟩
  | 8 => ⟨S32x10x10, .f32⟩
  | 9 => ⟨S32x10x10, .f32⟩
  | 10 => ⟨S10, .i32⟩
  | 11 => ⟨S32x10x1, .i1⟩
  | 12 => ⟨S32x1x10, .i1⟩
  | 13 => ⟨S32x10x10, .i1⟩
  | 14 => ⟨S32x10x10, .i1⟩
  | 15 => ⟨S32x10x10, .i1⟩
  | 16 => ⟨S10x1, .i32⟩
  | 17 => ⟨S1x10, .i32⟩
  | 18 => ⟨S10x10, .i32⟩
  | 19 => ⟨S10x10, .i32⟩
  | 20 => ⟨S10x10, .i1⟩
  | 21 => ⟨S1x10x10, .i1⟩
  | 22 => ⟨S32x10x10, .i1⟩
  | 23 => ⟨S32x10x10, .i1⟩
  | 24 => ⟨S_, .f32⟩
  | 25 => ⟨S32x10x10, .f32⟩
  | 26 => ⟨S32x10x10, .f32⟩
  | 27 => ⟨S32x10x10, .f32⟩
  | 28 => ⟨S_, .f32⟩
  | 29 => ⟨S_, .f32⟩
  | 30 => ⟨S10x10, .f32⟩
  | 31 => ⟨S32x10x10, .f32⟩
  | 32 => ⟨S32x10x10, .f32⟩
  | 33 => ⟨S_, .f32⟩
  | 34 => ⟨S32, .f32⟩
  | 35 => ⟨S_, .f32⟩
  | 36 => ⟨S32, .f32⟩
  | 37 => ⟨S32, .f32⟩
  | 38 => ⟨S32, .f32⟩
  | 39 => ⟨S_, .f32⟩
  | 40 => ⟨S32, .f32⟩
  | 41 => ⟨S32, .f32⟩
  | 42 => ⟨S_, .f32⟩
  | 43 => ⟨S32, .f32⟩
  | 44 => ⟨S32, .f32⟩
  | 45 => ⟨S32, .f32⟩
  | 46 => ⟨S_, .i32⟩
  | 47 => ⟨S32, .i32⟩
  | 48 => ⟨S32, .i1⟩
  | 49 => ⟨S_, .f32⟩
  | 50 => ⟨S32, .f32⟩
  | 51 => ⟨S32, .f32⟩
  | 52 => ⟨S32, .f32⟩
  | 53 => ⟨S_, .f32⟩
  | 54 => ⟨S_, .f32⟩
  | 55 => ⟨S32, .f32⟩
  | 56 => ⟨S32, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S32, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | _ => ⟨S32x24x256x256, .f32⟩

abbrev hbmTy (i : Nat) : BufTy := match i / 128 with
  | 0 => hbmTy0_0 i
  | 1 => hbmTy0_1 i
  | _ => ⟨S32x24x256x256, .f32⟩

abbrev bufTy : (tb : Table) → Fin (tcTables nBuf tb) → BufTy
  | .hbm, ⟨i, _⟩ => hbmTy i
  | _, _ => ⟨S32x24x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_c_5 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v32 : Ref sig .tc := ⟨.hbm, 49, rfl⟩
abbrev main_c_6 : Ref sig .tc := ⟨.hbm, 50, rfl⟩
abbrev main_c_7 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_c_9 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_10 : Ref sig .tc := ⟨.hbm, 67, rfl⟩
abbrev main_v41 : Ref sig .tc := ⟨.hbm, 68, rfl⟩
abbrev main_v42 : Ref sig .tc := ⟨.hbm, 69, rfl⟩
abbrev main_c_11 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_12 : Ref sig .tc := ⟨.hbm, 74, rfl⟩
abbrev main_v46 : Ref sig .tc := ⟨.hbm, 75, rfl⟩
abbrev main_v47 : Ref sig .tc := ⟨.hbm, 76, rfl⟩
abbrev main_c_13 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_14 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v58 : Ref sig .tc := ⟨.hbm, 92, rfl⟩
abbrev main_v59 : Ref sig .tc := ⟨.hbm, 93, rfl⟩
abbrev main_c_15 : Ref sig .tc := ⟨.hbm, 94, rfl⟩
abbrev main_v60 : Ref sig .tc := ⟨.hbm, 95, rfl⟩
abbrev main_c_16 : Ref sig .tc := ⟨.hbm, 96, rfl⟩
abbrev main_v61 : Ref sig .tc := ⟨.hbm, 97, rfl⟩
abbrev main_v62 : Ref sig .tc := ⟨.hbm, 98, rfl⟩
abbrev main_cst_17 : Ref sig .tc := ⟨.hbm, 99, rfl⟩
abbrev main_v63 : Ref sig .tc := ⟨.hbm, 100, rfl⟩
abbrev main_c_18 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_c_19 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_20 : Ref sig .tc := ⟨.hbm, 114, rfl⟩
abbrev main_call4_v0 : Ref sig .tc := ⟨.hbm, 115, rfl⟩
abbrev main_call4_v1 : Ref sig .tc := ⟨.hbm, 116, rfl⟩
abbrev main_call4_v2 : Ref sig .tc := ⟨.hbm, 117, rfl⟩
abbrev main_v75 : Ref sig .tc := ⟨.hbm, 118, rfl⟩
abbrev main_c_21 : Ref sig .tc := ⟨.hbm, 119, rfl⟩
abbrev main_v76 : Ref sig .tc := ⟨.hbm, 120, rfl⟩
abbrev main_v77 : Ref sig .tc := ⟨.hbm, 121, rfl⟩
abbrev main_cst_22 : Ref sig .tc := ⟨.hbm, 122, rfl⟩
abbrev main_v78 : Ref sig .tc := ⟨.hbm, 123, rfl⟩
abbrev main_cst_23 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_24 : Ref sig .tc := ⟨.hbm, 128, rfl⟩
abbrev main_call5_v0 : Ref sig .tc := ⟨.hbm, 129, rfl⟩
abbrev main_call5_v1 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_cst_25 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_cst_26 : Ref sig .tc := ⟨.hbm, 156, rfl⟩
abbrev main_call6_v0 : Ref sig .tc := ⟨.hbm, 157, rfl⟩
abbrev main_call6_v1 : Ref sig .tc := ⟨.hbm, 158, rfl⟩
abbrev main_call6_v2 : Ref sig .tc := ⟨.hbm, 159, rfl⟩
abbrev main_v106 : Ref sig .tc := ⟨.hbm, 160, rfl⟩
abbrev main_cst_27 : Ref sig .tc := ⟨.hbm, 161, rfl⟩
abbrev main_v107 : Ref sig .tc := ⟨.hbm, 162, rfl⟩
abbrev main_cst_28 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_cst_29 : Ref sig .tc := ⟨.hbm, 167, rfl⟩
abbrev main_v111 : Ref sig .tc := ⟨.hbm, 168, rfl⟩
abbrev main_v112 : Ref sig .tc := ⟨.hbm, 169, rfl⟩
abbrev main_cst_30 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_c_31 : Ref sig .tc := ⟨.hbm, 174, rfl⟩
abbrev main_v116 : Ref sig .tc := ⟨.hbm, 175, rfl⟩
abbrev main_v117 : Ref sig .tc := ⟨.hbm, 176, rfl⟩
abbrev main_cst_32 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_cst_33 : Ref sig .tc := ⟨.hbm, 181, rfl⟩
abbrev main_call7_v0 : Ref sig .tc := ⟨.hbm, 182, rfl⟩
abbrev main_call7_v1 : Ref sig .tc := ⟨.hbm, 183, rfl⟩
abbrev main_v121 : Ref sig .tc := ⟨.hbm, 184, rfl⟩
abbrev main_cst_34 : Ref sig .tc := ⟨.hbm, 185, rfl⟩
abbrev main_v122 : Ref sig .tc := ⟨.hbm, 186, rfl⟩
abbrev main_v123 : Ref sig .tc := ⟨.hbm, 187, rfl⟩
abbrev main_cst_35 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_cst_36 : Ref sig .tc := ⟨.hbm, 192, rfl⟩
abbrev main_v127 : Ref sig .tc := ⟨.hbm, 193, rfl⟩
abbrev main_cst_37 : Ref sig .tc := ⟨.hbm, 194, rfl⟩
abbrev main_v128 : Ref sig .tc := ⟨.hbm, 195, rfl⟩
abbrev main_cst_38 : Ref sig .tc := ⟨.hbm, 196, rfl⟩
abbrev main_v129 : Ref sig .tc := ⟨.hbm, 197, rfl⟩
abbrev main_cst_39 : Ref sig .tc := ⟨.hbm, 198, rfl⟩
abbrev main_v130 : Ref sig .tc := ⟨.hbm, 199, rfl⟩
abbrev main_v131 : Ref sig .tc := ⟨.hbm, 200, rfl⟩

abbrev nD : Nat := 1
abbrev τ : Topo := Topo.v7x

variable {F : FTy → Type} [FloatOps F]

class Facts₀ : Prop where
  slices_S32x24x256x256_S32x12x256x256_0_0_0_0 : S32x24x256x256.Slices ![0, 0, 0, 0] S32x12x256x256
  slices_S32x24x256x256_S32x12x256x256_0_12_0_0 : S32x24x256x256.Slices ![0, 12, 0, 0] S32x12x256x256
  reducesTo_S32x12x256x256_S_d0_1_2_3 : S32x12x256x256.ReducesTo [0, 1, 2, 3] S_
  h_S_ : 0 < S_.numel
  slices_S32x10x12x2_S32x10x12x1_0_0_0_0 : S32x10x12x2.Slices ![0, 0, 0, 0] S32x10x12x1
  shapeCasts_S32x10x12x1_S32x10x12 : S32x10x12x1.ShapeCasts S32x10x12
  slices_S32x10x12x2_S32x10x12x1_0_0_0_1 : S32x10x12x2.Slices ![0, 0, 0, 1] S32x10x12x1
  bcast_S10_S1x10_1 : S10.BroadcastsInDim S1x10 (![1] : Fin 1 → Fin S1x10.rank)
  bcast_S32_S32x1_0 : S32.BroadcastsInDim S32x1 (![0] : Fin 1 → Fin S32x1.rank)
  bcast_S1x10_S32x10_0_1 : S1x10.BroadcastsInDim S32x10 (![0, 1] : Fin 2 → Fin S32x10.rank)
  bcast_S32x1_S32x10_0_1 : S32x1.BroadcastsInDim S32x10 (![0, 1] : Fin 2 → Fin S32x10.rank)
  bcast_S_S32x10x12 : S_.BroadcastsInDim S32x10x12 (![] : Fin 0 → Fin S32x10x12.rank)
  bcast_S32x10_S32x10x1_0_1 : S32x10.BroadcastsInDim S32x10x1 (![0, 1] : Fin 2 → Fin S32x10x1.rank)
  bcast_S32x10x1_S32x10x12_0_1_2 : S32x10x1.BroadcastsInDim S32x10x12 (![0, 1, 2] : Fin 3 → Fin S32x10x12.rank)
  bcast_S12_S1x12_1 : S12.BroadcastsInDim S1x12 (![1] : Fin 1 → Fin S1x12.rank)
  bcast_S_S1x12 : S_.BroadcastsInDim S1x12 (![] : Fin 0 → Fin S1x12.rank)
  bcast_S1x12_S10x12_0_1 : S1x12.BroadcastsInDim S10x12 (![0, 1] : Fin 2 → Fin S10x12.rank)
  bcast_S10x12_S10x12x1_0_1 : S10x12.BroadcastsInDim S10x12x1 (![0, 1] : Fin 2 → Fin S10x12x1.rank)
  bcast_S32x10x12_S32x10x12x1_0_1_2 : S32x10x12.BroadcastsInDim S32x10x12x1 (![0, 1, 2] : Fin 3 → Fin S32x10x12x1.rank)
  bcast_S10x12x1_S32x10x12x1_1_2_3 : S10x12x1.BroadcastsInDim S32x10x12x1 (![1, 2, 3] : Fin 3 → Fin S32x10x12x1.rank)
  concatenates_S32x10x12x1_S32x10x12x1_S32x10x12x1_S32x10x12x3_d3 : Shape.Concatenates [S32x10x12x1, S32x10x12x1, S32x10x12x1] S32x10x12x3 3
  bcast_S_S10x12 : S_.BroadcastsInDim S10x12 (![] : Fin 0 → Fin S10x12.rank)
  bcast_S10x12_S32x10x12_1_2 : S10x12.BroadcastsInDim S32x10x12 (![1, 2] : Fin 2 → Fin S32x10x12.rank)
  natLt_1_32 : 1 < 32
  reducesTo_S32x10x12_S32x10_d2 : S32x10x12.ReducesTo [2] S32x10
  bcast_S_S32x10 : S_.BroadcastsInDim S32x10 (![] : Fin 0 → Fin S32x10.rank)
  reducesTo_S32x10_S32_d1 : S32x10.ReducesTo [1] S32
  bcast_S_S32 : S_.BroadcastsInDim S32 (![] : Fin 0 → Fin S32.rank)
  reducesTo_S32x10x12_S32_d1_2 : S32x10x12.ReducesTo [1, 2] S32
  bcast_S32x10_S32x1x10_0_2 : S32x10.BroadcastsInDim S32x1x10 (![0, 2] : Fin 2 → Fin S32x1x10.rank)
  bcast_S32x10x1_S32x10x10_0_1_2 : S32x10x1.BroadcastsInDim S32x10x10 (![0, 1, 2] : Fin 3 → Fin S32x10x10.rank)
  bcast_S32x1x10_S32x10x10_0_1_2 : S32x1x10.BroadcastsInDim S32x10x10 (![0, 1, 2] : Fin 3 → Fin S32x10x10.rank)
  bcast_S10_S10x1_0 : S10.BroadcastsInDim S10x1 (![0] : Fin 1 → Fin S10x1.rank)
  bcast_S10x1_S10x10_0_1 : S10x1.BroadcastsInDim S10x10 (![0, 1] : Fin 2 → Fin S10x10.rank)
  bcast_S1x10_S10x10_0_1 : S1x10.BroadcastsInDim S10x10 (![0, 1] : Fin 2 → Fin S10x10.rank)
  bcast_S10x10_S1x10x10_1_2 : S10x10.BroadcastsInDim S1x10x10 (![1, 2] : Fin 2 → Fin S1x10x10.rank)
  bcast_S1x10x10_S32x10x10_0_1_2 : S1x10x10.BroadcastsInDim S32x10x10 (![0, 1, 2] : Fin 3 → Fin S32x10x10.rank)
  bcast_S_S32x10x10 : S_.BroadcastsInDim S32x10x10 (![] : Fin 0 → Fin S32x10x10.rank)
  bcast_S_S10x10 : S_.BroadcastsInDim S10x10 (![] : Fin 0 → Fin S10x10.rank)
  bcast_S10x10_S32x10x10_1_2 : S10x10.BroadcastsInDim S32x10x10 (![1, 2] : Fin 2 → Fin S32x10x10.rank)
  reducesTo_S32x10x10_S32_d1_2 : S32x10x10.ReducesTo [1, 2] S32
  reducesTo_S32_S_d0 : S32.ReducesTo [0] S_
  gather_S32x12x256x256_S32x10x12x3_S32x10x12_n_123_0_0_123_3_1111_wf : GatherDims.WF S32x12x256x256 S32x10x12x3 S32x10x12 [] [1, 2, 3] [0] [1, 2, 3] [0] 3 ![1, 1, 1, 1]

variable [Facts₀]

def gather_S32x12x256x256_S32x10x12x3_S32x10x12_n_123_0_0_123_3_1111 : GatherDims S32x12x256x256 S32x10x12x3 S32x10x12 where
  offsetDims := []
  collapsedSliceDims := [1, 2, 3]
  operandBatchingDims := [0]
  startIndicesBatchingDims := [0]
  startIndexMap := [1, 2, 3]
  indexVectorDim := 3
  sliceSizes := ![1, 1, 1, 1]
  wf := gather_S32x12x256x256_S32x10x12x3_S32x10x12_n_123_0_0_123_3_1111_wf

class Facts : Prop extends Facts₀ where

variable [Facts]
-- ==== Proof.KB_Entry.lean ====
/-
  The contents of core `c`'s buffers when the kernel region is entered: the launch memory run through the host
  operations that precede the region (rounding the keypoint coordinates, clamping them, the two one-hot arrays),
  and the operations that follow it, as two lists of stretches. The first argument array is read through two
  windows (the heat-map channels and the embedding channels), so each of the two holds one half of that array's share.
-/
import proofs.«130083_j14061722927137_2_alg».proof.Proof.Gen.Kernel.Launch
import proofs.«130083_j14061722927137_2_alg».proof.Proof.Gen.Kernel.Points
import Idealize.ShloMosaic.Lib.Pipeline.FrameSuffix

noncomputable section

namespace Cert.Kernel.Fr

open Idealize.ShloMosaic Idealize.ShloMosaic.TcCoe Idealize.SL.Sem Idealize.SL.RA
open Cert.Kernel Cert.Kernel.Gen

variable {F : FTy → Type} [FloatOps F]

/-- The stretches of host operations before the region, in order. -/
abbrev preOps : List (List (HloOp τ sig (Elt F))) :=
  [hostOps0, hostOps0_1, hostOps0_2, hostOps0_3, hostOps0_4, hostOps0_5]

/-- The stretches of host operations after the region, in order. -/
abbrev postOps : List (List (HloOp τ sig (Elt F))) :=
  [hostOps1, hostOps1_1, hostOps1_2, hostOps1_3, hostOps1_4, hostOps1_5, hostOps1_6, hostOps1_7, hostOps1_8, hostOps1_9, hostOps1_10]

variable (m : (ℓ : Loc nD τ sig) → Buf (Elt F) ℓ)

/-- Core `c`'s buffer contents when the region is entered, as a valuation. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

/-- The share of its array each input window holds: the two windows on the first argument a half each. -/
abbrev qOf : Fin cfg0.W → PosShare TreeShare
  | ⟨0, _⟩ => fullShare.left
  | ⟨1, _⟩ => fullShare.right
  | _ => fullShare

end Cert.Kernel.Fr

end
-- ==== Proof.KB_Body.lean ====
/-
  The kernel body of the one region, on whole staging buffers: what it leaves in the two output buffers as a closed
  function of the five input blocks, the body's triple, the pipeline's proof data over those closed forms, and the
  body obligation at every grid point.

  At a grid point the body reads three blocks of twelve 256×256 channels (the predicted heat maps, the predicted
  embedding maps, the target heat maps) and two blocks of twelve 10×256 one-hot tables (the clamped column and row
  coordinate of ten keypoints per channel). It writes
    * the sum over all twelve channels and all pixels of the squared difference of the two heat-map blocks, repeated
      over 128 lanes, and
    * for each channel k one column of ten numbers: the one-hot row table times the embedding channel (a 10×256 by
      256×256 product), multiplied entrywise by the one-hot column table and summed along the 256 columns — the
      embedding value at each keypoint.
  The twelve columns are stored one by one and tile the 10×12 output block, so the block's final contents do not
  depend on what it held before; the same for the single store of the 128 lanes.
-/
import proofs.«130083_j14061722927137_2_alg».proof.Proof.KB_Entry
import proofs.«130083_j14061722927137_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

-- membership of an index in a rectangle of these extents is checked by structural recursion along the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The windows' blocks -/

/-- Window `w`'s block at grid point `t`: the window's rectangle of its array, read off the array's contents when the
    region is entered. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block at every point, whether the pipeline fetched it
    at that point or not (unfetched, the block index has not moved since the last fetch): for any proof data whose
    array is the region-entry contents and whose body leaves the block in place. The window is whole (never cut) and
    never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds the window's block at every point, whether the pipeline fetched it
    at that point or not (unfetched, the block index has not moved since the last fetch): for any proof data whose
    array is the region-entry contents and whose body leaves the block in place. The window is whole (never cut) and
    never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds the window's block at every point, whether the pipeline fetched it
    at that point or not (unfetched, the block index has not moved since the last fetch): for any proof data whose
    array is the region-entry contents and whose body leaves the block in place. The window is whole (never cut) and
    never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds the window's block at every point, whether the pipeline fetched it
    at that point or not (unfetched, the block index has not moved since the last fetch): for any proof data whose
    array is the region-entry contents and whose body leaves the block in place. The window is whole (never cut) and
    never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds the window's block at every point, whether the pipeline fetched it
    at that point or not (unfetched, the block index has not moved since the last fetch): for any proof data whose
    array is the region-entry contents and whose body leaves the block in place. The window is whole (never cut) and
    never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The rectangles the body reads and writes through -/

/-- A whole block of twelve 256×256 channels (both heat-map blocks are read whole). -/
abbrev rAll : Rect S1x12x256x256 := Rect.unit (s := S1x12x256x256) ![0, 0, 0, 0] S1x12x256x256.size inb_S1x12x256x256_S1x12x256x256_0_0_0_0
/-- Channel `k` of a block of twelve 256×256 channels (the embedding block is read one channel at a time). -/
abbrev rCh0 : Rect S1x12x256x256 := Rect.unit (s := S1x12x256x256) ![0, 0, 0, 0] S1x1x256x256.size inb_S1x12x256x256_S1x1x256x256_0_0_0_0
abbrev rCh1 : Rect S1x12x256x256 := Rect.unit (s := S1x12x256x256) ![0, 1, 0, 0] S1x1x256x256.size inb_S1x12x256x256_S1x1x256x256_0_1_0_0
abbrev rCh2 : Rect S1x12x256x256 := Rect.unit (s := S1x12x256x256) ![0, 2, 0, 0] S1x1x256x256.size inb_S1x12x256x256_S1x1x256x256_0_2_0_0
abbrev rCh3 : Rect S1x12x256x256 := Rect.unit (s := S1x12x256x256) ![0, 3, 0, 0] S1x1x256x256.size inb_S1x12x256x256_S1x1x256x256_0_3_0_0
abbrev rCh4 : Rect S1x12x256x256 := Rect.unit (s := S1x12x256x256) ![0, 4, 0, 0] S1x1x256x256.size inb_S1x12x256x256_S1x1x256x256_0_4_0_0
abbrev rCh5 : Rect S1x12x256x256 := Rect.unit (s := S1x12x256x256) ![0, 5, 0, 0] S1x1x256x256.size inb_S1x12x256x256_S1x1x256x256_0_5_0_0
abbrev rCh6 : Rect S1x12x256x256 := Rect.unit (s := S1x12x256x256) ![0, 6, 0, 0] S1x1x256x256.size inb_S1x12x256x256_S1x1x256x256_0_6_0_0
abbrev rCh7 : Rect S1x12x256x256 := Rect.unit (s := S1x12x256x256) ![0, 7, 0, 0] S1x1x256x256.size inb_S1x12x256x256_S1x1x256x256_0_7_0_0
abbrev rCh8 : Rect S1x12x256x256 := Rect.unit (s := S1x12x256x256) ![0, 8, 0, 0] S1x1x256x256.size inb_S1x12x256x256_S1x1x256x256_0_8_0_0
abbrev rCh9 : Rect S1x12x256x256 := Rect.unit (s := S1x12x256x256) ![0, 9, 0, 0] S1x1x256x256.size inb_S1x12x256x256_S1x1x256x256_0_9_0_0
abbrev rCh10 : Rect S1x12x256x256 := Rect.unit (s := S1x12x256x256) ![0, 10, 0, 0] S1x1x256x256.size inb_S1x12x256x256_S1x1x256x256_0_10_0_0
abbrev rCh11 : Rect S1x12x256x256 := Rect.unit (s := S1x12x256x256) ![0, 11, 0, 0] S1x1x256x256.size inb_S1x12x256x256_S1x1x256x256_0_11_0_0
/-- Channel `k`'s 10×256 one-hot table within a block of twelve. -/
abbrev rHot0 : Rect S1x12x10x256 := Rect.unit (s := S1x12x10x256) ![0, 0, 0, 0] S1x1x10x256.size inb_S1x12x10x256_S1x1x10x256_0_0_0_0
abbrev rHot1 : Rect S1x12x10x256 := Rect.unit (s := S1x12x10x256) ![0, 1, 0, 0] S1x1x10x256.size inb_S1x12x10x256_S1x1x10x256_0_1_0_0
abbrev rHot2 : Rect S1x12x10x256 := Rect.unit (s := S1x12x10x256) ![0, 2, 0, 0] S1x1x10x256.size inb_S1x12x10x256_S1x1x10x256_0_2_0_0
abbrev rHot3 : Rect S1x12x10x256 := Rect.unit (s := S1x12x10x256) ![0, 3, 0, 0] S1x1x10x256.size inb_S1x12x10x256_S1x1x10x256_0_3_0_0
abbrev rHot4 : Rect S1x12x10x256 := Rect.unit (s := S1x12x10x256) ![0, 4, 0, 0] S1x1x10x256.size inb_S1x12x10x256_S1x1x10x256_0_4_0_0
abbrev rHot5 : Rect S1x12x10x256 := Rect.unit (s := S1x12x10x256) ![0, 5, 0, 0] S1x1x10x256.size inb_S1x12x10x256_S1x1x10x256_0_5_0_0
abbrev rHot6 : Rect S1x12x10x256 := Rect.unit (s := S1x12x10x256) ![0, 6, 0, 0] S1x1x10x256.size inb_S1x12x10x256_S1x1x10x256_0_6_0_0
abbrev rHot7 : Rect S1x12x10x256 := Rect.unit (s := S1x12x10x256) ![0, 7, 0, 0] S1x1x10x256.size inb_S1x12x10x256_S1x1x10x256_0_7_0_0
abbrev rHot8 : Rect S1x12x10x256 := Rect.unit (s := S1x12x10x256) ![0, 8, 0, 0] S1x1x10x256.size inb_S1x12x10x256_S1x1x10x256_0_8_0_0
abbrev rHot9 : Rect S1x12x10x256 := Rect.unit (s := S1x12x10x256) ![0, 9, 0, 0] S1x1x10x256.size inb_S1x12x10x256_S1x1x10x256_0_9_0_0
abbrev rHot10 : Rect S1x12x10x256 := Rect.unit (s := S1x12x10x256) ![0, 10, 0, 0] S1x1x10x256.size inb_S1x12x10x256_S1x1x10x256_0_10_0_0
abbrev rHot11 : Rect S1x12x10x256 := Rect.unit (s := S1x12x10x256) ![0, 11, 0, 0] S1x1x10x256.size inb_S1x12x10x256_S1x1x10x256_0_11_0_0
/-- The whole 128-lane output block. -/
abbrev rLanes : Rect S1x1x128 := Rect.unit (s := S1x1x128) ![0, 0, 0] S1x1x128.size inb_S1x1x128_S1x1x128_0_0_0
/-- Column `k` (ten entries) of the 10×12 output block. -/
abbrev rCol0 : Rect S1x10x12 := Rect.unit (s := S1x10x12) ![0, 0, 0] S1x10x1.size inb_S1x10x12_S1x10x1_0_0_0
abbrev rCol1 : Rect S1x10x12 := Rect.unit (s := S1x10x12) ![0, 0, 1] S1x10x1.size inb_S1x10x12_S1x10x1_0_0_1
abbrev rCol2 : Rect S1x10x12 := Rect.unit (s := S1x10x12) ![0, 0, 2] S1x10x1.size inb_S1x10x12_S1x10x1_0_0_2
abbrev rCol3 : Rect S1x10x12 := Rect.unit (s := S1x10x12) ![0, 0, 3] S1x10x1.size inb_S1x10x12_S1x10x1_0_0_3
abbrev rCol4 : Rect S1x10x12 := Rect.unit (s := S1x10x12) ![0, 0, 4] S1x10x1.size inb_S1x10x12_S1x10x1_0_0_4
abbrev rCol5 : Rect S1x10x12 := Rect.unit (s := S1x10x12) ![0, 0, 5] S1x10x1.size inb_S1x10x12_S1x10x1_0_0_5
abbrev rCol6 : Rect S1x10x12 := Rect.unit (s := S1x10x12) ![0, 0, 6] S1x10x1.size inb_S1x10x12_S1x10x1_0_0_6
abbrev rCol7 : Rect S1x10x12 := Rect.unit (s := S1x10x12) ![0, 0, 7] S1x10x1.size inb_S1x10x12_S1x10x1_0_0_7
abbrev rCol8 : Rect S1x10x12 := Rect.unit (s := S1x10x12) ![0, 0, 8] S1x10x1.size inb_S1x10x12_S1x10x1_0_0_8
abbrev rCol9 : Rect S1x10x12 := Rect.unit (s := S1x10x12) ![0, 0, 9] S1x10x1.size inb_S1x10x12_S1x10x1_0_0_9
abbrev rCol10 : Rect S1x10x12 := Rect.unit (s := S1x10x12) ![0, 0, 10] S1x10x1.size inb_S1x10x12_S1x10x1_0_0_10
abbrev rCol11 : Rect S1x10x12 := Rect.unit (s := S1x10x12) ![0, 0, 11] S1x10x1.size inb_S1x10x12_S1x10x1_0_0_11

/-! ## What the body leaves in each output buffer -/

/-- The 128-lane output buffer after the body, from the two heat-map blocks: its one store, of the whole buffer — the
    squared differences summed over pixels and channels, repeated over the lanes. -/
def out0_5 (x0 x2 : Vec F S1x12x256x256 .f32) : Vec F S1x1x128 .f32 :=
  View.canon [⟨rLanes, k0_pay3 (View.ld x0 rAll) (View.ld x2 rAll)⟩]

/-- The one store is of the whole buffer, so it covers it. -/
theorem cover0_5 (p0 : Vec F S1x1x128 .f32) (y : S1x1x128.Idx) :
    ∃ pc ∈ ([⟨rLanes, p0⟩] : List (View.Piece (Elt F) S1x1x128 .f32)), y ∈ pc.1.set :=
  View.cover_of_tiled [⟨rLanes, p0⟩] S1x1x128.size (by rfl) y

/-- The 10×12 output buffer after the body, from the embedding block `x1` and the two one-hot blocks `x3` (columns)
    and `x4` (rows): its twelve column stores, the last one first. Column `k` holds, for each of the ten keypoints, the
    sum over the 256 columns of (row table of channel `k` times embedding channel `k`) times the column table of
    channel `k`. -/
def out0_6 (x1 : Vec F S1x12x256x256 .f32) (x3 x4 : Vec F S1x12x10x256 .f32) : Vec F S1x10x12 .f32 :=
  View.canon [⟨rCol11, k0_pay2 (View.ld x4 rHot11) (View.ld x3 rHot11) (View.ld x1 rCh11)⟩,
    ⟨rCol10, k0_pay1 (k0_pay22 (View.ld x4 rHot10)) (k0_pay23 (View.ld x3 rHot10)) (View.ld x1 rCh10)⟩,
    ⟨rCol9, k0_pay21 (View.ld x4 rHot9) (View.ld x3 rHot9) (View.ld x1 rCh9)⟩,
    ⟨rCol8, k0_pay20 (k0_pay17 (View.ld x4 rHot8)) (k0_pay18 (View.ld x3 rHot8)) (k0_pay19 (View.ld x1 rCh8))⟩,
    ⟨rCol7, k0_pay16 (View.ld x4 rHot7) (View.ld x3 rHot7) (View.ld x1 rCh7)⟩,
    ⟨rCol6, k0_pay15 (k0_pay13 (View.ld x3 rHot6)) (k0_pay14 (View.ld x4 rHot6) (View.ld x1 rCh6))⟩,
    ⟨rCol5, k0_pay12 (View.ld x4 rHot5) (View.ld x3 rHot5) (View.ld x1 rCh5)⟩,
    ⟨rCol4, k0_pay11 (k0_pay10 (View.ld x4 rHot4) (View.ld x3 rHot4) (View.ld x1 rCh4))⟩,
    ⟨rCol3, k0_pay9 (View.ld x4 rHot3) (View.ld x3 rHot3) (View.ld x1 rCh3)⟩,
    ⟨rCol2, k0_pay8 (k0_pay7 (View.ld x4 rHot2) (View.ld x3 rHot2) (View.ld x1 rCh2))⟩,
    ⟨rCol1, k0_pay6 (View.ld x4 rHot1) (View.ld x3 rHot1) (View.ld x1 rCh1)⟩,
    ⟨rCol0, k0_pay5 (k0_pay4 (View.ld x4 rHot0) (View.ld x3 rHot0) (View.ld x1 rCh0))⟩]

/-- The twelve columns tile the 10×12 buffer, so they cover it. -/
theorem cover0_6 (p0 : Vec F S1x10x1 .f32) (p1 : Vec F S1x10x1 .f32) (p2 : Vec F S1x10x1 .f32) (p3 : Vec F S1x10x1 .f32) (p4 : Vec F S1x10x1 .f32) (p5 : Vec F S1x10x1 .f32) (p6 : Vec F S1x10x1 .f32) (p7 : Vec F S1x10x1 .f32) (p8 : Vec F S1x10x1 .f32) (p9 : Vec F S1x10x1 .f32) (p10 : Vec F S1x10x1 .f32) (p11 : Vec F S1x10x1 .f32) (y : S1x10x12.Idx) :
    ∃ pc ∈ ([⟨rCol11, p0⟩, ⟨rCol10, p1⟩, ⟨rCol9, p2⟩, ⟨rCol8, p3⟩, ⟨rCol7, p4⟩, ⟨rCol6, p5⟩, ⟨rCol5, p6⟩, ⟨rCol4, p7⟩, ⟨rCol3, p8⟩, ⟨rCol2, p9⟩, ⟨rCol1, p10⟩, ⟨rCol0, p11⟩] : List (View.Piece (Elt F) S1x10x12 .f32)), y ∈ pc.1.set :=
  View.cover_of_tiled [⟨rCol11, p0⟩, ⟨rCol10, p1⟩, ⟨rCol9, p2⟩, ⟨rCol8, p3⟩, ⟨rCol7, p4⟩, ⟨rCol6, p5⟩, ⟨rCol5, p6⟩, ⟨rCol4, p7⟩, ⟨rCol3, p8⟩, ⟨rCol2, p9⟩, ⟨rCol1, p10⟩, ⟨rCol0, p11⟩] S1x10x1.size (by rfl) y

/-! ## The body's triple -/

set_option maxHeartbeats 4000000 in
/-- The kernel body on whole staging buffers — the five inputs' reading `x0 … x4`, the two outputs' holding anything —
    runs to the continuation with the inputs' as they were and the outputs' at `out0_5 x0 x2` and `out0_6 x1 x3 x4`.
    The body and its six parts are sequences of loads, stores and pure values; the loads it makes of the output
    buffers before storing into them read values nothing uses. What the stores leave reads as the canonical
    contents of the store lists because those lists cover the buffers. -/
theorem sound_kernel (c : Dev nD) (E : Set ℕ) (i : grid0.Coords) (arg1 : Memref sig .tc .vmem S1x12x256x256 .f32) (harg1 : arg1.IsWhole) (arg2 : Memref sig .tc .vmem S1x12x256x256 .f32) (harg2 : arg2.IsWhole) (arg3 : Memref sig .tc .vmem S1x12x256x256 .f32) (harg3 : arg3.IsWhole) (arg4 : Memref sig .tc .vmem S1x12x10x256 .f32) (harg4 : arg4.IsWhole) (arg5 : Memref sig .tc .vmem S1x12x10x256 .f32) (harg5 : arg5.IsWhole) (arg6 : Memref sig .tc .vmem S1x1x128 .f32) (harg6 : arg6.IsWhole) (arg7 : Memref sig .tc .vmem S1x10x12 .f32) (harg7 : arg7.IsWhole)
    (x0 x1 x2 : Vec F S1x12x256x256 .f32) (x3 x4 : Vec F S1x12x10x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x2) ∗ owns (c : Thread nD τ) arg7 fullShare (out0_6 x1 x3 x4)) -∗ K ⟨⟩))
      ⊢ wp frame (wpE (defs₀ (F := F)) Variants.none c none) E (cc0__combined_kernel i arg1 harg1 arg2 harg2 arg3 harg3 arg4 harg4 arg5 harg5 arg6 harg6 arg7 harg7) K := by
  simp only [cc0__combined_kernel_eq_skeleton]; unfold cc0__combined_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover0_5 _)
  iexists _; isplitr
  swap; · iexact H6
  ipureintro
  try dsimp only
  exact View.read_writes_eq_canon _ _ _ (cover0_6 _ _ _ _ _ _ _ _ _ _ _ _)

/-! ## The pipeline's proof data -/

/-- The proof data of the pipeline on core `c`: the arrays as the region finds them; after the body at point `t` each
    input's buffer at its block and each output's at its closed form over the input blocks; the invariant the part of
    the core's state the body neither reads nor writes; nothing owed. The two windows on the first argument array hold
    half of its share each, every other window its array's full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 2 t)
    | ⟨6, _⟩ => out0_6 (iblk m c 1 t) (iblk m c 3 t) (iblk m c 4 t)
  Φ _ := Pipeline.ΦA spec0 c
  q := qOf
  owed _ := 0

/-- The proof data's arrays are the region-entry contents (the definition projected; the fold over the host operations
    before the region is never opened). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 2 t) := by dsimp only [dats]
theorem after0_6 (c : Dev nD) (t : Fin cfg0.N) : (dats m 0 c).after 6 t = out0_6 (iblk m c 1 t) (iblk m c 3 t) (iblk m c 4 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one: the two outputs' buffers hold whatever the
    previous point (or the launch) left, which the body never uses. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.KB_Main.lean ====
/-
  @main of the kernel program as host operations, the region, host operations: the stretches before the region touch
  TensorCore buffers only and allocate nothing, so @main reduces to the region continued by the later stretches, entered
  at the contents the earlier ones leave; the later stretches touch unscoped buffers only, allocate nothing, and write
  none of the arrays the region's windows stage (each writes its own result buffer).
-/
import proofs.«130083_j14061722927137_2_alg».proof.Proof.KB_Entry

set_option maxRecDepth 16384

noncomputable section

namespace Cert.Kernel.Fr

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor

/-- Every stretch before the region touches TensorCore references only. -/
theorem preOps_sub : (preOps : List (List (HloOp τ sig (Elt F)))).Forall fun ops => ops.Forall fun op => op.bufs ⊆ StableHlo.tcRefs τ sig := by
  simp only [preOps, List.Forall]
  exact ⟨hostOps0_sub, hostOps0_1_sub, hostOps0_2_sub, hostOps0_3_sub, hostOps0_4_sub, hostOps0_5_sub⟩
/-- And allocates nothing. -/
theorem preOps_fresh : (preOps : List (List (HloOp τ sig (Elt F)))).Forall fun ops => ops.Forall fun op => op.fresh = ∅ := by
  simp only [preOps, List.Forall]
  exact ⟨hostOps0_fresh, hostOps0_1_fresh, hostOps0_2_fresh, hostOps0_3_fresh, hostOps0_4_fresh, hostOps0_5_fresh⟩

/-- @main around the region: it reduces to the region continued by the later stretches, at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((postOps : List (List (HloOp τ sig (Elt F)))).map StableHlo.seq)) :=
  Pipeline.hmain_around cfgs 0 defs₀ 𝒱₀ m main preOps postOps preOps_sub preOps_fresh main_chain

/-- The later stretches touch unscoped TensorCore buffers only. -/
theorem post_sub : ∀ ops ∈ (postOps : List (List (HloOp τ sig (Elt F)))), ∀ op ∈ ops, op.bufs ⊆ Pipeline.ucRefs τ sig := by
  intro ops hops op hop
  simp only [postOps, List.mem_cons, List.mem_nil_iff, or_false] at hops
  rcases hops with rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
/-- They allocate nothing. -/
theorem post_fresh : ∀ ops ∈ (postOps : List (List (HloOp τ sig (Elt F)))), ∀ op ∈ ops, op.fresh = ∅ := by
  intro ops hops op hop
  simp only [postOps, List.mem_cons, List.mem_nil_iff, or_false] at hops
  rcases hops with rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
theorem hostOps1_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_1_keeps : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_2_keeps : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_3_keeps : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_4_keeps : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_5_keeps : ∀ op ∈ (hostOps1_5 : List (HloOp τ sig (Elt F))), ∀ w, Proc.devRef .tc (Pipeline.arrRef spec0 w) ∉ op.writes := by
  intro op hop
  simp only [hostOps1_5, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_6_keeps : ∀ op ∈ (hostOps1_6 : List (HloOp τ sig (Elt F))), ∀ w, Proc.devRef .tc (Pipeline.arrRef spec0 w) ∉ op.writes := by
  intro op hop
  simp only [hostOps1_6, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_7_keeps : ∀ op ∈ (hostOps1_7 : List (HloOp τ sig (Elt F))), ∀ w, Proc.devRef .tc (Pipeline.arrRef spec0 w) ∉ op.writes := by
  intro op hop
  simp only [hostOps1_7, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_8_keeps : ∀ op ∈ (hostOps1_8 : List (HloOp τ sig (Elt F))), ∀ w, Proc.devRef .tc (Pipeline.arrRef spec0 w) ∉ op.writes := by
  intro op hop
  simp only [hostOps1_8, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_9_keeps : ∀ op ∈ (hostOps1_9 : List (HloOp τ sig (Elt F))), ∀ w, Proc.devRef .tc (Pipeline.arrRef spec0 w) ∉ op.writes := by
  intro op hop
  simp only [hostOps1_9, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_10_keeps : ∀ op ∈ (hostOps1_10 : List (HloOp τ sig (Elt F))), ∀ w, Proc.devRef .tc (Pipeline.arrRef spec0 w) ∉ op.writes := by
  intro op hop
  simp only [hostOps1_10, List.mem_cons, List.mem_nil_iff, or_false] at hop
  rcases hop with rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- And write none of the arrays the region's windows stage. -/
theorem post_keeps : ∀ ops ∈ (postOps : List (List (HloOp τ sig (Elt F)))), ∀ op ∈ ops,
    ∀ w, Proc.devRef .tc (Pipeline.arrRef spec0 w) ∉ op.writes := by
  intro ops hops op hop
  simp only [postOps, List.mem_cons, List.mem_nil_iff, or_false] at hops
  rcases hops with rfl | rfl | rfl | rfl | rfl | rfl | rfl | rfl | rfl | rfl | rfl
  · exact hostOps1_keeps op hop
  · exact hostOps1_1_keeps op hop
  · exact hostOps1_2_keeps op hop
  · exact hostOps1_3_keeps op hop
  · exact hostOps1_4_keeps op hop
  · exact hostOps1_5_keeps op hop
  · exact hostOps1_6_keeps op hop
  · exact hostOps1_7_keeps op hop
  · exact hostOps1_8_keeps op hop
  · exact hostOps1_9_keeps op hop
  · exact hostOps1_10_keeps op hop

end Cert.Kernel.Fr

end
-- ==== Proof.LibSharedFrame.lean ====
/-
  The frame run of a one-region program whose windows may SHARE an array (one argument handed to the kernel through
  several input windows), with host operations before and after the region.

  When the windows' arrays are pairwise distinct, each array is held whole at the full share and the run around the
  region is the library's. When two input windows read one array, each holds only a part of that array's share, and two
  things have to be said by the certificate: how the buffers behind the arrays, each whole at the full share, are dealt
  out to the windows at the region's entry (`hsplit`), and that at the region's exit the windows' holdings are again
  those buffers whole at the full share, at exit contents `Wx` (`hjoin`). Between the two the operations after the
  region run exactly as they do for distinct arrays: within all the unscoped buffers held at `Wx`, writing no array.
  The conclusion names every window's array at what the proof data computes and every bypassing buffer at what the
  later operations leave of the exit contents.
-/
import Idealize.ShloMosaic.Lib.Pipeline.FrameSuffix

noncomputable section

namespace Idealize.ShloMosaic.Pipeline.SharedFrame

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open Idealize.ShloMosaic Idealize.ShloMosaic.Pipeline Idealize.ShloMosaic.Rounds
open TcCoe

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The post of the run: each window's array at what the proof data computes after the last point, and every
    unscoped buffer that is no window's array at `W`. -/
def Post (W : (c : Dev nD) → (b : Ref sig .tc) → Buf Val ((c.tc : Thread nD τ).loc b)) (r : PUnit × MemSt nD τ sig Val) : Prop :=
  ∀ c : Dev nD, (∀ w, r.2.mem (((cfg).spec w).arr.view.loc (c.tc : Thread nD τ)) = (dats p c).arrAt w (cfg).N)
    ∧ ∀ b ∈ restRefs sig (cfg).spec, r.2.mem ((c.tc : Thread nD τ).loc b) = W c b

/-- The buffers behind the arrays and the bypassing buffers, all at one valuation, are every unscoped buffer held at it. -/
theorem all_held (hunscoped : ∀ w, (arrRef (cfg).spec w).isScoped = false) (c : Dev nD) (W : Valuation τ sig Val) :
    iprop((arrBufs (cfg).spec c (fun b => W (Proc.devRef .tc b)) : sProp 𝕄) ∗ unscopedRest (cfg).spec c (fun b => W (Proc.devRef .tc b)))
      = StableHlo.held (c.tc : Thread nD τ) (ucRefs τ sig) W := by
  rw [← unscopedBufs_split₀ cfgs p hunscoped c (fun b => W (Proc.devRef .tc b))]
  exact unscopedBufs_held (Ix := Unit) (Name := ℕ) (U := UR sig nD τ) (Lvl := ℕ) c W

/-- THE LINES AFTER THE REGION, for windows that may share arrays: from the region's exit — the boundary, the windows'
    holdings, which are the buffers behind the arrays whole at `Wx` (`hjoin`), and the bypassing buffers at `V`, where
    `Wx` is `V` — the lines run within the unscoped buffers, write no array, and hand back the windows' holdings and the
    bypassing buffers at what the lines leave. -/
theorem tail_shared (hunscoped : ∀ w, (arrRef (cfg).spec w).isScoped = false)
    (c : Dev nD) (V Wx : Valuation τ sig Val) (opss : List (List (HloOp τ sig Val)))
    (hsub : ∀ ops ∈ opss, ∀ op ∈ ops, op.bufs ⊆ ucRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (AN : sProp 𝕄)
    (hjoin₁ : AN ⊢ arrBufs (cfg).spec c (fun b => Wx (Proc.devRef .tc b)))
    (hjoin₂ : (arrBufs (cfg).spec c (fun b => Wx (Proc.devRef .tc b)) : sProp 𝕄) ⊢ AN)
    (hWx : ∀ b : Ref sig .tc, (∀ w, arrRef (cfg).spec w ≠ b) → Wx (Proc.devRef .tc b) = V (Proc.devRef .tc b))
    (Q' : PUnit → sProp 𝕄) :
    iprop((iprop(AN ∗ unscopedRest (cfg).spec c (fun b => StableHlo.after opss.flatten Wx (Proc.devRef .tc b))) -∗ Q' ⟨⟩)
        ∗ boundary (c.tc : Thread nD τ) ∗ AN ∗ unscopedRest (cfg).spec c (fun b => V (Proc.devRef .tc b)))
      ⊢ wp frame (wpE 𝔻 (Variants.lift 𝒱₀) (c.tc : Thread nD τ) none) Set.univ (chain (opss.map StableHlo.seq)) Q' := by
  classical
  -- the bypassing buffers hold `Wx`, which is `V` on them
  have hrest : (unscopedRest (cfg).spec c (fun b => V (Proc.devRef .tc b)) : sProp 𝕄)
      = unscopedRest (cfg).spec c (fun b => Wx (Proc.devRef .tc b)) := by
    unfold unscopedRest
    exact bigSep_congr fun b hb => by
      dsimp only
      rw [hWx b fun w e => (Finset.mem_sdiff.mp hb).2 (Finset.mem_image.mpr ⟨w, Finset.mem_univ _, e⟩)]
  -- no line writes an array: the buffers behind the arrays hold `Wx` after the lines too
  have harr : (arrBufs (cfg).spec c (fun b => StableHlo.after opss.flatten Wx (Proc.devRef .tc b)) : sProp 𝕄)
      = arrBufs (cfg).spec c (fun b => Wx (Proc.devRef .tc b)) := by
    unfold arrBufs
    exact bigSep_congr fun b hb => by
      obtain ⟨w, -, rfl⟩ := Finset.mem_image.mp hb
      dsimp only
      rw [StableHlo.after_of_forall_not_mem _ _ fun op hop => ?_]
      obtain ⟨ops, hops, hop⟩ := List.mem_flatten.mp hop
      exact hkeep ops hops op hop w
  have hpre : iprop(boundary (c.tc : Thread nD τ) ∗ AN ∗ unscopedRest (cfg).spec c (fun b => V (Proc.devRef .tc b)))
      ⊢ iprop(boundary (c.tc : Thread nD τ) ∗ (StableHlo.held (c.tc : Thread nD τ) (ucRefs τ sig) Wx : sProp 𝕄)) := by
    rw [hrest, ← all_held cfgs p hunscoped c Wx]
    exact sep_mono .rfl (sep_mono hjoin₁ .rfl)
  have hpost : (StableHlo.held (c.tc : Thread nD τ) (ucRefs τ sig) (StableHlo.after opss.flatten Wx) : sProp 𝕄)
      ⊢ iprop(AN ∗ unscopedRest (cfg).spec c (fun b => StableHlo.after opss.flatten Wx (Proc.devRef .tc b))) := by
    rw [← all_held cfgs p hunscoped c (StableHlo.after opss.flatten Wx), harr]
    exact sep_mono hjoin₂ .rfl
  rw [← List.append_nil (opss.map StableHlo.seq)]
  iintro ⟨Hk, Hb⟩
  ihave Hb := hpre $$ Hb
  iapply (wp_seqs_then (fun q => Cfg.toPCfg (Val := Val) (cfgs q)) defs₀ 𝒱₀ c (ucRefs τ sig) [] opss hsub hfresh Wx) $$ Hb
  iintro Hb
  rw [chain_nil, wp_pure]
  imodintro
  iapply Hk
  icases Hb with ⟨-, H⟩
  iapply hpost
  iexact H

/-- THE FRAME RUN around the region for windows that may share arrays: as the library's run for distinct arrays
    (`θ_run_frame_around_track`), with the layout facts less the arrays' distinctness, the deal of the buffers behind
    the arrays at entry (`hsplit`) and their reassembly at exit, at the exit valuation `Wx` (`hjoin₁`, `hjoin₂`, `hWx`). -/
theorem θ_run_frame_around_shared
    (hw : WinFacts₀ (cfg).spec) (hcell : Function.Injective (cellOf (nD := nD) (τ := τ) cfgs))
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ Wx : Dev nD → Valuation τ sig Val) (opss : List (List (HloOp τ sig Val)))
    (hsub : ∀ ops ∈ opss, ∀ op ∈ ops, op.bufs ⊆ ucRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfg).spec c (fun b => V₀ c (Proc.devRef .tc b)) : sProp 𝕄) ⊢ (dats p c).arrays ((dats p c).arrAt · 0))
    (hjoin₁ : ∀ c, (dats p c).arrays ((dats p c).arrAt · (cfg).N) ⊢ (arrBufs (cfg).spec c (fun b => Wx c (Proc.devRef .tc b)) : sProp 𝕄))
    (hjoin₂ : ∀ c, (arrBufs (cfg).spec c (fun b => Wx c (Proc.devRef .tc b)) : sProp 𝕄) ⊢ (dats p c).arrays ((dats p c).arrAt · (cfg).N))
    (hWx : ∀ c (b : Ref sig .tc), (∀ w, arrRef (cfg).spec w ≠ b) → Wx c (Proc.devRef .tc b) = V₀ c (Proc.devRef .tc b))
    (hin : ∀ c, ΦA (cfg).spec c ⊢ (dats p c).Φ 0) (hout : ∀ c, (dats p c).Φ (Fin.last (cfg).N) ⊢ ΦA (cfg).spec c) :
    θ_run 𝔻 (onTc main) (s₀ m g)
      (Post cfgs dats p (fun c b => StableHlo.after opss.flatten (Wx c) (Proc.devRef .tc b))) := by
  classical
  have hcell' : Function.Injective (cellOf (nD := nD) (τ := τ) (pin (fun q => (cfgs q).toPCfg (Val := Val)) (fun q => (cfgs q).toPCfg_adm))) := hcell
  exact θ_run_region_pf_tail (fun q => (cfgs q).toPCfg (Val := Val)) (fun q => (cfgs q).toPCfg_adm) dats () hcell' p hw
    (OwnSemFacts.none (cfg).spec) (PreFacts.none _) emb₁ defs₀ 𝒱₀ m g main
    (fun _ => chain (opss.map StableHlo.seq)) hbody hne harr hstage howed
    (G := fun _ => iprop(emp)) (u₀ := initOf (cells _ hcell') (launchToks _ hcell'))
    (hu₀ := by
      iintro Hu; imodintro
      isplitl [Hu]; · iapply (show (ownU _ : sProp 𝕄) ⊢ BI.own (emb₁ (initOf (cells _ hcell') (launchToks _ hcell'))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := hsplit)
    (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfg).spec c (fun b => V₀ c (Proc.devRef .tc b)))
    (Z' := fun c => unscopedRest (Ix := Unit) (Name := ℕ) (U := UR sig nD τ) (Lvl := ℕ) (cfg).spec c (fun b => StableHlo.after opss.flatten (Wx c) (Proc.devRef .tc b)))
    (hX := fun c => by
      rw [show (unscopedRestP (Ix := Unit) (Name := ℕ) (U := UR sig nD τ) (Lvl := ℕ) ((cfg).toPCfg (Val := Val)).pre (cfg).spec c (fun b => V₀ c (Proc.devRef .tc b)) : sProp 𝕄)
        = unscopedRest (cfg).spec c (fun b => V₀ c (Proc.devRef .tc b)) from unscopedRestP_none _ _ _]
      iintro ⟨HU, -, -, -, Hp, -⟩; imodintro
      isplitl [Hp]; · iexists _; iexact Hp
      iexact HU)
    (hin := fun c => (show _ ⊢ ΦA (cfg).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => tail_shared cfgs p defs₀ 𝒱₀ hw.arr_unscoped c (V₀ c) (Wx c) opss hsub hfresh hkeep _ (hjoin₁ c) (hjoin₂ c) (hWx c) Q')
    (QY := fun c s => ∀ b ∈ restRefs sig (cfg).spec, s.mem ((c.tc : Thread nD τ).loc b) = StableHlo.after opss.flatten (Wx c) (Proc.devRef .tc b))
    (hY := fun c s' => by
      iintro ⟨-, HU, HSI⟩
      unfold unscopedRest
      imodintro
      iapply (pointsTo_read_all (restRefs sig (cfg).spec) (fun b => (c.tc : Thread nD τ).loc b) (fun b => StableHlo.after opss.flatten (Wx c) (Proc.devRef .tc b)) s')
      isplitl [HU] <;> iassumption)
    (hQ := fun s h c => ⟨(h c).1, (h c).2.2⟩)

end Idealize.ShloMosaic.Pipeline.SharedFrame

end
-- ==== Proof.KB_Frame.lean ====
/-
  The frame of the kernel program: it runs to the end, faults nowhere, and leaves its four argument arrays unchanged.

  The region has seven windows over six arrays: the first argument (the stacked heat-map and embedding channels) is read
  through two input windows, each holding one half of its share; the second argument, the two one-hot arrays the host
  built, and the two results are staged by one window each. At entry the six buffers, each whole at the full share,
  are dealt to the seven windows (the first argument's points-to split in its two halves); at exit the halves are put
  together again, the inputs as they were and the two results at what the write-backs left. The host operations after
  the region write only their own result buffers, so the arguments end as launched.
-/
import proofs.«130083_j14061722927137_2_alg».proof.Proof.KB_Body
import proofs.«130083_j14061722927137_2_alg».proof.Proof.KB_Main
import proofs.«130083_j14061722927137_2_alg».proof.Proof.LibSharedFrame

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is left: the entry contents with the two result arrays at what the
    write-backs of all the points left. -/
def Wx (c : Dev nD) : Valuation τ sig (Elt F) :=
  Function.update (Function.update (V0 m c) (Proc.devRef .tc main_v24_0) ((dats m 0 c).arrAt 5 cfg0.N))
    (Proc.devRef .tc main_v24_1) ((dats m 0 c).arrAt 6 cfg0.N)

theorem Wx_v24_1 (c : Dev nD) : Wx m c (Proc.devRef .tc main_v24_1) = (dats m 0 c).arrAt 6 cfg0.N := by
  unfold Wx; exact Function.update_self ..
theorem Wx_v24_0 (c : Dev nD) : Wx m c (Proc.devRef .tc main_v24_0) = (dats m 0 c).arrAt 5 cfg0.N := by
  unfold Wx
  rw [Function.update_of_ne (StableHlo.devRef_ne_of_ne (by decide))]
  exact Function.update_self ..
/-- Every other buffer leaves the region as it entered. -/
theorem Wx_of_ne (c : Dev nD) (b : Ref sig .tc) (h0 : b ≠ main_v24_0) (h1 : b ≠ main_v24_1) :
    Wx m c (Proc.devRef .tc b) = V0 m c (Proc.devRef .tc b) := by
  unfold Wx
  rw [Function.update_of_ne (StableHlo.devRef_ne_of_ne h1), Function.update_of_ne (StableHlo.devRef_ne_of_ne h0)]

theorem hWx (c : Dev nD) (b : Ref sig .tc) (h : ∀ w, Pipeline.arrRef spec0 w ≠ b) :
    Wx m c (Proc.devRef .tc b) = V0 m c (Proc.devRef .tc b) :=
  Wx_of_ne m c b (fun e => h 5 e.symm) (fun e => h 6 e.symm)

/-- The six distinct buffers behind the seven windows' arrays. -/
theorem arrBufs_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_arg1) ↦{fullShare} W main_arg1)
          ∗ (((c : Thread nD τ).loc main_v17) ↦{fullShare} W main_v17) ∗ (((c : Thread nD τ).loc main_v23) ↦{fullShare} W main_v23)
          ∗ (((c : Thread nD τ).loc main_v24_0) ↦{fullShare} W main_v24_0) ∗ (((c : Thread nD τ).loc main_v24_1) ↦{fullShare} W main_v24_1)) := by
  unfold Pipeline.arrBufs
  rw [BI.bigSep_eq_bigSepL_of_eq [main_arg0, main_arg1, main_v17, main_v23, main_v24_0, main_v24_1] (by decide) (by decide)]
  rfl

/-- The windows' holdings at contents `G`, window by window: the two windows on the first argument a half each. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare} G 2) ∗ (((c : Thread nD τ).loc main_v17) ↦{fullShare} G 3)
          ∗ (((c : Thread nD τ).loc main_v23) ↦{fullShare} G 4) ∗ (((c : Thread nD τ).loc main_v24_0) ↦{fullShare} G 5)
          ∗ (((c : Thread nD τ).loc main_v24_1) ↦{fullShare} G 6)) := by
  unfold Dat.arrays
  rw [bigSep_W0]
  simp only [(arr_whole0 0).set_eq_univ, (arr_whole0 1).set_eq_univ, (arr_whole0 2).set_eq_univ, (arr_whole0 3).set_eq_univ,
    (arr_whole0 4).set_eq_univ, (arr_whole0 5).set_eq_univ, (arr_whole0 6).set_eq_univ]
  rfl

/-- ENTRY: the six buffers, whole, dealt to the seven windows. -/
theorem hsplit (c : Dev nD) :
    (Pipeline.arrBufs spec0 c (fun b => V0 m c (Proc.devRef .tc b)) : sProp 𝕄) ⊢ (dats m 0 c).arrays ((dats m 0 c).arrAt · 0) := by
  rw [arrBufs_eq, arrays_eq]
  iintro ⟨H0, H1, H2, H3, H4, H5⟩
  ihave H0 := (pointsTo_share (PosShare.mem_left_op_right fullShare)).1 $$ H0
  icases H0 with ⟨H0l, H0r⟩
  isplitl [H0l]; · iexact H0l
  isplitl [H0r]; · iexact H0r
  isplitl [H1]; · iexact H1
  isplitl [H2]; · iexact H2
  isplitl [H3]; · iexact H3
  isplitl [H4]; · iexact H4
  iexact H5

/-- What each window's array holds after the last point: an input its entry contents, a result what the write-backs left. -/
theorem arrAt_N (c : Dev nD) (w : Fin cfg0.W) :
    (dats m 0 c).arrAt w cfg0.N = Wx m c (Proc.devRef .tc (Pipeline.arrRef spec0 w)) := by
  fin_cases w
  · exact ((dats m 0 c).arrAt_in 0 rfl _).trans ((A_eq m c 0).trans (Wx_of_ne m c main_arg0 (by decide) (by decide)).symm)
  · exact ((dats m 0 c).arrAt_in 1 rfl _).trans ((A_eq m c 1).trans (Wx_of_ne m c main_arg0 (by decide) (by decide)).symm)
  · exact ((dats m 0 c).arrAt_in 2 rfl _).trans ((A_eq m c 2).trans (Wx_of_ne m c main_arg1 (by decide) (by decide)).symm)
  · exact ((dats m 0 c).arrAt_in 3 rfl _).trans ((A_eq m c 3).trans (Wx_of_ne m c main_v17 (by decide) (by decide)).symm)
  · exact ((dats m 0 c).arrAt_in 4 rfl _).trans ((A_eq m c 4).trans (Wx_of_ne m c main_v23 (by decide) (by decide)).symm)
  · exact (Wx_v24_0 m c).symm
  · exact (Wx_v24_1 m c).symm

/-- EXIT: the seven windows' holdings are the six buffers whole again, at the exit contents, -/
theorem hjoin₁ (c : Dev nD) :
    (dats m 0 c).arrays ((dats m 0 c).arrAt · cfg0.N) ⊢ (Pipeline.arrBufs spec0 c (fun b => Wx m c (Proc.devRef .tc b)) : sProp 𝕄) := by
  rw [arrBufs_eq, arrays_eq]
  simp only [arrAt_N]
  iintro ⟨H0l, H0r, H1, H2, H3, H4, H5⟩
  isplitl [H0l H0r]
  · iapply (pointsTo_share (PosShare.mem_left_op_right fullShare)).2
    isplitl [H0l] <;> iassumption
  isplitl [H1]; · iexact H1
  isplitl [H2]; · iexact H2
  isplitl [H3]; · iexact H3
  isplitl [H4]; · iexact H4
  iexact H5
/-- and back. -/
theorem hjoin₂ (c : Dev nD) :
    (Pipeline.arrBufs spec0 c (fun b => Wx m c (Proc.devRef .tc b)) : sProp 𝕄) ⊢ (dats m 0 c).arrays ((dats m 0 c).arrAt · cfg0.N) := by
  rw [arrBufs_eq, arrays_eq]
  simp only [arrAt_N]
  iintro ⟨H0, H1, H2, H3, H4, H5⟩
  ihave H0 := (pointsTo_share (PosShare.mem_left_op_right fullShare)).1 $$ H0
  icases H0 with ⟨H0l, H0r⟩
  isplitl [H0l]; · iexact H0l
  isplitl [H0r]; · iexact H0r
  isplitl [H1]; · iexact H1
  isplitl [H2]; · iexact H2
  isplitl [H3]; · iexact H3
  isplitl [H4]; · iexact H4
  iexact H5

set_option backward.isDefEq.respectTransparency.types false in
/-- THE RUN: every weakly fair execution of @main terminates, with each window's array at what the proof data computes
    and every other unscoped buffer at what the later host operations leave of the exit contents. -/
theorem run_main : θ_run defs (onTc (τ := τ) (main (F := F))) (s₀ m ρ)
    (Pipeline.SharedFrame.Post cfgs (dats m) 0 (fun c b => StableHlo.after (List.flatten postOps) (Wx m c) (Proc.devRef .tc b))) :=
  Pipeline.SharedFrame.θ_run_frame_around_shared cfgs (dats m) (0 : Fin 1) defs₀ Variants.none winFacts₀0 cellOf_inj block_pos0 arr_whole0 stage_whole0
    m ρ main (hbody := fun c => (body_obligation m c).loose) (howed := fun _ _ => rfl)
    (V₀ := V0 m) (Wx := Wx m) (opss := postOps) (hsub := post_sub) (hfresh := post_fresh) (hkeep := post_keeps)
    (hmain := hmain m Variants.none) (hsplit := hsplit m) (hjoin₁ := hjoin₁ m) (hjoin₂ := hjoin₂ m) (hWx := hWx m)
    (hin := fun _ => .rfl) (hout := fun _ => .rfl)

end Cert.Kernel.Fr

end
-- ==== Proof.KB_OneHotArgs.lean ====
/-
  The four argument arrays as the kernel region finds them. The operations that run before the region (rounding
  the keypoint coordinates, clamping them, building the two one-hot arrays) each write a fresh array of their own
  and none writes an argument, so every argument array is still what was launched.
-/
import proofs.«130083_j14061722927137_2_alg».proof.Proof.KB_Entry
import Idealize.ShloMosaic.Lib.StableHlo.Run

noncomputable section

namespace Cert.Kernel.OneHot

open Cert.Kernel Cert.Kernel.Gen Cert.Kernel.Fr Idealize.ShloMosaic Idealize.ShloMosaic.TcCoe Idealize.SL.Sem

variable {F : FTy → Type} [FloatOps F]
variable (m : (ℓ : Loc nD τ sig) → Buf (Elt F) ℓ)

/-- No operation before the region writes the first argument array: the region finds it as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [preOps, hostOps0, hostOps0_1, hostOps0_2, hostOps0_3, hostOps0_4, hostOps0_5, List.flatten_cons, List.flatten_nil, List.append_nil, List.cons_append, List.nil_append, List.Forall, StableHlo.nullary_writes, StableHlo.unary_writes, StableHlo.binary_writes,
      StableHlo.reshape_writes, Finset.mem_singleton]
    repeat' apply And.intro
    all_goals exact StableHlo.devRef_ne_of_ne (by decide)))

/-- No operation before the region writes the second argument array: the region finds it as launched. -/
theorem V_arg1 (c : Dev nD) : V m c main_arg1 = m ((c : Thread nD τ).loc main_arg1) :=
  StableHlo.after_of_forall_not_mem (b := Proc.devRef .tc main_arg1) _ _ (List.forall_iff_forall_mem.mp (by
    simp only [preOps, hostOps0, hostOps0_1, hostOps0_2, hostOps0_3, hostOps0_4, hostOps0_5, List.flatten_cons, List.flatten_nil, List.append_nil, List.cons_append, List.nil_append, List.Forall, StableHlo.nullary_writes, StableHlo.unary_writes, StableHlo.binary_writes,
      StableHlo.reshape_writes, Finset.mem_singleton]
    repeat' apply And.intro
    all_goals exact StableHlo.devRef_ne_of_ne (by decide)))

/-- No operation before the region writes the third argument array: the region finds it as launched. -/
theorem V_arg2 (c : Dev nD) : V m c main_arg2 = m ((c : Thread nD τ).loc main_arg2) :=
  StableHlo.after_of_forall_not_mem (b := Proc.devRef .tc main_arg2) _ _ (List.forall_iff_forall_mem.mp (by
    simp only [preOps, hostOps0, hostOps0_1, hostOps0_2, hostOps0_3, hostOps0_4, hostOps0_5, List.flatten_cons, List.flatten_nil, List.append_nil, List.cons_append, List.nil_append, List.Forall, StableHlo.nullary_writes, StableHlo.unary_writes, StableHlo.binary_writes,
      StableHlo.reshape_writes, Finset.mem_singleton]
    repeat' apply And.intro
    all_goals exact StableHlo.devRef_ne_of_ne (by decide)))

/-- No operation before the region writes the fourth argument array: the region finds it as launched. -/
theorem V_arg3 (c : Dev nD) : V m c main_arg3 = m ((c : Thread nD τ).loc main_arg3) :=
  StableHlo.after_of_forall_not_mem (b := Proc.devRef .tc main_arg3) _ _ (List.forall_iff_forall_mem.mp (by
    simp only [preOps, hostOps0, hostOps0_1, hostOps0_2, hostOps0_3, hostOps0_4, hostOps0_5, List.flatten_cons, List.flatten_nil, List.append_nil, List.cons_append, List.nil_append, List.Forall, StableHlo.nullary_writes, StableHlo.unary_writes, StableHlo.binary_writes,
      StableHlo.reshape_writes, Finset.mem_singleton]
    repeat' apply And.intro
    all_goals exact StableHlo.devRef_ne_of_ne (by decide)))

end Cert.Kernel.OneHot

end
-- ==== Proof.KB_Args.lean ====
/-
  No host operation after the region writes an argument array: each writes only its own result buffer. So an argument
  that bypasses the region ends at its launch contents, and one the region stages ends at its entry contents, which no
  operation before the region wrote either.
-/
import proofs.«130083_j14061722927137_2_alg».proof.Proof.KB_Frame
import proofs.«130083_j14061722927137_2_alg».proof.Proof.KB_OneHotArgs

set_option maxRecDepth 16384

noncomputable section

namespace Cert.Kernel.Fr

open Idealize.ShloMosaic Idealize.ShloMosaic.TcCoe
open Idealize.SL Idealize.SL.Sem
open Idealize.ShloMosaic.Pipeline (Dat Cfg)
open Cert.Kernel Cert.Kernel.Gen

variable {F : FTy → Type} [FloatOps F]

theorem hostOps1_keepsArgs : ∀ op ∈ (hostOps1 : List (HloOp τ sig (Elt F))), Proc.devRef (τ := τ) .tc main_arg2 ∉ op.writes ∧ Proc.devRef (τ := τ) .tc main_arg3 ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_1_keepsArgs : ∀ op ∈ (hostOps1_1 : List (HloOp τ sig (Elt F))), Proc.devRef (τ := τ) .tc main_arg2 ∉ op.writes ∧ Proc.devRef (τ := τ) .tc main_arg3 ∉ op.writes := by
  intro op hop
  simp only [hostOps1_1, List.mem_cons, List.mem_nil_iff, or_false] at hop
  rcases hop with rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_2_keepsArgs : ∀ op ∈ (hostOps1_2 : List (HloOp τ sig (Elt F))), Proc.devRef (τ := τ) .tc main_arg2 ∉ op.writes ∧ Proc.devRef (τ := τ) .tc main_arg3 ∉ op.writes := by
  intro op hop
  simp only [hostOps1_2, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_3_keepsArgs : ∀ op ∈ (hostOps1_3 : List (HloOp τ sig (Elt F))), Proc.devRef (τ := τ) .tc main_arg2 ∉ op.writes ∧ Proc.devRef (τ := τ) .tc main_arg3 ∉ op.writes := by
  intro op hop
  simp only [hostOps1_3, List.mem_cons, List.mem_nil_iff, or_false] at hop
  rcases hop with rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_4_keepsArgs : ∀ op ∈ (hostOps1_4 : List (HloOp τ sig (Elt F))), Proc.devRef (τ := τ) .tc main_arg2 ∉ op.writes ∧ Proc.devRef (τ := τ) .tc main_arg3 ∉ op.writes := by
  intro op hop
  simp only [hostOps1_4, List.mem_cons, List.mem_nil_iff, or_false] at hop
  rcases hop with rfl | rfl | rfl | rfl | rfl | rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_5_keepsArgs : ∀ op ∈ (hostOps1_5 : List (HloOp τ sig (Elt F))), Proc.devRef (τ := τ) .tc main_arg2 ∉ op.writes ∧ Proc.devRef (τ := τ) .tc main_arg3 ∉ op.writes := by
  intro op hop
  simp only [hostOps1_5, List.mem_cons, List.mem_nil_iff, or_false] at hop
  rcases hop with rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_6_keepsArgs : ∀ op ∈ (hostOps1_6 : List (HloOp τ sig (Elt F))), Proc.devRef (τ := τ) .tc main_arg2 ∉ op.writes ∧ Proc.devRef (τ := τ) .tc main_arg3 ∉ op.writes := by
  intro op hop
  simp only [hostOps1_6, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_7_keepsArgs : ∀ op ∈ (hostOps1_7 : List (HloOp τ sig (Elt F))), Proc.devRef (τ := τ) .tc main_arg2 ∉ op.writes ∧ Proc.devRef (τ := τ) .tc main_arg3 ∉ op.writes := by
  intro op hop
  simp only [hostOps1_7, List.mem_cons, List.mem_nil_iff, or_false] at hop
  rcases hop with rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_8_keepsArgs : ∀ op ∈ (hostOps1_8 : List (HloOp τ sig (Elt F))), Proc.devRef (τ := τ) .tc main_arg2 ∉ op.writes ∧ Proc.devRef (τ := τ) .tc main_arg3 ∉ op.writes := by
  intro op hop
  simp only [hostOps1_8, List.mem_cons, List.mem_nil_iff, or_false] at hop
  rcases hop with rfl | rfl | rfl | rfl | rfl | rfl | rfl | rfl | rfl | rfl | rfl | rfl | rfl | rfl | rfl | rfl | rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_9_keepsArgs : ∀ op ∈ (hostOps1_9 : List (HloOp τ sig (Elt F))), Proc.devRef (τ := τ) .tc main_arg2 ∉ op.writes ∧ Proc.devRef (τ := τ) .tc main_arg3 ∉ op.writes := by
  intro op hop
  simp only [hostOps1_9, List.mem_cons, List.mem_nil_iff, or_false] at hop
  rcases hop with rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_10_keepsArgs : ∀ op ∈ (hostOps1_10 : List (HloOp τ sig (Elt F))), Proc.devRef (τ := τ) .tc main_arg2 ∉ op.writes ∧ Proc.devRef (τ := τ) .tc main_arg3 ∉ op.writes := by
  intro op hop
  simp only [hostOps1_10, List.mem_cons, List.mem_nil_iff, or_false] at hop
  rcases hop with rfl | rfl | rfl | rfl | rfl | rfl | rfl | rfl | rfl | rfl | rfl | rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No operation after the region writes the third or the fourth argument. -/
theorem post_keepsArgs : ∀ op ∈ List.flatten (postOps : List (List (HloOp τ sig (Elt F)))),
    Proc.devRef (τ := τ) .tc main_arg2 ∉ op.writes ∧ Proc.devRef (τ := τ) .tc main_arg3 ∉ op.writes := by
  intro op hop
  obtain ⟨ops, hops, hop⟩ := List.mem_flatten.mp hop
  simp only [postOps, List.mem_cons, List.mem_nil_iff, or_false] at hops
  rcases hops with rfl | rfl | rfl | rfl | rfl | rfl | rfl | rfl | rfl | rfl | rfl
  · exact hostOps1_keepsArgs op hop
  · exact hostOps1_1_keepsArgs op hop
  · exact hostOps1_2_keepsArgs op hop
  · exact hostOps1_3_keepsArgs op hop
  · exact hostOps1_4_keepsArgs op hop
  · exact hostOps1_5_keepsArgs op hop
  · exact hostOps1_6_keepsArgs op hop
  · exact hostOps1_7_keepsArgs op hop
  · exact hostOps1_8_keepsArgs op hop
  · exact hostOps1_9_keepsArgs op hop
  · exact hostOps1_10_keepsArgs op hop

variable (m : (ℓ : Loc nD τ sig) → Buf (Elt F) ℓ) (ρ : Dev nD → PrngReg)

/-- THE FRAME: every weakly fair execution of @main terminates, nothing faulting, and the four argument arrays end as
    launched. The first two are staged by the region's input windows (never written back); the last two bypass it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
    (((h c).1 0).trans ((dats m 0 c).arrAt_in 0 rfl _)).trans ((A_eq m c 0).trans (Cert.Kernel.OneHot.V_arg0 m c)),
    (((h c).1 2).trans ((dats m 0 c).arrAt_in 2 rfl _)).trans ((A_eq m c 2).trans (Cert.Kernel.OneHot.V_arg1 m c)),
    ((h c).2 main_arg2 (Pipeline.mem_restRefs_of main_arg2 (by decide) (by decide))).trans
      ((StableHlo.after_of_forall_not_mem _ _ fun op hop => (post_keepsArgs op hop).1).trans
        ((Wx_of_ne m c main_arg2 (by decide) (by decide)).trans (Cert.Kernel.OneHot.V_arg2 m c))),
    ((h c).2 main_arg3 (Pipeline.mem_restRefs_of main_arg3 (by decide) (by decide))).trans
      ((StableHlo.after_of_forall_not_mem _ _ fun op hop => (post_keepsArgs op hop).2).trans
        ((Wx_of_ne m c main_arg3 (by decide) (by decide)).trans (Cert.Kernel.OneHot.V_arg3 m c)))⟩)
    (run_main m ρ)

end Cert.Kernel.Fr

end
-- ==== Proof.KI_Entry.lean ====
/-
  The contents of core `c`'s buffers when the kernel region is entered: the launch memory run through the host
  operations that precede the region (rounding the keypoint coordinates, clamping them, the two one-hot arrays),
  and the operations that follow it, as two lists of stretches. The first argument array is read through two
  windows (the heat-map channels and the embedding channels), so each of the two holds one half of that array's share.
-/
import proofs.«130083_j14061722927137_2_alg».proof.Proof.Gen.KernelIdeal.Launch
import proofs.«130083_j14061722927137_2_alg».proof.Proof.Gen.KernelIdeal.Points
import Idealize.ShloMosaic.Lib.Pipeline.FrameSuffix

noncomputable section

namespace Cert.KernelIdeal.Fr

open Idealize.ShloMosaic Idealize.ShloMosaic.TcCoe Idealize.SL.Sem Idealize.SL.RA
open Cert.KernelIdeal Cert.KernelIdeal.Gen

variable {F : FTy → Type} [FloatOps F]

/-- The stretches of host operations before the region, in order. -/
abbrev preOps : List (List (HloOp τ sig (Elt F))) :=
  [hostOps0, hostOps0_1, hostOps0_2, hostOps0_3, hostOps0_4, hostOps0_5]

/-- The stretches of host operations after the region, in order. -/
abbrev postOps : List (List (HloOp τ sig (Elt F))) :=
  [hostOps1, hostOps1_1, hostOps1_2, hostOps1_3, hostOps1_4, hostOps1_5, hostOps1_6, hostOps1_7, hostOps1_8, hostOps1_9, hostOps1_10]

variable (m : (ℓ : Loc nD τ sig) → Buf (Elt F) ℓ)

/-- Core `c`'s buffer contents when the region is entered, as a valuation. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

/-- The share of its array each input window holds: the two windows on the first argument a half each. -/
abbrev qOf : Fin cfg0.W → PosShare TreeShare
  | ⟨0, _⟩ => fullShare.left
  | ⟨1, _⟩ => fullShare.right
  | _ => fullShare

end Cert.KernelIdeal.Fr

end
-- ==== Proof.KI_Body.lean ====
/-
  The kernel body of the one region, on whole staging buffers: what it leaves in the two output buffers as a closed
  function of the five input blocks, the body's triple, the pipeline's proof data over those closed forms, and the
  body obligation at every grid point.

  At a grid point the body reads three blocks of twelve 256×256 channels (the predicted heat maps, the predicted
  embedding maps, the target heat maps) and two blocks of twelve 10×256 one-hot tables (the clamped column and row
  coordinate of ten keypoints per channel). It writes
    * the sum over all twelve channels and all pixels of the squared difference of the two heat-map blocks, repeated
      over 128 lanes, and
    * for each channel k one column of ten numbers: the one-hot row table times the embedding channel (a 10×256 by
      256×256 product), multiplied entrywise by the one-hot column table and summed along the 256 columns — the
      embedding value at each keypoint.
  The twelve columns are stored one by one and tile the 10×12 output block, so the block's final contents do not
  depend on what it held before; the same for the single store of the 128 lanes.
-/
import proofs.«130083_j14061722927137_2_alg».proof.Proof.KI_Entry
import proofs.«130083_j14061722927137_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

-- membership of an index in a rectangle of these extents is checked by structural recursion along the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The windows' blocks -/

/-- Window `w`'s block at grid point `t`: the window's rectangle of its array, read off the array's contents when the
    region is entered. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block at every point, whether the pipeline fetched it
    at that point or not (unfetched, the block index has not moved since the last fetch): for any proof data whose
    array is the region-entry contents and whose body leaves the block in place. The window is whole (never cut) and
    never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds the window's block at every point, whether the pipeline fetched it
    at that point or not (unfetched, the block index has not moved since the last fetch): for any proof data whose
    array is the region-entry contents and whose body leaves the block in place. The window is whole (never cut) and
    never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds the window's block at every point, whether the pipeline fetched it
    at that point or not (unfetched, the block index has not moved since the last fetch): for any proof data whose
    array is the region-entry contents and whose body leaves the block in place. The window is whole (never cut) and
    never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds the window's block at every point, whether the pipeline fetched it
    at that point or not (unfetched, the block index has not moved since the last fetch): for any proof data whose
    array is the region-entry contents and whose body leaves the block in place. The window is whole (never cut) and
    never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds the window's block at every point, whether the pipeline fetched it
    at that point or not (unfetched, the block index has not moved since the last fetch): for any proof data whose
    array is the region-entry contents and whose body leaves the block in place. The window is whole (never cut) and
    never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The rectangles the body reads and writes through -/

/-- A whole block of twelve 256×256 channels (both heat-map blocks are read whole). -/
abbrev rAll : Rect S1x12x256x256 := Rect.unit (s := S1x12x256x256) ![0, 0, 0, 0] S1x12x256x256.size inb_S1x12x256x256_S1x12x256x256_0_0_0_0
/-- Channel `k` of a block of twelve 256×256 channels (the embedding block is read one channel at a time). -/
abbrev rCh0 : Rect S1x12x256x256 := Rect.unit (s := S1x12x256x256) ![0, 0, 0, 0] S1x1x256x256.size inb_S1x12x256x256_S1x1x256x256_0_0_0_0
abbrev rCh1 : Rect S1x12x256x256 := Rect.unit (s := S1x12x256x256) ![0, 1, 0, 0] S1x1x256x256.size inb_S1x12x256x256_S1x1x256x256_0_1_0_0
abbrev rCh2 : Rect S1x12x256x256 := Rect.unit (s := S1x12x256x256) ![0, 2, 0, 0] S1x1x256x256.size inb_S1x12x256x256_S1x1x256x256_0_2_0_0
abbrev rCh3 : Rect S1x12x256x256 := Rect.unit (s := S1x12x256x256) ![0, 3, 0, 0] S1x1x256x256.size inb_S1x12x256x256_S1x1x256x256_0_3_0_0
abbrev rCh4 : Rect S1x12x256x256 := Rect.unit (s := S1x12x256x256) ![0, 4, 0, 0] S1x1x256x256.size inb_S1x12x256x256_S1x1x256x256_0_4_0_0
abbrev rCh5 : Rect S1x12x256x256 := Rect.unit (s := S1x12x256x256) ![0, 5, 0, 0] S1x1x256x256.size inb_S1x12x256x256_S1x1x256x256_0_5_0_0
abbrev rCh6 : Rect S1x12x256x256 := Rect.unit (s := S1x12x256x256) ![0, 6, 0, 0] S1x1x256x256.size inb_S1x12x256x256_S1x1x256x256_0_6_0_0
abbrev rCh7 : Rect S1x12x256x256 := Rect.unit (s := S1x12x256x256) ![0, 7, 0, 0] S1x1x256x256.size inb_S1x12x256x256_S1x1x256x256_0_7_0_0
abbrev rCh8 : Rect S1x12x256x256 := Rect.unit (s := S1x12x256x256) ![0, 8, 0, 0] S1x1x256x256.size inb_S1x12x256x256_S1x1x256x256_0_8_0_0
abbrev rCh9 : Rect S1x12x256x256 := Rect.unit (s := S1x12x256x256) ![0, 9, 0, 0] S1x1x256x256.size inb_S1x12x256x256_S1x1x256x256_0_9_0_0
abbrev rCh10 : Rect S1x12x256x256 := Rect.unit (s := S1x12x256x256) ![0, 10, 0, 0] S1x1x256x256.size inb_S1x12x256x256_S1x1x256x256_0_10_0_0
abbrev rCh11 : Rect S1x12x256x256 := Rect.unit (s := S1x12x256x256) ![0, 11, 0, 0] S1x1x256x256.size inb_S1x12x256x256_S1x1x256x256_0_11_0_0
/-- Channel `k`'s 10×256 one-hot table within a block of twelve. -/
abbrev rHot0 : Rect S1x12x10x256 := Rect.unit (s := S1x12x10x256) ![0, 0, 0, 0] S1x1x10x256.size inb_S1x12x10x256_S1x1x10x256_0_0_0_0
abbrev rHot1 : Rect S1x12x10x256 := Rect.unit (s := S1x12x10x256) ![0, 1, 0, 0] S1x1x10x256.size inb_S1x12x10x256_S1x1x10x256_0_1_0_0
abbrev rHot2 : Rect S1x12x10x256 := Rect.unit (s := S1x12x10x256) ![0, 2, 0, 0] S1x1x10x256.size inb_S1x12x10x256_S1x1x10x256_0_2_0_0
abbrev rHot3 : Rect S1x12x10x256 := Rect.unit (s := S1x12x10x256) ![0, 3, 0, 0] S1x1x10x256.size inb_S1x12x10x256_S1x1x10x256_0_3_0_0
abbrev rHot4 : Rect S1x12x10x256 := Rect.unit (s := S1x12x10x256) ![0, 4, 0, 0] S1x1x10x256.size inb_S1x12x10x256_S1x1x10x256_0_4_0_0
abbrev rHot5 : Rect S1x12x10x256 := Rect.unit (s := S1x12x10x256) ![0, 5, 0, 0] S1x1x10x256.size inb_S1x12x10x256_S1x1x10x256_0_5_0_0
abbrev rHot6 : Rect S1x12x10x256 := Rect.unit (s := S1x12x10x256) ![0, 6, 0, 0] S1x1x10x256.size inb_S1x12x10x256_S1x1x10x256_0_6_0_0
abbrev rHot7 : Rect S1x12x10x256 := Rect.unit (s := S1x12x10x256) ![0, 7, 0, 0] S1x1x10x256.size inb_S1x12x10x256_S1x1x10x256_0_7_0_0
abbrev rHot8 : Rect S1x12x10x256 := Rect.unit (s := S1x12x10x256) ![0, 8, 0, 0] S1x1x10x256.size inb_S1x12x10x256_S1x1x10x256_0_8_0_0
abbrev rHot9 : Rect S1x12x10x256 := Rect.unit (s := S1x12x10x256) ![0, 9, 0, 0] S1x1x10x256.size inb_S1x12x10x256_S1x1x10x256_0_9_0_0
abbrev rHot10 : Rect S1x12x10x256 := Rect.unit (s := S1x12x10x256) ![0, 10, 0, 0] S1x1x10x256.size inb_S1x12x10x256_S1x1x10x256_0_10_0_0
abbrev rHot11 : Rect S1x12x10x256 := Rect.unit (s := S1x12x10x256) ![0, 11, 0, 0] S1x1x10x256.size inb_S1x12x10x256_S1x1x10x256_0_11_0_0
/-- The whole 128-lane output block. -/
abbrev rLanes : Rect S1x1x128 := Rect.unit (s := S1x1x128) ![0, 0, 0] S1x1x128.size inb_S1x1x128_S1x1x128_0_0_0
/-- Column `k` (ten entries) of the 10×12 output block. -/
abbrev rCol0 : Rect S1x10x12 := Rect.unit (s := S1x10x12) ![0, 0, 0] S1x10x1.size inb_S1x10x12_S1x10x1_0_0_0
abbrev rCol1 : Rect S1x10x12 := Rect.unit (s := S1x10x12) ![0, 0, 1] S1x10x1.size inb_S1x10x12_S1x10x1_0_0_1
abbrev rCol2 : Rect S1x10x12 := Rect.unit (s := S1x10x12) ![0, 0, 2] S1x10x1.size inb_S1x10x12_S1x10x1_0_0_2
abbrev rCol3 : Rect S1x10x12 := Rect.unit (s := S1x10x12) ![0, 0, 3] S1x10x1.size inb_S1x10x12_S1x10x1_0_0_3
abbrev rCol4 : Rect S1x10x12 := Rect.unit (s := S1x10x12) ![0, 0, 4] S1x10x1.size inb_S1x10x12_S1x10x1_0_0_4
abbrev rCol5 : Rect S1x10x12 := Rect.unit (s := S1x10x12) ![0, 0, 5] S1x10x1.size inb_S1x10x12_S1x10x1_0_0_5
abbrev rCol6 : Rect S1x10x12 := Rect.unit (s := S1x10x12) ![0, 0, 6] S1x10x1.size inb_S1x10x12_S1x10x1_0_0_6
abbrev rCol7 : Rect S1x10x12 := Rect.unit (s := S1x10x12) ![0, 0, 7] S1x10x1.size inb_S1x10x12_S1x10x1_0_0_7
abbrev rCol8 : Rect S1x10x12 := Rect.unit (s := S1x10x12) ![0, 0, 8] S1x10x1.size inb_S1x10x12_S1x10x1_0_0_8
abbrev rCol9 : Rect S1x10x12 := Rect.unit (s := S1x10x12) ![0, 0, 9] S1x10x1.size inb_S1x10x12_S1x10x1_0_0_9
abbrev rCol10 : Rect S1x10x12 := Rect.unit (s := S1x10x12) ![0, 0, 10] S1x10x1.size inb_S1x10x12_S1x10x1_0_0_10
abbrev rCol11 : Rect S1x10x12 := Rect.unit (s := S1x10x12) ![0, 0, 11] S1x10x1.size inb_S1x10x12_S1x10x1_0_0_11

/-! ## What the body leaves in each output buffer -/

/-- The 128-lane output buffer after the body, from the two heat-map blocks: its one store, of the whole buffer — the
    squared differences summed over pixels and channels, repeated over the lanes. -/
def out0_5 (x0 x2 : Vec F S1x12x256x256 .f32) : Vec F S1x1x128 .f32 :=
  View.canon [⟨rLanes, k0_pay3 (View.ld x0 rAll) (View.ld x2 rAll)⟩]

/-- The one store is of the whole buffer, so it covers it. -/
theorem cover0_5 (p0 : Vec F S1x1x128 .f32) (y : S1x1x128.Idx) :
    ∃ pc ∈ ([⟨rLanes, p0⟩] : List (View.Piece (Elt F) S1x1x128 .f32)), y ∈ pc.1.set :=
  View.cover_of_tiled [⟨rLanes, p0⟩] S1x1x128.size (by rfl) y

/-- The 10×12 output buffer after the body, from the embedding block `x1` and the two one-hot blocks `x3` (columns)
    and `x4` (rows): its twelve column stores, the last one first. Column `k` holds, for each of the ten keypoints, the
    sum over the 256 columns of (row table of channel `k` times embedding channel `k`) times the column table of
    channel `k`. -/
def out0_6 (x1 : Vec F S1x12x256x256 .f32) (x3 x4 : Vec F S1x12x10x256 .f32) : Vec F S1x10x12 .f32 :=
  View.canon [⟨rCol11, k0_pay2 (View.ld x4 rHot11) (View.ld x3 rHot11) (View.ld x1 rCh11)⟩,
    ⟨rCol10, k0_pay1 (k0_pay22 (View.ld x4 rHot10)) (k0_pay23 (View.ld x3 rHot10)) (View.ld x1 rCh10)⟩,
    ⟨rCol9, k0_pay21 (View.ld x4 rHot9) (View.ld x3 rHot9) (View.ld x1 rCh9)⟩,
    ⟨rCol8, k0_pay20 (k0_pay17 (View.ld x4 rHot8)) (k0_pay18 (View.ld x3 rHot8)) (k0_pay19 (View.ld x1 rCh8))⟩,
    ⟨rCol7, k0_pay16 (View.ld x4 rHot7) (View.ld x3 rHot7) (View.ld x1 rCh7)⟩,
    ⟨rCol6, k0_pay15 (k0_pay13 (View.ld x3 rHot6)) (k0_pay14 (View.ld x4 rHot6) (View.ld x1 rCh6))⟩,
    ⟨rCol5, k0_pay12 (View.ld x4 rHot5) (View.ld x3 rHot5) (View.ld x1 rCh5)⟩,
    ⟨rCol4, k0_pay11 (k0_pay10 (View.ld x4 rHot4) (View.ld x3 rHot4) (View.ld x1 rCh4))⟩,
    ⟨rCol3, k0_pay9 (View.ld x4 rHot3) (View.ld x3 rHot3) (View.ld x1 rCh3)⟩,
    ⟨rCol2, k0_pay8 (k0_pay7 (View.ld x4 rHot2) (View.ld x3 rHot2) (View.ld x1 rCh2))⟩,
    ⟨rCol1, k0_pay6 (View.ld x4 rHot1) (View.ld x3 rHot1) (View.ld x1 rCh1)⟩,
    ⟨rCol0, k0_pay5 (k0_pay4 (View.ld x4 rHot0) (View.ld x3 rHot0) (View.ld x1 rCh0))⟩]

/-- The twelve columns tile the 10×12 buffer, so they cover it. -/
theorem cover0_6 (p0 : Vec F S1x10x1 .f32) (p1 : Vec F S1x10x1 .f32) (p2 : Vec F S1x10x1 .f32) (p3 : Vec F S1x10x1 .f32) (p4 : Vec F S1x10x1 .f32) (p5 : Vec F S1x10x1 .f32) (p6 : Vec F S1x10x1 .f32) (p7 : Vec F S1x10x1 .f32) (p8 : Vec F S1x10x1 .f32) (p9 : Vec F S1x10x1 .f32) (p10 : Vec F S1x10x1 .f32) (p11 : Vec F S1x10x1 .f32) (y : S1x10x12.Idx) :
    ∃ pc ∈ ([⟨rCol11, p0⟩, ⟨rCol10, p1⟩, ⟨rCol9, p2⟩, ⟨rCol8, p3⟩, ⟨rCol7, p4⟩, ⟨rCol6, p5⟩, ⟨rCol5, p6⟩, ⟨rCol4, p7⟩, ⟨rCol3, p8⟩, ⟨rCol2, p9⟩, ⟨rCol1, p10⟩, ⟨rCol0, p11⟩] : List (View.Piece (Elt F) S1x10x12 .f32)), y ∈ pc.1.set :=
  View.cover_of_tiled [⟨rCol11, p0⟩, ⟨rCol10, p1⟩, ⟨rCol9, p2⟩, ⟨rCol8, p3⟩, ⟨rCol7, p4⟩, ⟨rCol6, p5⟩, ⟨rCol5, p6⟩, ⟨rCol4, p7⟩, ⟨rCol3, p8⟩, ⟨rCol2, p9⟩, ⟨rCol1, p10⟩, ⟨rCol0, p11⟩] S1x10x1.size (by rfl) y

/-! ## The body's triple -/

set_option maxHeartbeats 4000000 in
/-- The kernel body on whole staging buffers — the five inputs' reading `x0 … x4`, the two outputs' holding anything —
    runs to the continuation with the inputs' as they were and the outputs' at `out0_5 x0 x2` and `out0_6 x1 x3 x4`.
    The body and its six parts are sequences of loads, stores and pure values; the loads it makes of the output
    buffers before storing into them read values nothing uses. What the stores leave reads as the canonical
    contents of the store lists because those lists cover the buffers. -/
theorem sound_kernel (c : Dev nD) (E : Set ℕ) (i : grid0.Coords) (arg1 : Memref sig .tc .vmem S1x12x256x256 .f32) (harg1 : arg1.IsWhole) (arg2 : Memref sig .tc .vmem S1x12x256x256 .f32) (harg2 : arg2.IsWhole) (arg3 : Memref sig .tc .vmem S1x12x256x256 .f32) (harg3 : arg3.IsWhole) (arg4 : Memref sig .tc .vmem S1x12x10x256 .f32) (harg4 : arg4.IsWhole) (arg5 : Memref sig .tc .vmem S1x12x10x256 .f32) (harg5 : arg5.IsWhole) (arg6 : Memref sig .tc .vmem S1x1x128 .f32) (harg6 : arg6.IsWhole) (arg7 : Memref sig .tc .vmem S1x10x12 .f32) (harg7 : arg7.IsWhole)
    (x0 x1 x2 : Vec F S1x12x256x256 .f32) (x3 x4 : Vec F S1x12x10x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x2) ∗ owns (c : Thread nD τ) arg7 fullShare (out0_6 x1 x3 x4)) -∗ K ⟨⟩))
      ⊢ wp frame (wpE (defs₀ (F := F)) Variants.none c none) E (cc0__combined_kernel i arg1 harg1 arg2 harg2 arg3 harg3 arg4 harg4 arg5 harg5 arg6 harg6 arg7 harg7) K := by
  simp only [cc0__combined_kernel_eq_skeleton]; unfold cc0__combined_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover0_5 _)
  iexists _; isplitr
  swap; · iexact H6
  ipureintro
  try dsimp only
  exact View.read_writes_eq_canon _ _ _ (cover0_6 _ _ _ _ _ _ _ _ _ _ _ _)

/-! ## The pipeline's proof data -/

/-- The proof data of the pipeline on core `c`: the arrays as the region finds them; after the body at point `t` each
    input's buffer at its block and each output's at its closed form over the input blocks; the invariant the part of
    the core's state the body neither reads nor writes; nothing owed. The two windows on the first argument array hold
    half of its share each, every other window its array's full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 2 t)
    | ⟨6, _⟩ => out0_6 (iblk m c 1 t) (iblk m c 3 t) (iblk m c 4 t)
  Φ _ := Pipeline.ΦA spec0 c
  q := qOf
  owed _ := 0

/-- The proof data's arrays are the region-entry contents (the definition projected; the fold over the host operations
    before the region is never opened). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 2 t) := by dsimp only [dats]
theorem after0_6 (c : Dev nD) (t : Fin cfg0.N) : (dats m 0 c).after 6 t = out0_6 (iblk m c 1 t) (iblk m c 3 t) (iblk m c 4 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one: the two outputs' buffers hold whatever the
    previous point (or the launch) left, which the body never uses. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.KI_Main.lean ====
/-
  @main of the kernel program as host operations, the region, host operations: the stretches before the region touch
  TensorCore buffers only and allocate nothing, so @main reduces to the region continued by the later stretches, entered
  at the contents the earlier ones leave; the later stretches touch unscoped buffers only, allocate nothing, and write
  none of the arrays the region's windows stage (each writes its own result buffer).
-/
import proofs.«130083_j14061722927137_2_alg».proof.Proof.KI_Entry

set_option maxRecDepth 16384

noncomputable section

namespace Cert.KernelIdeal.Fr

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor

/-- Every stretch before the region touches TensorCore references only. -/
theorem preOps_sub : (preOps : List (List (HloOp τ sig (Elt F)))).Forall fun ops => ops.Forall fun op => op.bufs ⊆ StableHlo.tcRefs τ sig := by
  simp only [preOps, List.Forall]
  exact ⟨hostOps0_sub, hostOps0_1_sub, hostOps0_2_sub, hostOps0_3_sub, hostOps0_4_sub, hostOps0_5_sub⟩
/-- And allocates nothing. -/
theorem preOps_fresh : (preOps : List (List (HloOp τ sig (Elt F)))).Forall fun ops => ops.Forall fun op => op.fresh = ∅ := by
  simp only [preOps, List.Forall]
  exact ⟨hostOps0_fresh, hostOps0_1_fresh, hostOps0_2_fresh, hostOps0_3_fresh, hostOps0_4_fresh, hostOps0_5_fresh⟩

/-- @main around the region: it reduces to the region continued by the later stretches, at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((postOps : List (List (HloOp τ sig (Elt F)))).map StableHlo.seq)) :=
  Pipeline.hmain_around cfgs 0 defs₀ 𝒱₀ m main preOps postOps preOps_sub preOps_fresh main_chain

/-- The later stretches touch unscoped TensorCore buffers only. -/
theorem post_sub : ∀ ops ∈ (postOps : List (List (HloOp τ sig (Elt F)))), ∀ op ∈ ops, op.bufs ⊆ Pipeline.ucRefs τ sig := by
  intro ops hops op hop
  simp only [postOps, List.mem_cons, List.mem_nil_iff, or_false] at hops
  rcases hops with rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
/-- They allocate nothing. -/
theorem post_fresh : ∀ ops ∈ (postOps : List (List (HloOp τ sig (Elt F)))), ∀ op ∈ ops, op.fresh = ∅ := by
  intro ops hops op hop
  simp only [postOps, List.mem_cons, List.mem_nil_iff, or_false] at hops
  rcases hops with rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
theorem hostOps1_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_1_keeps : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_2_keeps : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_3_keeps : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_4_keeps : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_5_keeps : ∀ op ∈ (hostOps1_5 : List (HloOp τ sig (Elt F))), ∀ w, Proc.devRef .tc (Pipeline.arrRef spec0 w) ∉ op.writes := by
  intro op hop
  simp only [hostOps1_5, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_6_keeps : ∀ op ∈ (hostOps1_6 : List (HloOp τ sig (Elt F))), ∀ w, Proc.devRef .tc (Pipeline.arrRef spec0 w) ∉ op.writes := by
  intro op hop
  simp only [hostOps1_6, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_7_keeps : ∀ op ∈ (hostOps1_7 : List (HloOp τ sig (Elt F))), ∀ w, Proc.devRef .tc (Pipeline.arrRef spec0 w) ∉ op.writes := by
  intro op hop
  simp only [hostOps1_7, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_8_keeps : ∀ op ∈ (hostOps1_8 : List (HloOp τ sig (Elt F))), ∀ w, Proc.devRef .tc (Pipeline.arrRef spec0 w) ∉ op.writes := by
  intro op hop
  simp only [hostOps1_8, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_9_keeps : ∀ op ∈ (hostOps1_9 : List (HloOp τ sig (Elt F))), ∀ w, Proc.devRef .tc (Pipeline.arrRef spec0 w) ∉ op.writes := by
  intro op hop
  simp only [hostOps1_9, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_10_keeps : ∀ op ∈ (hostOps1_10 : List (HloOp τ sig (Elt F))), ∀ w, Proc.devRef .tc (Pipeline.arrRef spec0 w) ∉ op.writes := by
  intro op hop
  simp only [hostOps1_10, List.mem_cons, List.mem_nil_iff, or_false] at hop
  rcases hop with rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- And write none of the arrays the region's windows stage. -/
theorem post_keeps : ∀ ops ∈ (postOps : List (List (HloOp τ sig (Elt F)))), ∀ op ∈ ops,
    ∀ w, Proc.devRef .tc (Pipeline.arrRef spec0 w) ∉ op.writes := by
  intro ops hops op hop
  simp only [postOps, List.mem_cons, List.mem_nil_iff, or_false] at hops
  rcases hops with rfl | rfl | rfl | rfl | rfl | rfl | rfl | rfl | rfl | rfl | rfl
  · exact hostOps1_keeps op hop
  · exact hostOps1_1_keeps op hop
  · exact hostOps1_2_keeps op hop
  · exact hostOps1_3_keeps op hop
  · exact hostOps1_4_keeps op hop
  · exact hostOps1_5_keeps op hop
  · exact hostOps1_6_keeps op hop
  · exact hostOps1_7_keeps op hop
  · exact hostOps1_8_keeps op hop
  · exact hostOps1_9_keeps op hop
  · exact hostOps1_10_keeps op hop

end Cert.KernelIdeal.Fr

end
-- ==== Proof.KI_Frame.lean ====
/-
  The frame of the kernel program: it runs to the end, faults nowhere, and leaves its four argument arrays unchanged.

  The region has seven windows over six arrays: the first argument (the stacked heat-map and embedding channels) is read
  through two input windows, each holding one half of its share; the second argument, the two one-hot arrays the host
  built, and the two results are staged by one window each. At entry the six buffers, each whole at the full share,
  are dealt to the seven windows (the first argument's points-to split in its two halves); at exit the halves are put
  together again, the inputs as they were and the two results at what the write-backs left. The host operations after
  the region write only their own result buffers, so the arguments end as launched.
-/
import proofs.«130083_j14061722927137_2_alg».proof.Proof.KI_Body
import proofs.«130083_j14061722927137_2_alg».proof.Proof.KI_Main
import proofs.«130083_j14061722927137_2_alg».proof.Proof.LibSharedFrame

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is left: the entry contents with the two result arrays at what the
    write-backs of all the points left. -/
def Wx (c : Dev nD) : Valuation τ sig (Elt F) :=
  Function.update (Function.update (V0 m c) (Proc.devRef .tc main_v24_0) ((dats m 0 c).arrAt 5 cfg0.N))
    (Proc.devRef .tc main_v24_1) ((dats m 0 c).arrAt 6 cfg0.N)

theorem Wx_v24_1 (c : Dev nD) : Wx m c (Proc.devRef .tc main_v24_1) = (dats m 0 c).arrAt 6 cfg0.N := by
  unfold Wx; exact Function.update_self ..
theorem Wx_v24_0 (c : Dev nD) : Wx m c (Proc.devRef .tc main_v24_0) = (dats m 0 c).arrAt 5 cfg0.N := by
  unfold Wx
  rw [Function.update_of_ne (StableHlo.devRef_ne_of_ne (by decide))]
  exact Function.update_self ..
/-- Every other buffer leaves the region as it entered. -/
theorem Wx_of_ne (c : Dev nD) (b : Ref sig .tc) (h0 : b ≠ main_v24_0) (h1 : b ≠ main_v24_1) :
    Wx m c (Proc.devRef .tc b) = V0 m c (Proc.devRef .tc b) := by
  unfold Wx
  rw [Function.update_of_ne (StableHlo.devRef_ne_of_ne h1), Function.update_of_ne (StableHlo.devRef_ne_of_ne h0)]

theorem hWx (c : Dev nD) (b : Ref sig .tc) (h : ∀ w, Pipeline.arrRef spec0 w ≠ b) :
    Wx m c (Proc.devRef .tc b) = V0 m c (Proc.devRef .tc b) :=
  Wx_of_ne m c b (fun e => h 5 e.symm) (fun e => h 6 e.symm)

/-- The six distinct buffers behind the seven windows' arrays. -/
theorem arrBufs_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_arg1) ↦{fullShare} W main_arg1)
          ∗ (((c : Thread nD τ).loc main_v17) ↦{fullShare} W main_v17) ∗ (((c : Thread nD τ).loc main_v23) ↦{fullShare} W main_v23)
          ∗ (((c : Thread nD τ).loc main_v24_0) ↦{fullShare} W main_v24_0) ∗ (((c : Thread nD τ).loc main_v24_1) ↦{fullShare} W main_v24_1)) := by
  unfold Pipeline.arrBufs
  rw [BI.bigSep_eq_bigSepL_of_eq [main_arg0, main_arg1, main_v17, main_v23, main_v24_0, main_v24_1] (by decide) (by decide)]
  rfl

/-- The windows' holdings at contents `G`, window by window: the two windows on the first argument a half each. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare} G 2) ∗ (((c : Thread nD τ).loc main_v17) ↦{fullShare} G 3)
          ∗ (((c : Thread nD τ).loc main_v23) ↦{fullShare} G 4) ∗ (((c : Thread nD τ).loc main_v24_0) ↦{fullShare} G 5)
          ∗ (((c : Thread nD τ).loc main_v24_1) ↦{fullShare} G 6)) := by
  unfold Dat.arrays
  rw [bigSep_W0]
  simp only [(arr_whole0 0).set_eq_univ, (arr_whole0 1).set_eq_univ, (arr_whole0 2).set_eq_univ, (arr_whole0 3).set_eq_univ,
    (arr_whole0 4).set_eq_univ, (arr_whole0 5).set_eq_univ, (arr_whole0 6).set_eq_univ]
  rfl

/-- ENTRY: the six buffers, whole, dealt to the seven windows. -/
theorem hsplit (c : Dev nD) :
    (Pipeline.arrBufs spec0 c (fun b => V0 m c (Proc.devRef .tc b)) : sProp 𝕄) ⊢ (dats m 0 c).arrays ((dats m 0 c).arrAt · 0) := by
  rw [arrBufs_eq, arrays_eq]
  iintro ⟨H0, H1, H2, H3, H4, H5⟩
  ihave H0 := (pointsTo_share (PosShare.mem_left_op_right fullShare)).1 $$ H0
  icases H0 with ⟨H0l, H0r⟩
  isplitl [H0l]; · iexact H0l
  isplitl [H0r]; · iexact H0r
  isplitl [H1]; · iexact H1
  isplitl [H2]; · iexact H2
  isplitl [H3]; · iexact H3
  isplitl [H4]; · iexact H4
  iexact H5

/-- What each window's array holds after the last point: an input its entry contents, a result what the write-backs left. -/
theorem arrAt_N (c : Dev nD) (w : Fin cfg0.W) :
    (dats m 0 c).arrAt w cfg0.N = Wx m c (Proc.devRef .tc (Pipeline.arrRef spec0 w)) := by
  fin_cases w
  · exact ((dats m 0 c).arrAt_in 0 rfl _).trans ((A_eq m c 0).trans (Wx_of_ne m c main_arg0 (by decide) (by decide)).symm)
  · exact ((dats m 0 c).arrAt_in 1 rfl _).trans ((A_eq m c 1).trans (Wx_of_ne m c main_arg0 (by decide) (by decide)).symm)
  · exact ((dats m 0 c).arrAt_in 2 rfl _).trans ((A_eq m c 2).trans (Wx_of_ne m c main_arg1 (by decide) (by decide)).symm)
  · exact ((dats m 0 c).arrAt_in 3 rfl _).trans ((A_eq m c 3).trans (Wx_of_ne m c main_v17 (by decide) (by decide)).symm)
  · exact ((dats m 0 c).arrAt_in 4 rfl _).trans ((A_eq m c 4).trans (Wx_of_ne m c main_v23 (by decide) (by decide)).symm)
  · exact (Wx_v24_0 m c).symm
  · exact (Wx_v24_1 m c).symm

/-- EXIT: the seven windows' holdings are the six buffers whole again, at the exit contents, -/
theorem hjoin₁ (c : Dev nD) :
    (dats m 0 c).arrays ((dats m 0 c).arrAt · cfg0.N) ⊢ (Pipeline.arrBufs spec0 c (fun b => Wx m c (Proc.devRef .tc b)) : sProp 𝕄) := by
  rw [arrBufs_eq, arrays_eq]
  simp only [arrAt_N]
  iintro ⟨H0l, H0r, H1, H2, H3, H4, H5⟩
  isplitl [H0l H0r]
  · iapply (pointsTo_share (PosShare.mem_left_op_right fullShare)).2
    isplitl [H0l] <;> iassumption
  isplitl [H1]; · iexact H1
  isplitl [H2]; · iexact H2
  isplitl [H3]; · iexact H3
  isplitl [H4]; · iexact H4
  iexact H5
/-- and back. -/
theorem hjoin₂ (c : Dev nD) :
    (Pipeline.arrBufs spec0 c (fun b => Wx m c (Proc.devRef .tc b)) : sProp 𝕄) ⊢ (dats m 0 c).arrays ((dats m 0 c).arrAt · cfg0.N) := by
  rw [arrBufs_eq, arrays_eq]
  simp only [arrAt_N]
  iintro ⟨H0, H1, H2, H3, H4, H5⟩
  ihave H0 := (pointsTo_share (PosShare.mem_left_op_right fullShare)).1 $$ H0
  icases H0 with ⟨H0l, H0r⟩
  isplitl [H0l]; · iexact H0l
  isplitl [H0r]; · iexact H0r
  isplitl [H1]; · iexact H1
  isplitl [H2]; · iexact H2
  isplitl [H3]; · iexact H3
  isplitl [H4]; · iexact H4
  iexact H5

set_option backward.isDefEq.respectTransparency.types false in
/-- THE RUN: every weakly fair execution of @main terminates, with each window's array at what the proof data computes
    and every other unscoped buffer at what the later host operations leave of the exit contents. -/
theorem run_main : θ_run defs (onTc (τ := τ) (main (F := F))) (s₀ m ρ)
    (Pipeline.SharedFrame.Post cfgs (dats m) 0 (fun c b => StableHlo.after (List.flatten postOps) (Wx m c) (Proc.devRef .tc b))) :=
  Pipeline.SharedFrame.θ_run_frame_around_shared cfgs (dats m) (0 : Fin 1) defs₀ Variants.none winFacts₀0 cellOf_inj block_pos0 arr_whole0 stage_whole0
    m ρ main (hbody := fun c => (body_obligation m c).loose) (howed := fun _ _ => rfl)
    (V₀ := V0 m) (Wx := Wx m) (opss := postOps) (hsub := post_sub) (hfresh := post_fresh) (hkeep := post_keeps)
    (hmain := hmain m Variants.none) (hsplit := hsplit m) (hjoin₁ := hjoin₁ m) (hjoin₂ := hjoin₂ m) (hWx := hWx m)
    (hin := fun _ => .rfl) (hout := fun _ => .rfl)

end Cert.KernelIdeal.Fr

end
-- ==== Proof.OneHotArgs.lean ====
/-
  The four argument arrays as the kernel region finds them. The operations that run before the region (rounding
  the keypoint coordinates, clamping them, building the two one-hot arrays) each write a fresh array of their own
  and none writes an argument, so every argument array is still what was launched.
-/
import proofs.«130083_j14061722927137_2_alg».proof.Proof.KI_Entry
import Idealize.ShloMosaic.Lib.StableHlo.Run

noncomputable section

namespace Cert.KernelIdeal.OneHot

open Cert.KernelIdeal Cert.KernelIdeal.Gen Cert.KernelIdeal.Fr Idealize.ShloMosaic Idealize.ShloMosaic.TcCoe Idealize.SL.Sem

variable {F : FTy → Type} [FloatOps F]
variable (m : (ℓ : Loc nD τ sig) → Buf (Elt F) ℓ)

/-- No operation before the region writes the first argument array: the region finds it as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [preOps, hostOps0, hostOps0_1, hostOps0_2, hostOps0_3, hostOps0_4, hostOps0_5, List.flatten_cons, List.flatten_nil, List.append_nil, List.cons_append, List.nil_append, List.Forall, StableHlo.nullary_writes, StableHlo.unary_writes, StableHlo.binary_writes,
      StableHlo.reshape_writes, Finset.mem_singleton]
    repeat' apply And.intro
    all_goals exact StableHlo.devRef_ne_of_ne (by decide)))

/-- No operation before the region writes the second argument array: the region finds it as launched. -/
theorem V_arg1 (c : Dev nD) : V m c main_arg1 = m ((c : Thread nD τ).loc main_arg1) :=
  StableHlo.after_of_forall_not_mem (b := Proc.devRef .tc main_arg1) _ _ (List.forall_iff_forall_mem.mp (by
    simp only [preOps, hostOps0, hostOps0_1, hostOps0_2, hostOps0_3, hostOps0_4, hostOps0_5, List.flatten_cons, List.flatten_nil, List.append_nil, List.cons_append, List.nil_append, List.Forall, StableHlo.nullary_writes, StableHlo.unary_writes, StableHlo.binary_writes,
      StableHlo.reshape_writes, Finset.mem_singleton]
    repeat' apply And.intro
    all_goals exact StableHlo.devRef_ne_of_ne (by decide)))

/-- No operation before the region writes the third argument array: the region finds it as launched. -/
theorem V_arg2 (c : Dev nD) : V m c main_arg2 = m ((c : Thread nD τ).loc main_arg2) :=
  StableHlo.after_of_forall_not_mem (b := Proc.devRef .tc main_arg2) _ _ (List.forall_iff_forall_mem.mp (by
    simp only [preOps, hostOps0, hostOps0_1, hostOps0_2, hostOps0_3, hostOps0_4, hostOps0_5, List.flatten_cons, List.flatten_nil, List.append_nil, List.cons_append, List.nil_append, List.Forall, StableHlo.nullary_writes, StableHlo.unary_writes, StableHlo.binary_writes,
      StableHlo.reshape_writes, Finset.mem_singleton]
    repeat' apply And.intro
    all_goals exact StableHlo.devRef_ne_of_ne (by decide)))

/-- No operation before the region writes the fourth argument array: the region finds it as launched. -/
theorem V_arg3 (c : Dev nD) : V m c main_arg3 = m ((c : Thread nD τ).loc main_arg3) :=
  StableHlo.after_of_forall_not_mem (b := Proc.devRef .tc main_arg3) _ _ (List.forall_iff_forall_mem.mp (by
    simp only [preOps, hostOps0, hostOps0_1, hostOps0_2, hostOps0_3, hostOps0_4, hostOps0_5, List.flatten_cons, List.flatten_nil, List.append_nil, List.cons_append, List.nil_append, List.Forall, StableHlo.nullary_writes, StableHlo.unary_writes, StableHlo.binary_writes,
      StableHlo.reshape_writes, Finset.mem_singleton]
    repeat' apply And.intro
    all_goals exact StableHlo.devRef_ne_of_ne (by decide)))

end Cert.KernelIdeal.OneHot

end
-- ==== Proof.KI_Args.lean ====
/-
  No host operation after the region writes an argument array: each writes only its own result buffer. So an argument
  that bypasses the region ends at its launch contents, and one the region stages ends at its entry contents, which no
  operation before the region wrote either.
-/
import proofs.«130083_j14061722927137_2_alg».proof.Proof.KI_Frame
import proofs.«130083_j14061722927137_2_alg».proof.Proof.OneHotArgs

set_option maxRecDepth 16384

noncomputable section

namespace Cert.KernelIdeal.Fr

open Idealize.ShloMosaic Idealize.ShloMosaic.TcCoe
open Idealize.SL Idealize.SL.Sem
open Idealize.ShloMosaic.Pipeline (Dat Cfg)
open Cert.KernelIdeal Cert.KernelIdeal.Gen

variable {F : FTy → Type} [FloatOps F]

theorem hostOps1_keepsArgs : ∀ op ∈ (hostOps1 : List (HloOp τ sig (Elt F))), Proc.devRef (τ := τ) .tc main_arg2 ∉ op.writes ∧ Proc.devRef (τ := τ) .tc main_arg3 ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_1_keepsArgs : ∀ op ∈ (hostOps1_1 : List (HloOp τ sig (Elt F))), Proc.devRef (τ := τ) .tc main_arg2 ∉ op.writes ∧ Proc.devRef (τ := τ) .tc main_arg3 ∉ op.writes := by
  intro op hop
  simp only [hostOps1_1, List.mem_cons, List.mem_nil_iff, or_false] at hop
  rcases hop with rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_2_keepsArgs : ∀ op ∈ (hostOps1_2 : List (HloOp τ sig (Elt F))), Proc.devRef (τ := τ) .tc main_arg2 ∉ op.writes ∧ Proc.devRef (τ := τ) .tc main_arg3 ∉ op.writes := by
  intro op hop
  simp only [hostOps1_2, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_3_keepsArgs : ∀ op ∈ (hostOps1_3 : List (HloOp τ sig (Elt F))), Proc.devRef (τ := τ) .tc main_arg2 ∉ op.writes ∧ Proc.devRef (τ := τ) .tc main_arg3 ∉ op.writes := by
  intro op hop
  simp only [hostOps1_3, List.mem_cons, List.mem_nil_iff, or_false] at hop
  rcases hop with rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_4_keepsArgs : ∀ op ∈ (hostOps1_4 : List (HloOp τ sig (Elt F))), Proc.devRef (τ := τ) .tc main_arg2 ∉ op.writes ∧ Proc.devRef (τ := τ) .tc main_arg3 ∉ op.writes := by
  intro op hop
  simp only [hostOps1_4, List.mem_cons, List.mem_nil_iff, or_false] at hop
  rcases hop with rfl | rfl | rfl | rfl | rfl | rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_5_keepsArgs : ∀ op ∈ (hostOps1_5 : List (HloOp τ sig (Elt F))), Proc.devRef (τ := τ) .tc main_arg2 ∉ op.writes ∧ Proc.devRef (τ := τ) .tc main_arg3 ∉ op.writes := by
  intro op hop
  simp only [hostOps1_5, List.mem_cons, List.mem_nil_iff, or_false] at hop
  rcases hop with rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_6_keepsArgs : ∀ op ∈ (hostOps1_6 : List (HloOp τ sig (Elt F))), Proc.devRef (τ := τ) .tc main_arg2 ∉ op.writes ∧ Proc.devRef (τ := τ) .tc main_arg3 ∉ op.writes := by
  intro op hop
  simp only [hostOps1_6, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_7_keepsArgs : ∀ op ∈ (hostOps1_7 : List (HloOp τ sig (Elt F))), Proc.devRef (τ := τ) .tc main_arg2 ∉ op.writes ∧ Proc.devRef (τ := τ) .tc main_arg3 ∉ op.writes := by
  intro op hop
  simp only [hostOps1_7, List.mem_cons, List.mem_nil_iff, or_false] at hop
  rcases hop with rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_8_keepsArgs : ∀ op ∈ (hostOps1_8 : List (HloOp τ sig (Elt F))), Proc.devRef (τ := τ) .tc main_arg2 ∉ op.writes ∧ Proc.devRef (τ := τ) .tc main_arg3 ∉ op.writes := by
  intro op hop
  simp only [hostOps1_8, List.mem_cons, List.mem_nil_iff, or_false] at hop
  rcases hop with rfl | rfl | rfl | rfl | rfl | rfl | rfl | rfl | rfl | rfl | rfl | rfl | rfl | rfl | rfl | rfl | rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_9_keepsArgs : ∀ op ∈ (hostOps1_9 : List (HloOp τ sig (Elt F))), Proc.devRef (τ := τ) .tc main_arg2 ∉ op.writes ∧ Proc.devRef (τ := τ) .tc main_arg3 ∉ op.writes := by
  intro op hop
  simp only [hostOps1_9, List.mem_cons, List.mem_nil_iff, or_false] at hop
  rcases hop with rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_10_keepsArgs : ∀ op ∈ (hostOps1_10 : List (HloOp τ sig (Elt F))), Proc.devRef (τ := τ) .tc main_arg2 ∉ op.writes ∧ Proc.devRef (τ := τ) .tc main_arg3 ∉ op.writes := by
  intro op hop
  simp only [hostOps1_10, List.mem_cons, List.mem_nil_iff, or_false] at hop
  rcases hop with rfl | rfl | rfl | rfl | rfl | rfl | rfl | rfl | rfl | rfl | rfl | rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No operation after the region writes the third or the fourth argument. -/
theorem post_keepsArgs : ∀ op ∈ List.flatten (postOps : List (List (HloOp τ sig (Elt F)))),
    Proc.devRef (τ := τ) .tc main_arg2 ∉ op.writes ∧ Proc.devRef (τ := τ) .tc main_arg3 ∉ op.writes := by
  intro op hop
  obtain ⟨ops, hops, hop⟩ := List.mem_flatten.mp hop
  simp only [postOps, List.mem_cons, List.mem_nil_iff, or_false] at hops
  rcases hops with rfl | rfl | rfl | rfl | rfl | rfl | rfl | rfl | rfl | rfl | rfl
  · exact hostOps1_keepsArgs op hop
  · exact hostOps1_1_keepsArgs op hop
  · exact hostOps1_2_keepsArgs op hop
  · exact hostOps1_3_keepsArgs op hop
  · exact hostOps1_4_keepsArgs op hop
  · exact hostOps1_5_keepsArgs op hop
  · exact hostOps1_6_keepsArgs op hop
  · exact hostOps1_7_keepsArgs op hop
  · exact hostOps1_8_keepsArgs op hop
  · exact hostOps1_9_keepsArgs op hop
  · exact hostOps1_10_keepsArgs op hop

variable (m : (ℓ : Loc nD τ sig) → Buf (Elt F) ℓ) (ρ : Dev nD → PrngReg)

/-- THE FRAME: every weakly fair execution of @main terminates, nothing faulting, and the four argument arrays end as
    launched. The first two are staged by the region's input windows (never written back); the last two bypass it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
    (((h c).1 0).trans ((dats m 0 c).arrAt_in 0 rfl _)).trans ((A_eq m c 0).trans (Cert.KernelIdeal.OneHot.V_arg0 m c)),
    (((h c).1 2).trans ((dats m 0 c).arrAt_in 2 rfl _)).trans ((A_eq m c 2).trans (Cert.KernelIdeal.OneHot.V_arg1 m c)),
    ((h c).2 main_arg2 (Pipeline.mem_restRefs_of main_arg2 (by decide) (by decide))).trans
      ((StableHlo.after_of_forall_not_mem _ _ fun op hop => (post_keepsArgs op hop).1).trans
        ((Wx_of_ne m c main_arg2 (by decide) (by decide)).trans (Cert.KernelIdeal.OneHot.V_arg2 m c))),
    ((h c).2 main_arg3 (Pipeline.mem_restRefs_of main_arg3 (by decide) (by decide))).trans
      ((StableHlo.after_of_forall_not_mem _ _ fun op hop => (post_keepsArgs op hop).2).trans
        ((Wx_of_ne m c main_arg3 (by decide) (by decide)).trans (Cert.KernelIdeal.OneHot.V_arg3 m c)))⟩)
    (run_main m ρ)

end Cert.KernelIdeal.Fr

end
-- ==== Proof.KI_Value.lean ====
/-
  The kernel program's run with its result named: the scalar result buffer ends at what the host operations after the
  region compute from the region's exit contents (the entry contents with the two result arrays at what the
  write-backs left), and the four argument arrays end as launched.
-/
import proofs.«130083_j14061722927137_2_alg».proof.Proof.KI_Args

noncomputable section

namespace Cert.KernelIdeal.Fr

open Idealize.ShloMosaic Idealize.ShloMosaic.TcCoe
open Idealize.SL Idealize.SL.Sem
open Idealize.ShloMosaic.Pipeline (Dat Cfg)
open Cert.KernelIdeal Cert.KernelIdeal.Gen

variable {F : FTy → Type} [FloatOps F]
variable (m : (ℓ : Loc nD τ sig) → Buf (Elt F) ℓ) (ρ : Dev nD → PrngReg)

/-- What the result buffer holds at the end, on core `c`. -/
def result (c : Dev nD) : Buf (Elt F) ((c.tc : Thread nD τ).loc main_v122) :=
  StableHlo.after (List.flatten postOps) (Wx m c) (Proc.devRef .tc main_v122)

theorem value_run : θ_run defs (onTc (τ := τ) (main (F := F))) ⟨m, fun _ => 0, ρ⟩ (fun r => ∀ c : Dev nD,
      r.2.mem ((c.tc : Thread nD τ).loc main_v122) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
    (h c).2 main_v122 (Pipeline.mem_restRefs_of main_v122 (by decide) (by decide)),
    (((h c).1 0).trans ((dats m 0 c).arrAt_in 0 rfl _)).trans ((A_eq m c 0).trans (Cert.KernelIdeal.OneHot.V_arg0 m c)),
    (((h c).1 2).trans ((dats m 0 c).arrAt_in 2 rfl _)).trans ((A_eq m c 2).trans (Cert.KernelIdeal.OneHot.V_arg1 m c)),
    ((h c).2 main_arg2 (Pipeline.mem_restRefs_of main_arg2 (by decide) (by decide))).trans
      ((StableHlo.after_of_forall_not_mem _ _ fun op hop => (post_keepsArgs op hop).1).trans
        ((Wx_of_ne m c main_arg2 (by decide) (by decide)).trans (Cert.KernelIdeal.OneHot.V_arg2 m c))),
    ((h c).2 main_arg3 (Pipeline.mem_restRefs_of main_arg3 (by decide) (by decide))).trans
      ((StableHlo.after_of_forall_not_mem _ _ fun op hop => (post_keepsArgs op hop).2).trans
        ((Wx_of_ne m c main_arg3 (by decide) (by decide)).trans (Cert.KernelIdeal.OneHot.V_arg3 m c)))⟩)
    (run_main m ρ)

end Cert.KernelIdeal.Fr

end
-- ==== Proof.KI_Blocks.lean ====
/-
  Where the blocks of the five input windows sit in their arrays.

  The grid has one point per batch element. At point t every window reads the batch element t of its array; the first argument
  array is read through two windows, channels 0..11 (the heat maps) and channels 12..23 (the embedding maps), the other
  three arrays through one window each. An element of a block at coordinates (0, k, h, w) is therefore the array's
  element at (t, k, h, w), or at (t, 12 + k, h, w) for the second window on the first argument.
-/
import proofs.«130083_j14061722927137_2_alg».proof.Proof.KI_Body
import Idealize.ShloMosaic.Lib.Pipeline.Value
import Idealize.ShloMosaic.Lib.ValueIdx

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

variable (m : (ℓ : Loc nD τ sig) → Buf (Elt Ideal) ℓ)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The four arrays the region reads, as functions into the extended reals -/

/-- The first argument: per batch element twelve predicted heat maps, then twelve embedding maps. -/
abbrev A0 (c : Dev nD) : S32x24x256x256.Idx → EReal := V m c main_arg0
/-- The second argument: per batch element the twelve target heat maps. -/
abbrev A1 (c : Dev nD) : S32x12x256x256.Idx → EReal := V m c main_arg1
/-- The one-hot rows of the clamped horizontal coordinate, per batch element, channel and keypoint. -/
abbrev OX (c : Dev nD) : S32x12x10x256.Idx → EReal := V m c main_v17
/-- The one-hot rows of the clamped vertical coordinate, per batch element, channel and keypoint. -/
abbrev OY (c : Dev nD) : S32x12x10x256.Idx → EReal := V m c main_v23

/-! ## The blocks -/

/-- The printed index maps, decided over the 32 grid points: every window's block index is the point's number on the
    batch axis; the second window on the first argument sits one block further along the channel axis; every other
    block index is zero. -/
theorem idx_facts : ∀ t : Fin cfg0.N,
    win0_0.index t = ![t.val, 0, 0, 0] ∧ win0_1.index t = ![t.val, 1, 0, 0] ∧ win0_2.index t = ![t.val, 0, 0, 0]
    ∧ win0_3.index t = ![t.val, 0, 0, 0] ∧ win0_4.index t = ![t.val, 0, 0, 0]
    ∧ win0_5.index t = ![t.val, 0, 0] ∧ win0_6.index t = ![t.val, 0, 0] :=
  (by decide +kernel : ∀ t : Fin grid0.N, _)

/-- A predicted heat-map block's element is the first argument's at the point's batch element, same channel. -/
theorem iblk0_apply (c : Dev nD) (t : Fin cfg0.N) (b : Fin 32) (hb : b.val = t.val) (k : Fin 12) (h : Fin 256) (w : Fin 256) :
    (iblk m c 0 t : Vec Ideal S1x12x256x256 .f32) (ix4 (0 : Fin 1) k h w)
      = A0 m c (ix4 b ⟨k.val, by omega⟩ h w) := by
  have e := (idx_facts t).1
  have q0 : win0_0.index t (0 : Fin 4) = t.val := congrFun e 0
  have q1 : win0_0.index t (1 : Fin 4) = 0 := congrFun e 1
  have q2 : win0_0.index t (2 : Fin 4) = 0 := congrFun e 2
  have q3 : win0_0.index t (3 : Fin 4) = 0 := congrFun e 3
  unfold iblk
  rw [View.read_apply]
  show V m c main_arg0 _ = V m c main_arg0 _
  refine congrArg _ (funext fun a => Fin.ext ?_)
  match a with
  | ⟨0, _⟩ => show win0_0.index t (0 : Fin 4) * 1 + 1 * (0 : Fin 1).val = b.val; rw [q0, hb]; simp
  | ⟨1, _⟩ => show win0_0.index t (1 : Fin 4) * 12 + 1 * k.val = k.val; rw [q1]; omega
  | ⟨2, _⟩ => show win0_0.index t (2 : Fin 4) * 256 + 1 * h.val = h.val; rw [q2]; omega
  | ⟨3, _⟩ => show win0_0.index t (3 : Fin 4) * 256 + 1 * w.val = w.val; rw [q3]; omega

/-- An embedding block's element is the first argument's at the point's batch element, twelve channels further. -/
theorem iblk1_apply (c : Dev nD) (t : Fin cfg0.N) (b : Fin 32) (hb : b.val = t.val) (k : Fin 12) (h : Fin 256) (w : Fin 256) :
    (iblk m c 1 t : Vec Ideal S1x12x256x256 .f32) (ix4 (0 : Fin 1) k h w)
      = A0 m c (ix4 b ⟨12 + k.val, by omega⟩ h w) := by
  have e := (idx_facts t).2.1
  have q0 : win0_1.index t (0 : Fin 4) = t.val := congrFun e 0
  have q1 : win0_1.index t (1 : Fin 4) = 1 := congrFun e 1
  have q2 : win0_1.index t (2 : Fin 4) = 0 := congrFun e 2
  have q3 : win0_1.index t (3 : Fin 4) = 0 := congrFun e 3
  unfold iblk
  rw [View.read_apply]
  show V m c main_arg0 _ = V m c main_arg0 _
  refine congrArg _ (funext fun a => Fin.ext ?_)
  match a with
  | ⟨0, _⟩ => show win0_1.index t (0 : Fin 4) * 1 + 1 * (0 : Fin 1).val = b.val; rw [q0, hb]; simp
  | ⟨1, _⟩ => show win0_1.index t (1 : Fin 4) * 12 + 1 * k.val = 12 + k.val; rw [q1]; omega
  | ⟨2, _⟩ => show win0_1.index t (2 : Fin 4) * 256 + 1 * h.val = h.val; rw [q2]; omega
  | ⟨3, _⟩ => show win0_1.index t (3 : Fin 4) * 256 + 1 * w.val = w.val; rw [q3]; omega

/-- A target heat-map block's element is the second argument's at the point's batch element. -/
theorem iblk2_apply (c : Dev nD) (t : Fin cfg0.N) (b : Fin 32) (hb : b.val = t.val) (k : Fin 12) (h : Fin 256) (w : Fin 256) :
    (iblk m c 2 t : Vec Ideal S1x12x256x256 .f32) (ix4 (0 : Fin 1) k h w)
      = A1 m c (ix4 b k h w) := by
  have e := (idx_facts t).2.2.1
  have q0 : win0_2.index t (0 : Fin 4) = t.val := congrFun e 0
  have q1 : win0_2.index t (1 : Fin 4) = 0 := congrFun e 1
  have q2 : win0_2.index t (2 : Fin 4) = 0 := congrFun e 2
  have q3 : win0_2.index t (3 : Fin 4) = 0 := congrFun e 3
  unfold iblk
  rw [View.read_apply]
  show V m c main_arg1 _ = V m c main_arg1 _
  refine congrArg _ (funext fun a => Fin.ext ?_)
  match a with
  | ⟨0, _⟩ => show win0_2.index t (0 : Fin 4) * 1 + 1 * (0 : Fin 1).val = b.val; rw [q0, hb]; simp
  | ⟨1, _⟩ => show win0_2.index t (1 : Fin 4) * 12 + 1 * k.val = k.val; rw [q1]; omega
  | ⟨2, _⟩ => show win0_2.index t (2 : Fin 4) * 256 + 1 * h.val = h.val; rw [q2]; omega
  | ⟨3, _⟩ => show win0_2.index t (3 : Fin 4) * 256 + 1 * w.val = w.val; rw [q3]; omega

/-- An element of the block of one-hot rows of the horizontal coordinate is that array's at the point's batch element. -/
theorem iblk3_apply (c : Dev nD) (t : Fin cfg0.N) (b : Fin 32) (hb : b.val = t.val) (k : Fin 12) (h : Fin 10) (w : Fin 256) :
    (iblk m c 3 t : Vec Ideal S1x12x10x256 .f32) (ix4 (0 : Fin 1) k h w)
      = OX m c (ix4 b k h w) := by
  have e := (idx_facts t).2.2.2.1
  have q0 : win0_3.index t (0 : Fin 4) = t.val := congrFun e 0
  have q1 : win0_3.index t (1 : Fin 4) = 0 := congrFun e 1
  have q2 : win0_3.index t (2 : Fin 4) = 0 := congrFun e 2
  have q3 : win0_3.index t (3 : Fin 4) = 0 := congrFun e 3
  unfold iblk
  rw [View.read_apply]
  show V m c main_v17 _ = V m c main_v17 _
  refine congrArg _ (funext fun a => Fin.ext ?_)
  match a with
  | ⟨0, _⟩ => show win0_3.index t (0 : Fin 4) * 1 + 1 * (0 : Fin 1).val = b.val; rw [q0, hb]; simp
  | ⟨1, _⟩ => show win0_3.index t (1 : Fin 4) * 12 + 1 * k.val = k.val; rw [q1]; omega
  | ⟨2, _⟩ => show win0_3.index t (2 : Fin 4) * 10 + 1 * h.val = h.val; rw [q2]; omega
  | ⟨3, _⟩ => show win0_3.index t (3 : Fin 4) * 256 + 1 * w.val = w.val; rw [q3]; omega

/-- An element of the block of one-hot rows of the vertical coordinate is that array's at the point's batch element. -/
theorem iblk4_apply (c : Dev nD) (t : Fin cfg0.N) (b : Fin 32) (hb : b.val = t.val) (k : Fin 12) (h : Fin 10) (w : Fin 256) :
    (iblk m c 4 t : Vec Ideal S1x12x10x256 .f32) (ix4 (0 : Fin 1) k h w)
      = OY m c (ix4 b k h w) := by
  have e := (idx_facts t).2.2.2.2.1
  have q0 : win0_4.index t (0 : Fin 4) = t.val := congrFun e 0
  have q1 : win0_4.index t (1 : Fin 4) = 0 := congrFun e 1
  have q2 : win0_4.index t (2 : Fin 4) = 0 := congrFun e 2
  have q3 : win0_4.index t (3 : Fin 4) = 0 := congrFun e 3
  unfold iblk
  rw [View.read_apply]
  show V m c main_v23 _ = V m c main_v23 _
  refine congrArg _ (funext fun a => Fin.ext ?_)
  match a with
  | ⟨0, _⟩ => show win0_4.index t (0 : Fin 4) * 1 + 1 * (0 : Fin 1).val = b.val; rw [q0, hb]; simp
  | ⟨1, _⟩ => show win0_4.index t (1 : Fin 4) * 12 + 1 * k.val = k.val; rw [q1]; omega
  | ⟨2, _⟩ => show win0_4.index t (2 : Fin 4) * 10 + 1 * h.val = h.val; rw [q2]; omega
  | ⟨3, _⟩ => show win0_4.index t (3 : Fin 4) * 256 + 1 * w.val = w.val; rw [q3]; omega

end Cert.KernelIdeal.Final

end
-- ==== Proof.LibLayoutRead.lean ====
/-
  Layout operations read at explicit coordinates, for the shapes a row-wise normalisation meets.

  A keepdims row statistic lives in a column [a, 1]: it is made from a vector [a] by a shape cast and spread
  back over the b lanes of its row by a broadcast; a parameter vector [b] becomes a row [1, b] and is spread
  over the rows. On the host the same happens one rank up, on [n, g, 1] and [n, g, b], and a matrix [n, g*b] is
  re-read as [n, g, b] by its row-major position p*b + j. Each lemma names the ONE operand element an output element
  reads, with every index written by the literal-size constructors ix1, ix2, ix3.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LayoutRead

open Idealize.ShloMosaic Idealize.ShloMosaic.ValueIdx

variable {α : Type}

/-! ## Rank 2: a column of row statistics -/

/-- A vector [a] cast to the column [a, 1] reads, at (r, u), the vector at r. -/
theorem cast_col {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column [a, 1] broadcast over b lanes reads, at (r, j), the column at row r. -/
theorem bcast_col {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- The lane sum of a matrix, at row r, is the sum of that row (at the extended reals). -/
theorem rowsum {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (funext fun ax => by
      match ax with
      | ⟨0, _⟩ => rfl
      | ⟨1, _⟩ => rfl))

/-! ## The host's forms: broadcast_in_dim, the rank-3 view of the four gates, the host sum -/

/-- A coordinate is what a broadcast asks of it: itself, or zero when its axis has one element. -/
theorem unit_or (n : ℕ) (j : Fin n) : j.val = if n = 1 then 0 else j.val := by
  split
  · have := j.isLt; omega
  · rfl

/-- A rank-zero value broadcast to any shape reads its one element everywhere. -/
theorem bcast_scalar {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun a => a.elim0

/-- A vector [n] as the row [1, n]. -/
theorem bid_row {n : ℕ} (x : (⟨1, ![n]⟩ : Shape).Idx → α) (h : (⟨1, ![n]⟩ : Shape).BroadcastsInDim ⟨2, ![1, n]⟩ ![1])
    (u : Fin 1) (j : Fin n) : broadcastInDim ⟨2, ![1, n]⟩ ![1] h x (ix2 u j) = x (ix1 j) :=
  broadcastInDim_apply _ h x _ _ fun a => by
    match a with
    | ⟨0, _⟩ => exact unit_or n j

/-- A row [1, n] spread over m rows. -/
theorem bid_rows {m n : ℕ} (x : (⟨2, ![1, n]⟩ : Shape).Idx → α) (h : (⟨2, ![1, n]⟩ : Shape).BroadcastsInDim ⟨2, ![m, n]⟩ ![0, 1])
    (b : Fin m) (j : Fin n) : broadcastInDim ⟨2, ![m, n]⟩ ![0, 1] h x (ix2 b j) = x (ix2 (0 : Fin 1) j) :=
  broadcastInDim_apply _ h x _ _ fun a => by
    match a with
    | ⟨0, _⟩ => rfl
    | ⟨1, _⟩ => exact unit_or n j

/-- A vector [m] as the column [m, 1]. -/
theorem bid_col {m : ℕ} (x : (⟨1, ![m]⟩ : Shape).Idx → α) (h : (⟨1, ![m]⟩ : Shape).BroadcastsInDim ⟨2, ![m, 1]⟩ ![0])
    (b : Fin m) (u : Fin 1) : broadcastInDim ⟨2, ![m, 1]⟩ ![0] h x (ix2 b u) = x (ix1 b) :=
  broadcastInDim_apply _ h x _ _ fun a => by
    match a with
    | ⟨0, _⟩ => exact unit_or m b

/-- A column [m, 1] spread over n lanes. -/
theorem bid_cols {m n : ℕ} (x : (⟨2, ![m, 1]⟩ : Shape).Idx → α) (h : (⟨2, ![m, 1]⟩ : Shape).BroadcastsInDim ⟨2, ![m, n]⟩ ![0, 1])
    (b : Fin m) (j : Fin n) : broadcastInDim ⟨2, ![m, n]⟩ ![0, 1] h x (ix2 b j) = x (ix2 b (0 : Fin 1)) :=
  broadcastInDim_apply _ h x _ _ fun a => by
    match a with
    | ⟨0, _⟩ => exact unit_or m b
    | ⟨1, _⟩ => rfl

/-- A matrix [m, g] of per-gate statistics as [m, g, 1]. -/
theorem bid_stat {m g : ℕ} (x : (⟨2, ![m, g]⟩ : Shape).Idx → α) (h : (⟨2, ![m, g]⟩ : Shape).BroadcastsInDim ⟨3, ![m, g, 1]⟩ ![0, 1])
    (b : Fin m) (p : Fin g) (u : Fin 1) : broadcastInDim ⟨3, ![m, g, 1]⟩ ![0, 1] h x (ix3 b p u) = x (ix2 b p) :=
  broadcastInDim_apply _ h x _ _ fun a => by
    match a with
    | ⟨0, _⟩ => exact unit_or m b
    | ⟨1, _⟩ => exact unit_or g p

/-- Per-gate statistics [m, g, 1] spread over the n lanes of each gate. -/
theorem bid_stats {m g n : ℕ} (x : (⟨3, ![m, g, 1]⟩ : Shape).Idx → α)
    (h : (⟨3, ![m, g, 1]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 b p (0 : Fin 1)) :=
  broadcastInDim_apply _ h x _ _ fun a => by
    match a with
    | ⟨0, _⟩ => exact unit_or m b
    | ⟨1, _⟩ => exact unit_or g p
    | ⟨2, _⟩ => rfl

/-- The per-gate parameters [g, n] as [1, g, n]. -/
theorem bid_par {g n : ℕ} (x : (⟨2, ![g, n]⟩ : Shape).Idx → α) (h : (⟨2, ![g, n]⟩ : Shape).BroadcastsInDim ⟨3, ![1, g, n]⟩ ![1, 2])
    (u : Fin 1) (p : Fin g) (j : Fin n) : broadcastInDim ⟨3, ![1, g, n]⟩ ![1, 2] h x (ix3 u p j) = x (ix2 p j) :=
  broadcastInDim_apply _ h x _ _ fun a => by
    match a with
    | ⟨0, _⟩ => exact unit_or g p
    | ⟨1, _⟩ => exact unit_or n j

/-- The per-gate parameters [1, g, n] spread over m rows. -/
theorem bid_pars {m g n : ℕ} (x : (⟨3, ![1, g, n]⟩ : Shape).Idx → α)
    (h : (⟨3, ![1, g, n]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 (0 : Fin 1) p j) :=
  broadcastInDim_apply _ h x _ _ fun a => by
    match a with
    | ⟨0, _⟩ => rfl
    | ⟨1, _⟩ => exact unit_or g p
    | ⟨2, _⟩ => exact unit_or n j

/-- The four gates' pre-activations [m, 4096] re-read as [m, 4, 1024]: gate p, lane j is column 1024 p + j. -/
theorem cast_gates {m : ℕ} (x : (⟨2, ![m, 4096]⟩ : Shape).Idx → α) (h : (⟨2, ![m, 4096]⟩ : Shape).ShapeCasts ⟨3, ![m, 4, 1024]⟩)
    (b : Fin m) (p : Fin 4) (j : Fin 1024) (k : Fin 4096) (hk : k.val = 1024 * p.val + j.val) :
    shapeCast ⟨3, ![m, 4, 1024]⟩ x h (ix3 b p j) = x (ix2 b k) :=
  shapeCast_apply x h _ _ (by
    rw [Shape.rowMajor_val_two, Shape.rowMajor_val_three]
    show b.val * 4096 + k.val = (b.val * 4 + p.val) * 1024 + j.val
    omega)

/-- One gate cut out of [m, 4, n] keeps its row and lane. -/
theorem slice_gate {m n : ℕ} (o : ℕ) (x : (⟨3, ![m, 4, n]⟩ : Shape).Idx → α)
    (h : (⟨3, ![m, 4, n]⟩ : Shape).Slices ![0, o, 0] ⟨3, ![m, 1, n]⟩) (b : Fin m) (u : Fin 1) (j : Fin n) (p : Fin 4)
    (hp : p.val = o) : extractStridedSlice ⟨3, ![m, 1, n]⟩ ![0, o, 0] x h (ix3 b u j) = x (ix3 b p j) :=
  slice3_axis1_apply o x h b u j p (by have := u.isLt; omega)

/-- The cut gate [m, 1, n] as a matrix [m, n]. -/
theorem cast_gate {m n : ℕ} (x : (⟨3, ![m, 1, n]⟩ : Shape).Idx → α) (h : (⟨3, ![m, 1, n]⟩ : Shape).ShapeCasts ⟨2, ![m, n]⟩)
    (b : Fin m) (j : Fin n) : shapeCast ⟨2, ![m, n]⟩ x h (ix2 b j) = x (ix3 b (0 : Fin 1) j) :=
  shapeCast_apply x h _ _ (by
    rw [Shape.rowMajor_val_two, Shape.rowMajor_val_three]
    show (b.val * 1 + 0) * n + j.val = b.val * n + j.val
    rw [Nat.mul_one, Nat.add_zero])

/-- The host's sum over the lanes of each gate: the initial value plus the sum of the gate's lanes. -/
theorem hostsum_gate {m g n : ℕ} (x : FVec Ideal ⟨3, ![m, g, n]⟩ .f32) (init : (⟨0, ![]⟩ : Shape).Idx → Ideal .f32)
    (h' : (⟨3, ![m, g, n]⟩ : Shape).ReducesTo [2] ⟨2, ![m, g]⟩) (h : (⟨3, ![m, g, n]⟩ : Shape).Reduces [2] ⟨2, ![m, g]⟩)
    (hu : 0 < (⟨0, ![]⟩ : Shape).numel) (b : Fin m) (p : Fin g) :
    Host.reduceAdd x init h' hu (ix2 b p) = init ix0 + ∑ k : Fin n, x (ix3 b p k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl
  | ⟨2, _⟩ => rfl

/-- The host's sum over the lanes of a matrix row. -/
theorem hostsum_row {m n : ℕ} (x : FVec Ideal ⟨2, ![m, n]⟩ .f32) (init : (⟨0, ![]⟩ : Shape).Idx → Ideal .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (b : Fin m) :
    Host.reduceAdd x init h' hu (ix1 b) = init ix0 + ∑ k : Fin n, x (ix2 b k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl

end Cert.LayoutRead

end
-- ==== Proof.PayValPose.lean ====
/-
  The heat-map loss of one batch element, read at the extended reals.

  The body subtracts the target heat maps from the predicted ones, squares the difference entrywise and sums it in three
  steps: over the 256 lanes of every row, over the 256 rows of every channel, over the 12 channels. The one number left is
  spread over the 128 lanes of the output block, so every lane reads
      sum over k, h, w of (x(k, h, w) - t(k, h, w))^2,
  the square written as a product. Each reduction over one axis of a rank-3 array is a finite sum over that axis's
  coordinate; the casts between the steps only add or drop axes of extent one.
-/
import proofs.«130083_j14061722927137_2_alg».proof.Proof.Gen.KernelIdeal.Skeleton
import proofs.«130083_j14061722927137_2_alg».proof.Proof.LibLayoutRead
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayVal

open Idealize.ShloMosaic Idealize.ShloMosaic.ValueIdx Cert.KernelIdeal Cert.KernelIdeal.Gen

/-! ## One axis of a rank-3 array summed away -/

/-- The sum over the last axis of an [a, b, c] array, at (i, j), is the sum over k of the array at (i, j, k). -/
theorem sum3_last {a b c : ℕ} (src : FVec Ideal ⟨3, ![a, b, c]⟩ .f32)
    (h : (⟨3, ![a, b, c]⟩ : Shape).Reduces [2] ⟨2, ![a, b]⟩) (i : Fin a) (j : Fin b) :
    multiReduction .add [2] ⟨2, ![a, b]⟩ src 0x00000000#32 h (.inl rfl) rfl (ix2 i j) = ∑ k : Fin c, src (ix3 i j k) :=
  (Ideal.multiReduction_add_single src 0x00000000#32 h (.inl rfl) rfl (ix2 i j)).trans
    (Finset.sum_congr rfl fun k _ => congrArg src (funext fun ax => by
      match ax with
      | ⟨0, _⟩ => rfl
      | ⟨1, _⟩ => rfl
      | ⟨2, _⟩ => rfl))

/-- The sum over the middle axis of an [a, b, c] array, at (i, j), is the sum over k of the array at (i, k, j). -/
theorem sum3_mid {a b c : ℕ} (src : FVec Ideal ⟨3, ![a, b, c]⟩ .f32)
    (h : (⟨3, ![a, b, c]⟩ : Shape).Reduces [1] ⟨2, ![a, c]⟩) (i : Fin a) (j : Fin c) :
    multiReduction .add [1] ⟨2, ![a, c]⟩ src 0x00000000#32 h (.inl rfl) rfl (ix2 i j) = ∑ k : Fin b, src (ix3 i k j) :=
  (Ideal.multiReduction_add_single src 0x00000000#32 h (.inl rfl) rfl (ix2 i j)).trans
    (Finset.sum_congr rfl fun k _ => congrArg src (funext fun ax => by
      match ax with
      | ⟨0, _⟩ => rfl
      | ⟨1, _⟩ => rfl
      | ⟨2, _⟩ => rfl))

/-- The sum over the first axis of an [a, b, c] array, at (i, j), is the sum over k of the array at (k, i, j). -/
theorem sum3_first {a b c : ℕ} (src : FVec Ideal ⟨3, ![a, b, c]⟩ .f32)
    (h : (⟨3, ![a, b, c]⟩ : Shape).Reduces [0] ⟨2, ![b, c]⟩) (i : Fin b) (j : Fin c) :
    multiReduction .add [0] ⟨2, ![b, c]⟩ src 0x00000000#32 h (.inl rfl) rfl (ix2 i j) = ∑ k : Fin a, src (ix3 k i j) :=
  (Ideal.multiReduction_add_single src 0x00000000#32 h (.inl rfl) rfl (ix2 i j)).trans
    (Finset.sum_congr rfl fun k _ => congrArg src (funext fun ax => by
      match ax with
      | ⟨0, _⟩ => rfl
      | ⟨1, _⟩ => rfl
      | ⟨2, _⟩ => rfl))

/-- A matrix [a, b] given a trailing axis of extent one reads, at (i, j, u), the matrix at (i, j). -/
theorem cast_ab_ab1 {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    omega)

/-! ## The loss of one batch element -/

/-- Every lane of the loss block reads the sum of the squared differences over channels, rows and lanes. -/
theorem pose_pay (v0 v2 : Vec Ideal S1x12x256x256 .f32) (j : S1x1x128.Idx) :
    k0_pay3 (F := Ideal) v0 v2 j
      = ∑ k : Fin 12, ∑ h : Fin 256, ∑ w : Fin 256,
          (v0 (ix4 (0 : Fin 1) k h w) - v2 (ix4 (0 : Fin 1) k h w)) * (v0 (ix4 (0 : Fin 1) k h w) - v2 (ix4 (0 : Fin 1) k h w)) := by
  obtain ⟨p, q, l, rfl⟩ : ∃ (p : Fin 1) (q : Fin 1) (l : Fin 128), j = ix3 p q l := ⟨j 0, j 1, j 2, eq_ix3 j⟩
  unfold k0_pay3
  refine (shapeCast_ab_1ab_apply _ _ p q l).trans ?_
  refine (Cert.LayoutRead.bcast_col _ _ q l).trans ?_
  refine (congrFun (shapeCast_self _ _) _).trans ?_
  refine (shapeCast_1ab_ab_apply _ _ q (0 : Fin 1)).trans ?_
  refine (shapeCast_ab_1ab_apply _ _ (0 : Fin 1) q (0 : Fin 1)).trans ?_
  refine (sum3_first _ _ q (0 : Fin 1)).trans ?_
  refine Finset.sum_congr rfl fun k _ => ?_
  refine (cast_ab_ab1 _ _ k q (0 : Fin 1)).trans ?_
  refine (sum3_mid _ _ k q).trans ?_
  refine Finset.sum_congr rfl fun h _ => ?_
  refine (cast_ab_ab1 _ _ k h q).trans ?_
  refine (sum3_last _ _ k h).trans ?_
  refine Finset.sum_congr rfl fun w _ => ?_
  have e0 := shapeCast_1abc_abc_apply v0 shapeCasts_S1x12x256x256_S12x256x256 k h w
  have e2 := shapeCast_1abc_abc_apply v2 shapeCasts_S1x12x256x256_S12x256x256 k h w
  show (shapeCast S12x256x256 v0 shapeCasts_S1x12x256x256_S12x256x256 (ix3 k h w)
        - shapeCast S12x256x256 v2 shapeCasts_S1x12x256x256_S12x256x256 (ix3 k h w))
      * (shapeCast S12x256x256 v0 shapeCasts_S1x12x256x256_S12x256x256 (ix3 k h w)
        - shapeCast S12x256x256 v2 shapeCasts_S1x12x256x256_S12x256x256 (ix3 k h w)) = _
  rw [e0, e2]

end Cert.KernelIdeal.PayVal

end
-- ==== Proof.KI_Final5.lean ====
/-
  The loss array after the region: entry (b, 0, l) is batch element b's sum of squared heat-map differences.

  Grid point t writes one block of 128 equal lanes, row t of the [32, 1, 128] array. The lanes hold the body's loss value
  computed from the two heat-map blocks of point t, which are batch element t of the predicted maps (channels 0..11 of
  the first argument) and of the target maps. The 32 blocks tile the array, so the array ends as that one function
  of the batch index.
-/
import proofs.«130083_j14061722927137_2_alg».proof.Proof.KI_Blocks
import proofs.«130083_j14061722927137_2_alg».proof.Proof.PayValPose

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr Cert.KernelIdeal.PayVal

variable (m : (ℓ : Loc nD τ sig) → Buf (Elt Ideal) ℓ)

/-- Batch element b's loss: the squared differences of predicted and target heat maps summed over channels and pixels. -/
def lossAt (A0 : S32x24x256x256.Idx → EReal) (A1 : S32x12x256x256.Idx → EReal) (b : Fin 32) : EReal :=
  ∑ k : Fin 12, ∑ h : Fin 256, ∑ w : Fin 256,
    (A0 (ix4 b ⟨k.val, by omega⟩ h w) - A1 (ix4 b k h w)) * (A0 (ix4 b ⟨k.val, by omega⟩ h w) - A1 (ix4 b k h w))

/-- The loss array as one function of the two argument arrays. -/
def G5 (A0 : S32x24x256x256.Idx → EReal) (A1 : S32x12x256x256.Idx → EReal) : S32x1x128.Idx → EReal :=
  fun i => lossAt A0 A1 (i 0)

/-- The body's loss value over two blocks that are batch element b of the two arrays is b's loss, at every lane. -/
theorem block5 (x0 x2 : Vec Ideal S1x12x256x256 .f32) (A0 : S32x24x256x256.Idx → EReal) (A1 : S32x12x256x256.Idx → EReal)
    (b : Fin 32)
    (h0 : ∀ (k : Fin 12) (h w : Fin 256), x0 (ix4 (0 : Fin 1) k h w) = A0 (ix4 b ⟨k.val, by omega⟩ h w))
    (h2 : ∀ (k : Fin 12) (h w : Fin 256), x2 (ix4 (0 : Fin 1) k h w) = A1 (ix4 b k h w)) (j : S1x1x128.Idx) :
    k0_pay3 (F := Ideal) x0 x2 j = lossAt A0 A1 b := by
  rw [pose_pay]
  unfold lossAt
  refine Finset.sum_congr rfl fun k _ => Finset.sum_congr rfl fun h _ => Finset.sum_congr rfl fun w _ => ?_
  rw [h0 k h w, h2 k h w]

/-- What point t writes back is block t of the loss array. -/
theorem flushed5_eq (c : Dev nD) (t : Fin cfg0.N) :
    (dats m 0 c).flushed 5 t = ((cfg0.win 5).blk t).view.read (Elt Ideal) (G5 (A0 m c) (A1 m c)) := by
  show (cfg0.win 5).cut (grid0.coords t) ((dats m 0 c).after 5 t) = _
  rw [after0_5]
  unfold out0_5
  rw [View.canon_unit_zero hz3]
  simp only [View.ld_unit_zero (S := S1x12x256x256) hz4]
  funext j
  have hN : cfg0.N = 32 := N_0
  obtain ⟨b, hb⟩ : ∃ b : Fin 32, b.val = t.val := ⟨⟨t.val, hN ▸ t.isLt⟩, rfl⟩
  have e := (idx_facts t).2.2.2.2.2.1
  have q0 : win0_5.index t (0 : Fin 3) = t.val := congrFun e 0
  have hj0 : (j 0).val < 1 := (j 0).isLt
  show k0_pay3 (F := Ideal) (iblk m c 0 t) (iblk m c 2 t) j
      = lossAt (A0 m c) (A1 m c) ((((cfg0.win 5).blk t).view.emb j) 0)
  have hb' : (((cfg0.win 5).blk t).view.emb j) 0 = b := Fin.ext (by
    show win0_5.index t (0 : Fin 3) * 1 + 1 * (j 0).val = b.val
    rw [q0, hb]; omega)
  rw [hb']
  exact block5 (iblk m c 0 t) (iblk m c 2 t) (A0 m c) (A1 m c) b
    (fun k h w => iblk0_apply m c t b hb k h w) (fun k h w => iblk2_apply m c t b hb k h w) j

/-- An index of the loss array is in point t's block iff each coordinate is in the block's range on its axis. -/
theorem mem_blk5 (t : Fin cfg0.N) (i : S32x1x128.Idx) :
    i ∈ ((cfg0.win 5).blk t).view.set ↔ ∀ a : Fin 3, win0_5.index t a * S1x1x128.size a ≤ (i a).val
      ∧ (i a).val < win0_5.index t a * S1x1x128.size a + S1x1x128.size a := by
  show i ∈ ((View.whole main_v24_0).slice (win0_5.rect t)).set ↔ _
  rw [View.set_slice_whole, Rect.mem_set_unit]
  exact Iff.rfl

/-- Row b of the loss array is point b's block. -/
theorem cover5 (i : S32x1x128.Idx) :
    ∃ t : Fin cfg0.N, (cfg0.win 5).flush t = true ∧ i ∈ ((cfg0.win 5).blk t).view.set := by
  have hN : cfg0.N = 32 := N_0
  have hi0 : (i 0).val < 32 := (i 0).isLt
  have hi1 : (i 1).val < 1 := (i 1).isLt
  have hi2 : (i 2).val < 128 := (i 2).isLt
  obtain ⟨t, ht⟩ : ∃ t : Fin cfg0.N, t.val = (i 0).val := ⟨⟨(i 0).val, hN.symm ▸ hi0⟩, rfl⟩
  refine ⟨t, flush0_5 t, ?_⟩
  rw [mem_blk5]
  have e := (idx_facts t).2.2.2.2.2.1
  have q0 : win0_5.index t (0 : Fin 3) = t.val := congrFun e 0
  have q1 : win0_5.index t (1 : Fin 3) = 0 := congrFun e 1
  have q2 : win0_5.index t (2 : Fin 3) = 0 := congrFun e 2
  intro a
  match a with
  | ⟨0, _⟩ =>
    show win0_5.index t (0 : Fin 3) * 1 ≤ (i 0).val ∧ (i 0).val < win0_5.index t (0 : Fin 3) * 1 + 1
    rw [q0]; omega
  | ⟨1, _⟩ =>
    show win0_5.index t (1 : Fin 3) * 1 ≤ (i 1).val ∧ (i 1).val < win0_5.index t (1 : Fin 3) * 1 + 1
    rw [q1]; omega
  | ⟨2, _⟩ =>
    show win0_5.index t (2 : Fin 3) * 128 ≤ (i 2).val ∧ (i 2).val < win0_5.index t (2 : Fin 3) * 128 + 128
    rw [q2]; omega

/-- The loss array after the region, as the one function of the two argument arrays. -/
theorem final5_G (c : Dev nD) : (dats m 0 c).arrAt 5 cfg0.N = G5 (A0 m c) (A1 m c) :=
  (dats m 0 c).arrAt_eq_of_cover 5 (G5 (A0 m c) (A1 m c)) (fun t _ => flushed5_eq m c t) cover5

/-- The same with the function written out: entry (b, 0, l) is the sum over channels and pixels of the squared difference of
    batch element b's predicted and target heat maps. -/
theorem final5 (c : Dev nD) :
    @Eq (S32x1x128.Idx → EReal) ((dats m 0 c).arrAt 5 cfg0.N)
      (fun i => ∑ k : Fin 12, ∑ h : Fin 256, ∑ w : Fin 256,
          (A0 m c (ix4 (i 0) ⟨k.val, by omega⟩ h w) - A1 m c (ix4 (i 0) k h w))
            * (A0 m c (ix4 (i 0) ⟨k.val, by omega⟩ h w) - A1 m c (ix4 (i 0) k h w))) :=
  final5_G m c

end Cert.KernelIdeal.Final

end
-- ==== Proof.LibDotRead.lean ====
/-
  A plain matrix product read at an entry.

  For a two-dimensional product with one contracted axis — rows × contraction times contraction × columns, no batch
  axis — the entry (r, k) of the product into a zero accumulator is the finite sum Σ j, lhs (r, j) · rhs (j, k) over the
  contraction's coordinate j : Fin n. The dimension record enters only through the four coordinate facts below
  (which operand coordinate each output and contraction coordinate supplies); for a printed record each of them is
  decided or holds by unfolding. The same sum is what the host's general dot product computes, so the two forms
  meet term by term.
-/
import Idealize.ShloMosaic.PureOps.Ideal
import Idealize.ShloMosaic.PureOps.Ideal.Laws
import Idealize.ShloMosaic.Lib.ValueIdx

noncomputable section

namespace Cert.DotRead

open Idealize.ShloMosaic Idealize.ShloMosaic.ValueIdx

/-- The four coordinate facts of a plain two-dimensional product whose contraction has the one coordinate of extent n:
    the left operand is read at (output row, contraction), the right one at (contraction, output column). -/
structure Plain {m n p : ℕ} (d : DotDims ⟨2, ![m, n]⟩ ⟨2, ![n, p]⟩ ⟨2, ![m, p]⟩) : Prop where
  rank : d.contr.rank = 1
  size : d.contr.size ⟨0, by omega⟩ = n
  lhs0 : ∀ (i : (⟨2, ![m, p]⟩ : Shape).Idx) (q : d.contr.Idx), (d.lhsIdx i q 0).val = (i 0).val
  lhs1 : ∀ (i : (⟨2, ![m, p]⟩ : Shape).Idx) (q : d.contr.Idx), (d.lhsIdx i q 1).val = (q ⟨0, by omega⟩).val
  rhs0 : ∀ (i : (⟨2, ![m, p]⟩ : Shape).Idx) (q : d.contr.Idx), (d.rhsIdx i q 0).val = (q ⟨0, by omega⟩).val
  rhs1 : ∀ (i : (⟨2, ![m, p]⟩ : Shape).Idx) (q : d.contr.Idx), (d.rhsIdx i q 1).val = (i 1).val

/-- Entry (r, k) of a plain product into the zero accumulator is Σ j, lhs (r, j) · rhs (j, k). -/
theorem matmul_zero_apply {m n p : ℕ} {φ₁ φ₂ : FTy} (d : DotDims ⟨2, ![m, n]⟩ ⟨2, ![n, p]⟩ ⟨2, ![m, p]⟩) (hd : Plain d)
    (prec : Option ContractPrecision) (lhs : FVec Ideal ⟨2, ![m, n]⟩ φ₁) (rhs : FVec Ideal ⟨2, ![n, p]⟩ φ₂) (r : Fin m) (k : Fin p) :
    matmul d prec lhs rhs (constant (F := Ideal) ⟨2, ![m, p]⟩ .f32 0x00000000#32) (ix2 r k)
      = ∑ j : Fin n, lhs (ix2 r j) * rhs (ix2 j k) := by
  simp only [matmul]
  rw [Ideal.matmul_constant_zero_apply, ← Equiv.sum_comp (contrEquiv1 d n hd.rank hd.size).symm]
  refine Finset.sum_congr rfl fun j _ => ?_
  have hj := contrEquiv1_symm_val d n hd.rank hd.size j
  have el : d.lhsIdx (ix2 r k) ((contrEquiv1 d n hd.rank hd.size).symm j) = ix2 r j := funext fun a => Fin.ext (by
    match a with
    | ⟨0, _⟩ => exact hd.lhs0 _ _
    | ⟨1, _⟩ => exact (hd.lhs1 _ _).trans hj)
  have er : d.rhsIdx (ix2 r k) ((contrEquiv1 d n hd.rank hd.size).symm j) = ix2 j k := funext fun a => Fin.ext (by
    match a with
    | ⟨0, _⟩ => exact (hd.rhs0 _ _).trans hj
    | ⟨1, _⟩ => exact hd.rhs1 _ _)
  rw [el, er]

end Cert.DotRead

end
-- ==== Proof.PayValCol.lean ====
/-
  The embedding gather's twelve columns, read entry by entry at the extended reals.

  Each of the twelve iterations forms, for one embedding channel, the product of the one-hot rows of the
  clamped vertical coordinate (a 10 x 256 matrix, one row per keypoint) with the channel's 256 x 256 map, multiplies the result
  entrywise by the one-hot rows of the horizontal coordinate, and sums every row. Read at keypoint r this is
      sum over w of (sum over h of a(r, h) * map(h, w)) * b(r, w),
  with a and b the two one-hot blocks. The dimension record of the product enters through four coordinate facts.
-/
import proofs.«130083_j14061722927137_2_alg».proof.Proof.Gen.KernelIdeal.Skeleton
import proofs.«130083_j14061722927137_2_alg».proof.Proof.LibDotRead
import proofs.«130083_j14061722927137_2_alg».proof.Proof.LibLayoutRead
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayVal

open Idealize.ShloMosaic Idealize.ShloMosaic.ValueIdx Cert.KernelIdeal Cert.KernelIdeal.Gen

/-- A [1, 1, a, b] block viewed as the matrix [a, b] reads, at (i, j), the block at (0, 0, i, j). -/
theorem cast_11ab_ab {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- The product's dimension record is the plain one: rows x contraction times contraction x columns. -/
theorem dot_plain : Cert.DotRead.Plain dot_S10x256_S256x256_S10x256_1_0_0_1_n_n where
  rank := rfl
  size := rfl
  lhs0 := fun _ _ => rfl
  lhs1 := fun _ _ => rfl
  rhs0 := fun _ _ => rfl
  rhs1 := fun _ _ => rfl

/-- One column of the gathered embeddings at keypoint r. -/
theorem col_pay (a b : Vec Ideal S1x1x10x256 .f32) (mp : Vec Ideal S1x1x256x256 .f32) (r : Fin 10) :
    k0_pay6 (F := Ideal) a b mp (ix3 (0 : Fin 1) r (0 : Fin 1))
      = ∑ w : Fin 256, (∑ h : Fin 256, a (ix4 (0 : Fin 1) (0 : Fin 1) r h) * mp (ix4 (0 : Fin 1) (0 : Fin 1) h w))
          * b (ix4 (0 : Fin 1) (0 : Fin 1) r w) := by
  unfold k0_pay6
  refine (shapeCast_ab_1ab_apply _ _ (0 : Fin 1) r (0 : Fin 1)).trans ?_
  refine (Cert.LayoutRead.cast_col _ _ r (0 : Fin 1)).trans ?_
  refine (Cert.LayoutRead.rowsum _ _ r).trans ?_
  refine Finset.sum_congr rfl fun w _ => ?_
  refine congrArg₂ (· * ·) ?_ (cast_11ab_ab b _ r w)
  refine (Cert.DotRead.matmul_zero_apply _ dot_plain _ _ _ r w).trans ?_
  refine Finset.sum_congr rfl fun h _ => ?_
  exact congrArg₂ (· * ·) (cast_11ab_ab a _ r h) (cast_11ab_ab mp _ h w)

end Cert.KernelIdeal.PayVal

end
-- ==== Proof.PayVal.lean ====
/-
  What the body's stored values are, for every float instance and at the extended reals.

  The twelve iterations of the embedding gather are cut at different places by the body's parts, so the stored value of
  each column is spelt as a different composition of the same operations; composed back, all twelve are one function
  of the three blocks read in that iteration (the one-hot rows of the vertical coordinate, those of the horizontal one,
  the channel's map). That function at a keypoint, and the loss value, are read in the two modules imported here. Last,
  the algebra a one-hot factor leaves: a sum against an indicator keeps the one term where the indicator is one.
-/
import proofs.«130083_j14061722927137_2_alg».proof.Proof.PayValCol
import proofs.«130083_j14061722927137_2_alg».proof.Proof.PayValPose

noncomputable section

namespace Cert.KernelIdeal.PayVal

open Idealize.ShloMosaic Idealize.ShloMosaic.ValueIdx Cert.KernelIdeal Cert.KernelIdeal.Gen

/-! ## The twelve columns are one function -/

section Columns
variable {F : FTy → Type} [FloatOps F] (a b : Vec F S1x1x10x256 .f32) (c : Vec F S1x1x256x256 .f32)

theorem col0_eq : k0_pay5 (k0_pay4 a b c) = k0_pay6 a b c := rfl
theorem col1_eq : k0_pay6 a b c = k0_pay6 a b c := rfl
theorem col2_eq : k0_pay8 (k0_pay7 a b c) = k0_pay6 a b c := rfl
theorem col3_eq : k0_pay9 a b c = k0_pay6 a b c := rfl
theorem col4_eq : k0_pay11 (k0_pay10 a b c) = k0_pay6 a b c := rfl
theorem col5_eq : k0_pay12 a b c = k0_pay6 a b c := rfl
theorem col6_eq : k0_pay15 (k0_pay13 b) (k0_pay14 a c) = k0_pay6 a b c := rfl
theorem col7_eq : k0_pay16 a b c = k0_pay6 a b c := rfl
theorem col8_eq : k0_pay20 (k0_pay17 a) (k0_pay18 b) (k0_pay19 c) = k0_pay6 a b c := rfl
theorem col9_eq : k0_pay21 a b c = k0_pay6 a b c := rfl
theorem col10_eq : k0_pay1 (k0_pay22 a) (k0_pay23 b) c = k0_pay6 a b c := rfl
theorem col11_eq : k0_pay2 a b c = k0_pay6 a b c := rfl

end Columns

/-! ## A sum against an indicator -/

/-- The indicator of one row on the left keeps that row's term. -/
theorem onehot_sum (y : Fin 256) (g : Fin 256 → EReal) :
    ∑ h : Fin 256, (if h = y then (1 : EReal) else 0) * g h = g y := by
  rw [Finset.sum_eq_single y]
  · rw [if_pos rfl, one_mul]
  · intro h _ hne
    rw [if_neg hne, zero_mul]
  · intro hy
    exact absurd (Finset.mem_univ y) hy

/-- The indicator of one lane on the right keeps that lane's term. -/
theorem onehot_sum_right (x : Fin 256) (g : Fin 256 → EReal) :
    ∑ w : Fin 256, g w * (if w = x then (1 : EReal) else 0) = g x := by
  rw [Finset.sum_eq_single x]
  · rw [if_pos rfl, mul_one]
  · intro w _ hne
    rw [if_neg hne, mul_zero]
  · intro hx
    exact absurd (Finset.mem_univ x) hx

end Cert.KernelIdeal.PayVal

end
-- ==== Proof.KI_Final6.lean ====
/-
  The gathered-embedding array after the region: entry (b, r, k) is the embedding map of channel k of batch element b read
  against the two one-hot rows of keypoint r.

  Grid point t writes one 10 x 12 block, batch element t of the [32, 10, 12] array, in twelve column stores. Column k is
  the one function of three channel slices of the point's blocks: with y the one-hot rows of the vertical coordinate, x those
  of the horizontal one and e the embedding map (channel 12 + k of the first argument),
      entry (r, k) = sum over w of (sum over h of y(k, r, h) * e(k, h, w)) * x(k, r, w).
  The twelve stores tile the block, so the block is that function of (r, k) whatever the order of the stores; the 32
  blocks tile the array.
-/
import proofs.«130083_j14061722927137_2_alg».proof.Proof.KI_Blocks
import proofs.«130083_j14061722927137_2_alg».proof.Proof.PayVal

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr Cert.KernelIdeal.PayVal

variable (m : (ℓ : Loc nD τ sig) → Buf (Elt Ideal) ℓ)

/-- The embedding of channel k of batch element b read at keypoint r through the two one-hot rows. -/
def gatherAt (OYa OXa : S32x12x10x256.Idx → EReal) (A0a : S32x24x256x256.Idx → EReal) (b : Fin 32) (r : Fin 10) (k : Fin 12) : EReal :=
  ∑ w : Fin 256, (∑ h : Fin 256, OYa (ix4 b k r h) * A0a (ix4 b ⟨12 + k.val, by omega⟩ h w)) * OXa (ix4 b k r w)

/-- The gathered-embedding array as one function of the three arrays. -/
def G6 (OYa OXa : S32x12x10x256.Idx → EReal) (A0a : S32x24x256x256.Idx → EReal) : S32x10x12.Idx → EReal :=
  fun i => gatherAt OYa OXa A0a (i 0) (i 1) (i 2)

/-! ## One channel slice of a block -/

/-- Channel K of a block of twelve 10 x 256 tables, read at (0, 0, r, w), is the block at (0, K, r, w). -/
theorem ld_hot (x : Vec Ideal S1x12x10x256 .f32) (K : ℕ) (k : Fin 12) (hk : k.val = K)
    (inb : ∀ a, (![0, K, 0, 0] : Fin 4 → ℕ) a + S1x1x10x256.size a ≤ S1x12x10x256.size a) (r : Fin 10) (w : Fin 256) :
    View.ld x (Rect.unit (s := S1x12x10x256) ![0, K, 0, 0] S1x1x10x256.size inb) (ix4 (0 : Fin 1) (0 : Fin 1) r w)
      = x (ix4 (0 : Fin 1) k r w) := by
  refine congrArg x (funext fun a => Fin.ext ?_)
  match a with
  | ⟨0, _⟩ => show 0 + 1 * (0 : Fin 1).val = (0 : Fin 1).val; simp
  | ⟨1, _⟩ => show K + 1 * (0 : Fin 1).val = k.val; rw [hk]; simp
  | ⟨2, _⟩ => show 0 + 1 * r.val = r.val; omega
  | ⟨3, _⟩ => show 0 + 1 * w.val = w.val; omega

/-- Channel K of a block of twelve 256 x 256 maps, read at (0, 0, h, w), is the block at (0, K, h, w). -/
theorem ld_ch (x : Vec Ideal S1x12x256x256 .f32) (K : ℕ) (k : Fin 12) (hk : k.val = K)
    (inb : ∀ a, (![0, K, 0, 0] : Fin 4 → ℕ) a + S1x1x256x256.size a ≤ S1x12x256x256.size a) (h w : Fin 256) :
    View.ld x (Rect.unit (s := S1x12x256x256) ![0, K, 0, 0] S1x1x256x256.size inb) (ix4 (0 : Fin 1) (0 : Fin 1) h w)
      = x (ix4 (0 : Fin 1) k h w) := by
  refine congrArg x (funext fun a => Fin.ext ?_)
  match a with
  | ⟨0, _⟩ => show 0 + 1 * (0 : Fin 1).val = (0 : Fin 1).val; simp
  | ⟨1, _⟩ => show K + 1 * (0 : Fin 1).val = k.val; rw [hk]; simp
  | ⟨2, _⟩ => show 0 + 1 * h.val = h.val; omega
  | ⟨3, _⟩ => show 0 + 1 * w.val = w.val; omega

/-! ## One column of the block -/

section Block
variable (x1 : Vec Ideal S1x12x256x256 .f32) (x3 x4 : Vec Ideal S1x12x10x256 .f32)
  (OYa OXa : S32x12x10x256.Idx → EReal) (A0a : S32x24x256x256.Idx → EReal) (b : Fin 32)
  (h1 : ∀ (k : Fin 12) (h w : Fin 256), x1 (ix4 (0 : Fin 1) k h w) = A0a (ix4 b ⟨12 + k.val, by omega⟩ h w))
  (h3 : ∀ (k : Fin 12) (r : Fin 10) (w : Fin 256), x3 (ix4 (0 : Fin 1) k r w) = OXa (ix4 b k r w))
  (h4 : ∀ (k : Fin 12) (r : Fin 10) (h : Fin 256), x4 (ix4 (0 : Fin 1) k r h) = OYa (ix4 b k r h))

include h1 h3 h4 in
/-- The column stored at lane K of the block, at its entry x, is the gathered embedding at the block entry x lands on:
    the payload is the common column function of channel K's three slices, whatever spelling the store carries. -/
theorem piece_ok (K : ℕ) (k : Fin 12) (hk : k.val = K)
    (inbH : ∀ a, (![0, K, 0, 0] : Fin 4 → ℕ) a + S1x1x10x256.size a ≤ S1x12x10x256.size a)
    (inbC : ∀ a, (![0, K, 0, 0] : Fin 4 → ℕ) a + S1x1x256x256.size a ≤ S1x12x256x256.size a)
    (inbO : ∀ a, (![0, 0, K] : Fin 3 → ℕ) a + S1x10x1.size a ≤ S1x10x12.size a)
    (pay : Vec Ideal S1x10x1 .f32)
    (hpay : pay = k0_pay6 (F := Ideal) (View.ld x4 (Rect.unit (s := S1x12x10x256) ![0, K, 0, 0] S1x1x10x256.size inbH))
        (View.ld x3 (Rect.unit (s := S1x12x10x256) ![0, K, 0, 0] S1x1x10x256.size inbH))
        (View.ld x1 (Rect.unit (s := S1x12x256x256) ![0, K, 0, 0] S1x1x256x256.size inbC)))
    (x : (Rect.unit (s := S1x10x12) ![0, 0, K] S1x10x1.size inbO).shape.Idx) :
    pay x = gatherAt OYa OXa A0a b ((Rect.unit (s := S1x10x12) ![0, 0, K] S1x10x1.size inbO).emb x 1)
        ((Rect.unit (s := S1x10x12) ![0, 0, K] S1x10x1.size inbO).emb x 2) := by
  obtain ⟨p, r, q, rfl⟩ : ∃ (p : Fin 1) (r : Fin 10) (q : Fin 1), x = ix3 p r q := ⟨x 0, x 1, x 2, eq_ix3 x⟩
  obtain rfl : p = 0 := Subsingleton.elim _ _
  obtain rfl : q = 0 := Subsingleton.elim _ _
  have e1 : (Rect.unit (s := S1x10x12) ![0, 0, K] S1x10x1.size inbO).emb (ix3 (0 : Fin 1) r (0 : Fin 1)) 1 = r :=
    Fin.ext (by show 0 + 1 * r.val = r.val; omega)
  have e2 : (Rect.unit (s := S1x10x12) ![0, 0, K] S1x10x1.size inbO).emb (ix3 (0 : Fin 1) r (0 : Fin 1)) 2 = k :=
    Fin.ext (by show K + 1 * (0 : Fin 1).val = k.val; rw [hk]; simp)
  rw [e1, e2, hpay]
  refine (col_pay _ _ _ r).trans ?_
  unfold gatherAt
  refine Finset.sum_congr rfl fun w _ => ?_
  rw [ld_hot x3 K k hk inbH r w, h3 k r w]
  refine congrArg (· * _) (Finset.sum_congr rfl fun h _ => ?_)
  rw [ld_hot x4 K k hk inbH r h, h4 k r h, ld_ch x1 K k hk inbC h w, h1 k h w]

include h1 h3 h4 in
/-- The block the body leaves, from blocks that are batch element b of the three arrays, is b's gathered embeddings. -/
theorem block6 (y : S1x10x12.Idx) : out0_6 (F := Ideal) x1 x3 x4 y = gatherAt OYa OXa A0a b (y 1) (y 2) := by
  unfold out0_6
  refine View.canon_apply_of_pieces (Val := Elt Ideal) (S := S1x10x12) (e := .f32) (fun y => gatherAt OYa OXa A0a b (y 1) (y 2)) _ ?_ y (cover0_6 _ _ _ _ _ _ _ _ _ _ _ _ y)
  exact List.forall_mem_cons.2 ⟨fun x => piece_ok x1 x3 x4 OYa OXa A0a b h1 h3 h4 11 11 rfl
      inb_S1x12x10x256_S1x1x10x256_0_11_0_0 inb_S1x12x256x256_S1x1x256x256_0_11_0_0 inb_S1x10x12_S1x10x1_0_0_11 _ (col11_eq _ _ _) x,
    List.forall_mem_cons.2 ⟨fun x => piece_ok x1 x3 x4 OYa OXa A0a b h1 h3 h4 10 10 rfl
      inb_S1x12x10x256_S1x1x10x256_0_10_0_0 inb_S1x12x256x256_S1x1x256x256_0_10_0_0 inb_S1x10x12_S1x10x1_0_0_10 _ (col10_eq _ _ _) x,
    List.forall_mem_cons.2 ⟨fun x => piece_ok x1 x3 x4 OYa OXa A0a b h1 h3 h4 9 9 rfl
      inb_S1x12x10x256_S1x1x10x256_0_9_0_0 inb_S1x12x256x256_S1x1x256x256_0_9_0_0 inb_S1x10x12_S1x10x1_0_0_9 _ (col9_eq _ _ _) x,
    List.forall_mem_cons.2 ⟨fun x => piece_ok x1 x3 x4 OYa OXa A0a b h1 h3 h4 8 8 rfl
      inb_S1x12x10x256_S1x1x10x256_0_8_0_0 inb_S1x12x256x256_S1x1x256x256_0_8_0_0 inb_S1x10x12_S1x10x1_0_0_8 _ (col8_eq _ _ _) x,
    List.forall_mem_cons.2 ⟨fun x => piece_ok x1 x3 x4 OYa OXa A0a b h1 h3 h4 7 7 rfl
      inb_S1x12x10x256_S1x1x10x256_0_7_0_0 inb_S1x12x256x256_S1x1x256x256_0_7_0_0 inb_S1x10x12_S1x10x1_0_0_7 _ (col7_eq _ _ _) x,
    List.forall_mem_cons.2 ⟨fun x => piece_ok x1 x3 x4 OYa OXa A0a b h1 h3 h4 6 6 rfl
      inb_S1x12x10x256_S1x1x10x256_0_6_0_0 inb_S1x12x256x256_S1x1x256x256_0_6_0_0 inb_S1x10x12_S1x10x1_0_0_6 _ (col6_eq _ _ _) x,
    List.forall_mem_cons.2 ⟨fun x => piece_ok x1 x3 x4 OYa OXa A0a b h1 h3 h4 5 5 rfl
      inb_S1x12x10x256_S1x1x10x256_0_5_0_0 inb_S1x12x256x256_S1x1x256x256_0_5_0_0 inb_S1x10x12_S1x10x1_0_0_5 _ (col5_eq _ _ _) x,
    List.forall_mem_cons.2 ⟨fun x => piece_ok x1 x3 x4 OYa OXa A0a b h1 h3 h4 4 4 rfl
      inb_S1x12x10x256_S1x1x10x256_0_4_0_0 inb_S1x12x256x256_S1x1x256x256_0_4_0_0 inb_S1x10x12_S1x10x1_0_0_4 _ (col4_eq _ _ _) x,
    List.forall_mem_cons.2 ⟨fun x => piece_ok x1 x3 x4 OYa OXa A0a b h1 h3 h4 3 3 rfl
      inb_S1x12x10x256_S1x1x10x256_0_3_0_0 inb_S1x12x256x256_S1x1x256x256_0_3_0_0 inb_S1x10x12_S1x10x1_0_0_3 _ (col3_eq _ _ _) x,
    List.forall_mem_cons.2 ⟨fun x => piece_ok x1 x3 x4 OYa OXa A0a b h1 h3 h4 2 2 rfl
      inb_S1x12x10x256_S1x1x10x256_0_2_0_0 inb_S1x12x256x256_S1x1x256x256_0_2_0_0 inb_S1x10x12_S1x10x1_0_0_2 _ (col2_eq _ _ _) x,
    List.forall_mem_cons.2 ⟨fun x => piece_ok x1 x3 x4 OYa OXa A0a b h1 h3 h4 1 1 rfl
      inb_S1x12x10x256_S1x1x10x256_0_1_0_0 inb_S1x12x256x256_S1x1x256x256_0_1_0_0 inb_S1x10x12_S1x10x1_0_0_1 _ (col1_eq _ _ _) x,
    List.forall_mem_cons.2 ⟨fun x => piece_ok x1 x3 x4 OYa OXa A0a b h1 h3 h4 0 0 rfl
      inb_S1x12x10x256_S1x1x10x256_0_0_0_0 inb_S1x12x256x256_S1x1x256x256_0_0_0_0 inb_S1x10x12_S1x10x1_0_0_0 _ (col0_eq _ _ _) x,
    fun _ h => absurd h List.not_mem_nil⟩⟩⟩⟩⟩⟩⟩⟩⟩⟩⟩⟩

end Block

/-! ## From the blocks to the array -/

/-- What point t writes back is block t of the gathered-embedding array. -/
theorem flushed6_eq (c : Dev nD) (t : Fin cfg0.N) :
    (dats m 0 c).flushed 6 t = ((cfg0.win 6).blk t).view.read (Elt Ideal) (G6 (OY m c) (OX m c) (A0 m c)) := by
  show (cfg0.win 6).cut (grid0.coords t) ((dats m 0 c).after 6 t) = _
  rw [after0_6]
  funext j
  have hN : cfg0.N = 32 := N_0
  obtain ⟨b, hb⟩ : ∃ b : Fin 32, b.val = t.val := ⟨⟨t.val, hN ▸ t.isLt⟩, rfl⟩
  have e := (idx_facts t).2.2.2.2.2.2
  have q0 : win0_6.index t (0 : Fin 3) = t.val := congrFun e 0
  have q1 : win0_6.index t (1 : Fin 3) = 0 := congrFun e 1
  have q2 : win0_6.index t (2 : Fin 3) = 0 := congrFun e 2
  have hj0 : (j 0).val < 1 := (j 0).isLt
  show out0_6 (F := Ideal) (iblk m c 1 t) (iblk m c 3 t) (iblk m c 4 t) j
      = gatherAt (OY m c) (OX m c) (A0 m c) ((((cfg0.win 6).blk t).view.emb j) 0) ((((cfg0.win 6).blk t).view.emb j) 1)
          ((((cfg0.win 6).blk t).view.emb j) 2)
  have hb0 : (((cfg0.win 6).blk t).view.emb j) 0 = b := Fin.ext (by
    show win0_6.index t (0 : Fin 3) * 1 + 1 * (j 0).val = b.val
    rw [q0, hb]; omega)
  have hb1 : (((cfg0.win 6).blk t).view.emb j) 1 = j 1 := Fin.ext (by
    show win0_6.index t (1 : Fin 3) * 10 + 1 * (j 1).val = (j 1).val
    rw [q1]; omega)
  have hb2 : (((cfg0.win 6).blk t).view.emb j) 2 = j 2 := Fin.ext (by
    show win0_6.index t (2 : Fin 3) * 12 + 1 * (j 2).val = (j 2).val
    rw [q2]; omega)
  rw [hb0, hb1, hb2]
  exact block6 (iblk m c 1 t) (iblk m c 3 t) (iblk m c 4 t) (OY m c) (OX m c) (A0 m c) b
    (fun k h w => iblk1_apply m c t b hb k h w) (fun k r w => iblk3_apply m c t b hb k r w)
    (fun k r h => iblk4_apply m c t b hb k r h) j

/-- An index of the array is in point t's block iff each coordinate is in the block's range on its axis. -/
theorem mem_blk6 (t : Fin cfg0.N) (i : S32x10x12.Idx) :
    i ∈ ((cfg0.win 6).blk t).view.set ↔ ∀ a : Fin 3, win0_6.index t a * S1x10x12.size a ≤ (i a).val
      ∧ (i a).val < win0_6.index t a * S1x10x12.size a + S1x10x12.size a := by
  show i ∈ ((View.whole main_v24_1).slice (win0_6.rect t)).set ↔ _
  rw [View.set_slice_whole, Rect.mem_set_unit]
  exact Iff.rfl

/-- Batch element b of the array is point b's block. -/
theorem cover6 (i : S32x10x12.Idx) :
    ∃ t : Fin cfg0.N, (cfg0.win 6).flush t = true ∧ i ∈ ((cfg0.win 6).blk t).view.set := by
  have hN : cfg0.N = 32 := N_0
  have hi0 : (i 0).val < 32 := (i 0).isLt
  have hi1 : (i 1).val < 10 := (i 1).isLt
  have hi2 : (i 2).val < 12 := (i 2).isLt
  obtain ⟨t, ht⟩ : ∃ t : Fin cfg0.N, t.val = (i 0).val := ⟨⟨(i 0).val, hN.symm ▸ hi0⟩, rfl⟩
  refine ⟨t, flush0_6 t, ?_⟩
  rw [mem_blk6]
  have e := (idx_facts t).2.2.2.2.2.2
  have q0 : win0_6.index t (0 : Fin 3) = t.val := congrFun e 0
  have q1 : win0_6.index t (1 : Fin 3) = 0 := congrFun e 1
  have q2 : win0_6.index t (2 : Fin 3) = 0 := congrFun e 2
  intro a
  match a with
  | ⟨0, _⟩ =>
    show win0_6.index t (0 : Fin 3) * 1 ≤ (i 0).val ∧ (i 0).val < win0_6.index t (0 : Fin 3) * 1 + 1
    rw [q0]; omega
  | ⟨1, _⟩ =>
    show win0_6.index t (1 : Fin 3) * 10 ≤ (i 1).val ∧ (i 1).val < win0_6.index t (1 : Fin 3) * 10 + 10
    rw [q1]; omega
  | ⟨2, _⟩ =>
    show win0_6.index t (2 : Fin 3) * 12 ≤ (i 2).val ∧ (i 2).val < win0_6.index t (2 : Fin 3) * 12 + 12
    rw [q2]; omega

/-- The gathered-embedding array after the region, as the one function of the three arrays. -/
theorem final6_G (c : Dev nD) : (dats m 0 c).arrAt 6 cfg0.N = G6 (OY m c) (OX m c) (A0 m c) :=
  (dats m 0 c).arrAt_eq_of_cover 6 (G6 (OY m c) (OX m c) (A0 m c)) (fun t _ => flushed6_eq m c t) cover6

/-- The same with the function written out: entry (b, r, k) reads embedding channel k of batch element b against the one-hot
    rows of keypoint r. -/
theorem final6 (c : Dev nD) :
    @Eq (S32x10x12.Idx → EReal) ((dats m 0 c).arrAt 6 cfg0.N)
      (fun i => ∑ w : Fin 256, (∑ h : Fin 256, OY m c (ix4 (i 0) (i 2) (i 1) h) * A0 m c (ix4 (i 0) ⟨12 + (i 2).val, by have hk : (i 2).val < 12 := (i 2).isLt; omega⟩ h w))
          * OX m c (ix4 (i 0) (i 2) (i 1) w)) :=
  final6_G m c

end Cert.KernelIdeal.Final

end
-- ==== Proof.KI_Final.lean ====
/-
  The two arrays the region leaves, each as one function of the arrays it read: the per-batch heat-map loss spread over
  128 lanes, and the embeddings gathered at the keypoints. The two halves are proved side by side in the modules imported here.
-/
import proofs.«130083_j14061722927137_2_alg».proof.Proof.KI_Final5
import proofs.«130083_j14061722927137_2_alg».proof.Proof.KI_Final6
-- ==== Proof.OneHotRead.lean ====
/-
  The values the operations before the kernel region compute, as functions of the keypoint array, and the one-hot
  arrays read at an index. The keypoint coordinates are rounded to nearest-even, converted to integers, split into
  the x and the y column and clamped to the pixel range [0, 255]. A one-hot array holds, for batch b, keypoint k and
  instance m, 256 lanes of which the one whose index is the clamped coordinate of (b, m, k) is 1 and the rest 0:
  the coordinate arrays are indexed batch, instance, keypoint, the one-hot arrays batch, keypoint, instance, lane.
  Multiplying a row of 256 values by such a lane vector and summing picks the value at the coordinate.
-/
import proofs.«130083_j14061722927137_2_alg».proof.Proof.Gen.KernelIdeal
import Idealize.ShloMosaic.Lib.ValueIdx
import Idealize.ShloMosaic.Lib.Pipeline.Value

noncomputable section

open scoped BigOperators

namespace Cert.KernelIdeal.OneHot

open Cert.KernelIdeal Cert.KernelIdeal.Gen Idealize.ShloMosaic Idealize.ShloMosaic.ValueIdx

/-- A coordinate array clamped to the pixel range: the smaller of 255 and the larger of 0 and the coordinate. -/
def clamp (v : (⟨S32x10x12, .i32⟩ : BufTy).Contents (Elt Ideal)) : (⟨S32x10x12, .i32⟩ : BufTy).Contents (Elt Ideal) :=
  minsi (broadcastInDim S32x10x12 ![] bcast_S_S32x10x12 (id (constantI S_ 32 255#32)))
    (maxsi (broadcastInDim S32x10x12 ![] bcast_S_S32x10x12 (id (constantI S_ 32 0#32))) v)

/-- The keypoint coordinates rounded to nearest-even and converted to integers. -/
def rounded (a2 : (⟨S32x10x12x2, .f32⟩ : BufTy).Contents (Elt Ideal)) : (⟨S32x10x12x2, .i32⟩ : BufTy).Contents (Elt Ideal) :=
  fptosi (F := Ideal) (φ := .f32) 32 (Host.roundeven (F := Ideal) a2)

/-- The clamped x coordinates as a function of the keypoint array. -/
def xcOf (a2 : (⟨S32x10x12x2, .f32⟩ : BufTy).Contents (Elt Ideal)) : (⟨S32x10x12, .i32⟩ : BufTy).Contents (Elt Ideal) :=
  clamp (shapeCast _ (extractStridedSlice S32x10x12x1 ![0, 0, 0, 0] (rounded a2) slices_S32x10x12x2_S32x10x12x1_0_0_0_0) shapeCasts_S32x10x12x1_S32x10x12)

/-- The clamped y coordinates as a function of the keypoint array. -/
def ycOf (a2 : (⟨S32x10x12x2, .f32⟩ : BufTy).Contents (Elt Ideal)) : (⟨S32x10x12, .i32⟩ : BufTy).Contents (Elt Ideal) :=
  clamp (shapeCast _ (extractStridedSlice S32x10x12x1 ![0, 0, 0, 1] (rounded a2) slices_S32x10x12x2_S32x10x12x1_0_0_0_1) shapeCasts_S32x10x12x1_S32x10x12)

/-! ## The clamped coordinates lie in the pixel range -/

/-- A word clamped between 0 and 255 (signed) is below 256 read unsigned. -/
theorem clampWord_lt (x : BitVec 32) : (IntOp.minsi 255#32 (IntOp.maxsi 0#32 x)).toNat < 256 := by
  unfold IntOp.minsi IntOp.maxsi
  have h0 : (0#32 : BitVec 32).toInt = 0 := by decide
  have h255 : (255#32 : BitVec 32).toInt = 255 := by decide
  have hx := BitVec.toInt_eq_toNat_cond x
  have hxl : x.toNat < 2 ^ 32 := x.isLt
  by_cases h1 : x.slt 0#32 = true
  · rw [if_pos h1]
    by_cases h2 : (255#32 : BitVec 32).slt 0#32 = true
    · rw [if_pos h2]; decide
    · rw [if_neg h2]; decide
  · rw [if_neg h1]
    by_cases h2 : (255#32 : BitVec 32).slt x = true
    · rw [if_pos h2]; decide
    · rw [if_neg h2]
      rw [BitVec.slt_iff_toInt_lt, h0] at h1
      rw [BitVec.slt_iff_toInt_lt, h255] at h2
      split at hx <;> omega

/-- Every clamped coordinate is below 256. -/
theorem clamp_lt (v : (⟨S32x10x12, .i32⟩ : BufTy).Contents (Elt Ideal)) (i : S32x10x12.Idx) : (clamp v i).toNat < 256 :=
  clampWord_lt (v i)

/-! ## The one-hot array at an index -/

/-- The one-hot array of a coordinate array: the coordinates moved to keypoint-major order, and at each lane of 256
    the number 1 where the lane's index equals the coordinate, 0 elsewhere. -/
def oneHot (v : (⟨S32x10x12, .i32⟩ : BufTy).Contents (Elt Ideal)) : (⟨S32x12x10x256, .f32⟩ : BufTy).Contents (Elt Ideal) :=
  uitofp (F := Ideal) .f32 (cmpi .eq
    (broadcastInDim S32x12x10x256 ![0, 1, 2, 3] bcast_S32x12x10x1_S32x12x10x256_0_1_2_3
      (broadcastInDim S32x12x10x1 ![0, 1, 2] bcast_S32x12x10_S32x12x10x1_0_1_2
        (transpose S32x12x10 [0, 2, 1] v transposes_S32x10x12_S32x12x10_0_2_1)))
    (broadcastInDim S32x12x10x256 ![0, 1, 2, 3] bcast_S1x1x1x256_S32x12x10x256_0_1_2_3
      (broadcastInDim S1x1x1x256 ![3] bcast_S256_S1x1x1x256_3 (iotaInDim S256 32 0))))

/-- The coordinate side of the comparison, read at an index: the coordinate of the same batch, instance and keypoint. -/
theorem coordSide_apply (v : (⟨S32x10x12, .i32⟩ : BufTy).Contents (Elt Ideal)) (b : Fin 32) (k : Fin 12) (mm : Fin 10) (w : Fin 256) :
    broadcastInDim S32x12x10x256 ![0, 1, 2, 3] bcast_S32x12x10x1_S32x12x10x256_0_1_2_3
      (broadcastInDim S32x12x10x1 ![0, 1, 2] bcast_S32x12x10_S32x12x10x1_0_1_2
        (transpose S32x12x10 [0, 2, 1] v transposes_S32x10x12_S32x12x10_0_2_1)) (ix4 b k mm w) = v (ix3 b mm k) := by
  refine (broadcastInDim_apply _ bcast_S32x12x10x1_S32x12x10x256_0_1_2_3 _ (ix4 b k mm w) (ix4 b k mm (0 : Fin 1)) (fun a => match a with
    | ⟨0, _⟩ => by show b.val = if (32 : Nat) = 1 then 0 else b.val; rw [if_neg (by decide)]
    | ⟨1, _⟩ => by show k.val = if (12 : Nat) = 1 then 0 else k.val; rw [if_neg (by decide)]
    | ⟨2, _⟩ => by show mm.val = if (10 : Nat) = 1 then 0 else mm.val; rw [if_neg (by decide)]
    | ⟨3, _⟩ => by show 0 = if (1 : Nat) = 1 then 0 else w.val; rw [if_pos rfl])).trans ?_
  refine (broadcastInDim_apply _ bcast_S32x12x10_S32x12x10x1_0_1_2 _ (ix4 b k mm (0 : Fin 1)) (ix3 b k mm) (fun a => match a with
    | ⟨0, _⟩ => by show b.val = if (32 : Nat) = 1 then 0 else b.val; rw [if_neg (by decide)]
    | ⟨1, _⟩ => by show k.val = if (12 : Nat) = 1 then 0 else k.val; rw [if_neg (by decide)]
    | ⟨2, _⟩ => by show mm.val = if (10 : Nat) = 1 then 0 else mm.val; rw [if_neg (by decide)])).trans ?_
  exact transpose_apply [0, 2, 1] v transposes_S32x10x12_S32x12x10_0_2_1 (ix3 b k mm) (ix3 b mm k) (fun a => match a with
    | ⟨0, _⟩ => rfl | ⟨1, _⟩ => rfl | ⟨2, _⟩ => rfl)

/-- The lane side of the comparison, read at an index: the lane's index as a word. -/
theorem laneSide_apply (b : Fin 32) (k : Fin 12) (mm : Fin 10) (w : Fin 256) :
    (broadcastInDim S32x12x10x256 ![0, 1, 2, 3] bcast_S1x1x1x256_S32x12x10x256_0_1_2_3
      (broadcastInDim S1x1x1x256 ![3] bcast_S256_S1x1x1x256_3 (iotaInDim S256 32 0)) : IVec S32x12x10x256 32) (ix4 b k mm w)
      = BitVec.ofNat 32 w.val := by
  refine (broadcastInDim_apply _ bcast_S1x1x1x256_S32x12x10x256_0_1_2_3 _ (ix4 b k mm w) (ix4 (0 : Fin 1) (0 : Fin 1) (0 : Fin 1) w) (fun a => match a with
    | ⟨0, _⟩ => by show 0 = if (1 : Nat) = 1 then 0 else b.val; rw [if_pos rfl]
    | ⟨1, _⟩ => by show 0 = if (1 : Nat) = 1 then 0 else k.val; rw [if_pos rfl]
    | ⟨2, _⟩ => by show 0 = if (1 : Nat) = 1 then 0 else mm.val; rw [if_pos rfl]
    | ⟨3, _⟩ => by show w.val = if (256 : Nat) = 1 then 0 else w.val; rw [if_neg (by decide)])).trans ?_
  refine (broadcastInDim_apply _ bcast_S256_S1x1x1x256_3 _ (ix4 (0 : Fin 1) (0 : Fin 1) (0 : Fin 1) w) (ix1 w) (fun a => match a with
    | ⟨0, _⟩ => by show w.val = if (256 : Nat) = 1 then 0 else w.val; rw [if_neg (by decide)])).trans ?_
  rfl

/-- The one-hot array read at an index: 1 on the lane whose index is the coordinate, 0 on the others. -/
theorem oneHot_apply (v : (⟨S32x10x12, .i32⟩ : BufTy).Contents (Elt Ideal)) (b : Fin 32) (k : Fin 12) (mm : Fin 10) (w : Fin 256) :
    (oneHot v (ix4 b k mm w) : EReal) = if v (ix3 b mm k) = BitVec.ofNat 32 w.val then 1 else 0 := by
  show (((BitVec.ofBool (_ == _)).toNat : ℝ) : EReal) = _
  rw [coordSide_apply v b k mm w, laneSide_apply b k mm w]
  by_cases h : v (ix3 b mm k) = BitVec.ofNat 32 w.val
  · rw [if_pos h, beq_iff_eq.mpr h]; simp
  · rw [if_neg h, beq_eq_false_iff_ne.mpr h]; simp

/-- A word equals a lane index taken as a word exactly when its unsigned reading is the lane index. -/
theorem eq_ofNat_iff (x : BitVec 32) (w : Fin 256) : x = BitVec.ofNat 32 w.val ↔ x.toNat = w.val := by
  have hw : w.val < 256 := w.isLt
  constructor
  · intro h; rw [h, BitVec.toNat_ofNat]; omega
  · intro h; apply BitVec.eq_of_toNat_eq; rw [BitVec.toNat_ofNat, h]; omega

/-- The one-hot array read at an index, the coordinate read unsigned. -/
theorem oneHot_apply_toNat (v : (⟨S32x10x12, .i32⟩ : BufTy).Contents (Elt Ideal)) (b : Fin 32) (k : Fin 12) (mm : Fin 10) (w : Fin 256) :
    (oneHot v (ix4 b k mm w) : EReal) = if (v (ix3 b mm k)).toNat = w.val then 1 else 0 := by
  rw [oneHot_apply]
  by_cases h : (v (ix3 b mm k)).toNat = w.val
  · rw [if_pos h, if_pos ((eq_ofNat_iff _ w).mpr h)]
  · rw [if_neg h, if_neg (fun e => h ((eq_ofNat_iff _ w).mp e))]

/-- A row of 256 values against a one-hot lane vector sums to the value at the coordinate. -/
theorem sum_mul_oneHot (g : Fin 256 → EReal) (x : BitVec 32) (hx : x.toNat < 256) :
    ∑ w : Fin 256, g w * (if x.toNat = w.val then (1 : EReal) else 0) = g ⟨x.toNat, hx⟩ := by
  rw [Finset.sum_eq_single (⟨x.toNat, hx⟩ : Fin 256)]
  · rw [if_pos rfl, mul_one]
  · intro w _ hw
    rw [if_neg (fun h => hw (Fin.ext h.symm)), mul_zero]
  · intro h; exact absurd (Finset.mem_univ _) h

end Cert.KernelIdeal.OneHot

end
-- ==== Proof.OneHotX.lean ====
/-
  The x coordinates the kernel region is handed. The clamped x coordinate array, as the operations before the
  region leave it, is the function of the launched keypoint array that the file on the one-hot arrays names; and the
  x one-hot array is the one-hot array of that clamped coordinate array. Each operation's result is read off at its
  own array, the others passing through; the one-hot array is built by the last stretch of operations alone, from
  whatever the earlier stretches left.
-/
import proofs.«130083_j14061722927137_2_alg».proof.Proof.KI_Entry
import proofs.«130083_j14061722927137_2_alg».proof.Proof.OneHotRead
import Idealize.ShloMosaic.Lib.StableHlo.Run

noncomputable section

namespace Cert.KernelIdeal.OneHot

open Cert.KernelIdeal Cert.KernelIdeal.Gen Cert.KernelIdeal.Fr Idealize.ShloMosaic Idealize.ShloMosaic.TcCoe Idealize.SL.Sem Idealize.ShloMosaic.StableHlo

variable (m : (ℓ : Loc nD τ sig) → Buf (Elt Ideal) ℓ)

/-- The clamped x coordinates at the region's entry, from the launched keypoint array. -/
theorem V_xc_raw (c : Dev nD) : (V m c main_v6 : S32x10x12.Idx → BitVec 32) = xcOf (m ((c : Thread nD τ).loc main_arg2)) := by
  dsimp only [V, V0]
  simp only [preOps, hostOps0, hostOps0_1, hostOps0_2, hostOps0_3, hostOps0_4, hostOps0_5, List.flatten_cons, List.flatten_nil, List.append_nil, List.cons_append, List.nil_append]
  after_results_simp
  rfl

/-- The x one-hot array at the region's entry is the one-hot array of the clamped x coordinates found there. -/
theorem V_ohx_step (c : Dev nD) : (V m c main_v17 : S32x12x10x256.Idx → EReal) = oneHot (V m c main_v6 : S32x10x12.Idx → BitVec 32) := by
  dsimp only [V, V0]
  simp only [preOps, List.flatten_cons, List.flatten_nil, List.append_nil]
  rw [StableHlo.after_append, StableHlo.after_append, StableHlo.after_append, StableHlo.after_append, StableHlo.after_append]
  generalize StableHlo.after hostOps0_4 _ = W
  simp only [hostOps0_5]
  after_results
  rfl

end Cert.KernelIdeal.OneHot

end
-- ==== Proof.OneHotY.lean ====
/-
  The y coordinates the kernel region is handed. The clamped y coordinate array, as the operations before the
  region leave it, is the function of the launched keypoint array that the file on the one-hot arrays names; and the
  y one-hot array is the one-hot array of that clamped coordinate array. Each operation's result is read off at its
  own array, the others passing through; the one-hot array is built by the last stretch of operations alone, from
  whatever the earlier stretches left.
-/
import proofs.«130083_j14061722927137_2_alg».proof.Proof.KI_Entry
import proofs.«130083_j14061722927137_2_alg».proof.Proof.OneHotRead
import Idealize.ShloMosaic.Lib.StableHlo.Run

noncomputable section

namespace Cert.KernelIdeal.OneHot

open Cert.KernelIdeal Cert.KernelIdeal.Gen Cert.KernelIdeal.Fr Idealize.ShloMosaic Idealize.ShloMosaic.TcCoe Idealize.SL.Sem Idealize.ShloMosaic.StableHlo

variable (m : (ℓ : Loc nD τ sig) → Buf (Elt Ideal) ℓ)

/-- The clamped y coordinates at the region's entry, from the launched keypoint array. -/
theorem V_yc_raw (c : Dev nD) : (V m c main_v7 : S32x10x12.Idx → BitVec 32) = ycOf (m ((c : Thread nD τ).loc main_arg2)) := by
  dsimp only [V, V0]
  simp only [preOps, hostOps0, hostOps0_1, hostOps0_2, hostOps0_3, hostOps0_4, hostOps0_5, List.flatten_cons, List.flatten_nil, List.append_nil, List.cons_append, List.nil_append]
  after_results_simp
  rfl

/-- The y one-hot array at the region's entry is the one-hot array of the clamped y coordinates found there. -/
theorem V_ohy_step (c : Dev nD) : (V m c main_v23 : S32x12x10x256.Idx → EReal) = oneHot (V m c main_v7 : S32x10x12.Idx → BitVec 32) := by
  dsimp only [V, V0]
  simp only [preOps, List.flatten_cons, List.flatten_nil, List.append_nil]
  rw [StableHlo.after_append, StableHlo.after_append, StableHlo.after_append, StableHlo.after_append, StableHlo.after_append]
  generalize StableHlo.after hostOps0_4 _ = W
  simp only [hostOps0_5]
  after_results
  rfl

end Cert.KernelIdeal.OneHot

end
-- ==== Proof.OneHotUnclamped.lean ====
/-
  The integer coordinates before clamping, which the operations after the region read again: the keypoint array
  rounded to nearest-even and converted to integers, its x column and its y column each as an array indexed batch,
  instance, keypoint. The clamped coordinates are these, clamped.
-/
import proofs.«130083_j14061722927137_2_alg».proof.Proof.KI_Entry
import proofs.«130083_j14061722927137_2_alg».proof.Proof.OneHotRead
import Idealize.ShloMosaic.Lib.StableHlo.Run

noncomputable section

namespace Cert.KernelIdeal.OneHot

open Cert.KernelIdeal Cert.KernelIdeal.Gen Cert.KernelIdeal.Fr Idealize.ShloMosaic Idealize.ShloMosaic.TcCoe Idealize.SL.Sem Idealize.ShloMosaic.StableHlo

variable (m : (ℓ : Loc nD τ sig) → Buf (Elt Ideal) ℓ)

/-- The integer x coordinates as a function of the keypoint array. -/
def xOf (a2 : (⟨S32x10x12x2, .f32⟩ : BufTy).Contents (Elt Ideal)) : (⟨S32x10x12, .i32⟩ : BufTy).Contents (Elt Ideal) :=
  shapeCast _ (extractStridedSlice S32x10x12x1 ![0, 0, 0, 0] (rounded a2) slices_S32x10x12x2_S32x10x12x1_0_0_0_0) shapeCasts_S32x10x12x1_S32x10x12

/-- The integer y coordinates as a function of the keypoint array. -/
def yOf (a2 : (⟨S32x10x12x2, .f32⟩ : BufTy).Contents (Elt Ideal)) : (⟨S32x10x12, .i32⟩ : BufTy).Contents (Elt Ideal) :=
  shapeCast _ (extractStridedSlice S32x10x12x1 ![0, 0, 0, 1] (rounded a2) slices_S32x10x12x2_S32x10x12x1_0_0_0_1) shapeCasts_S32x10x12x1_S32x10x12

/-- The clamped x coordinates are the integer x coordinates clamped. -/
theorem xcOf_eq_clamp (a2 : (⟨S32x10x12x2, .f32⟩ : BufTy).Contents (Elt Ideal)) : xcOf a2 = clamp (xOf a2) := rfl

/-- The clamped y coordinates are the integer y coordinates clamped. -/
theorem ycOf_eq_clamp (a2 : (⟨S32x10x12x2, .f32⟩ : BufTy).Contents (Elt Ideal)) : ycOf a2 = clamp (yOf a2) := rfl

/-- The integer x coordinates at the region's entry, from the launched keypoint array. -/
theorem V_x_raw (c : Dev nD) : (V m c main_v3 : S32x10x12.Idx → BitVec 32) = xOf (m ((c : Thread nD τ).loc main_arg2)) := by
  dsimp only [V, V0]
  simp only [preOps, hostOps0, hostOps0_1, hostOps0_2, hostOps0_3, hostOps0_4, hostOps0_5, List.flatten_cons, List.flatten_nil, List.append_nil, List.cons_append, List.nil_append]
  after_results_simp
  rfl

/-- The integer y coordinates at the region's entry, from the launched keypoint array. -/
theorem V_y_raw (c : Dev nD) : (V m c main_v5 : S32x10x12.Idx → BitVec 32) = yOf (m ((c : Thread nD τ).loc main_arg2)) := by
  dsimp only [V, V0]
  simp only [preOps, hostOps0, hostOps0_1, hostOps0_2, hostOps0_3, hostOps0_4, hostOps0_5, List.flatten_cons, List.flatten_nil, List.append_nil, List.cons_append, List.nil_append]
  after_results_simp
  rfl

end Cert.KernelIdeal.OneHot

end
-- ==== Proof.OneHotLanes.lean ====
/-
  The one-hot arrays the kernel region is handed, read at an index, at the ideal instance. Each, read at batch b,
  keypoint k, instance m and lane w, is 1 when the clamped coordinate of (b, m, k), read unsigned, is w and 0
  otherwise; the clamped coordinates are below 256, so a row of 256 values multiplied by a lane vector and summed
  is the value at the coordinate.
-/
import proofs.«130083_j14061722927137_2_alg».proof.Proof.OneHotArgs
import proofs.«130083_j14061722927137_2_alg».proof.Proof.OneHotX
import proofs.«130083_j14061722927137_2_alg».proof.Proof.OneHotY
import proofs.«130083_j14061722927137_2_alg».proof.Proof.OneHotUnclamped

noncomputable section

open scoped BigOperators

namespace Cert.KernelIdeal.OneHot

open Cert.KernelIdeal Cert.KernelIdeal.Gen Cert.KernelIdeal.Fr Idealize.ShloMosaic Idealize.ShloMosaic.TcCoe Idealize.SL.Sem Idealize.ShloMosaic.ValueIdx

variable (m : (ℓ : Loc nD τ sig) → Buf (Elt Ideal) ℓ)

/-- The clamped x coordinates the region finds are the integer x coordinates it finds, clamped. -/
theorem V_xc_clamp (c : Dev nD) : (V m c main_v6 : S32x10x12.Idx → BitVec 32) = clamp (V m c main_v3 : S32x10x12.Idx → BitVec 32) := by
  rw [V_xc_raw m c, V_x_raw m c]; exact xcOf_eq_clamp _

/-- The clamped y coordinates the region finds are the integer y coordinates it finds, clamped. -/
theorem V_yc_clamp (c : Dev nD) : (V m c main_v7 : S32x10x12.Idx → BitVec 32) = clamp (V m c main_v5 : S32x10x12.Idx → BitVec 32) := by
  rw [V_yc_raw m c, V_y_raw m c]; exact ycOf_eq_clamp _

/-- Every clamped x coordinate the region finds is below 256. -/
theorem V_xc_lt (c : Dev nD) (i : S32x10x12.Idx) : ((V m c main_v6 : S32x10x12.Idx → BitVec 32) i).toNat < 256 := by
  rw [V_xc_raw m c]; exact clamp_lt _ i

/-- Every clamped y coordinate the region finds is below 256. -/
theorem V_yc_lt (c : Dev nD) (i : S32x10x12.Idx) : ((V m c main_v7 : S32x10x12.Idx → BitVec 32) i).toNat < 256 := by
  rw [V_yc_raw m c]; exact clamp_lt _ i

/-- The x one-hot array at batch b, keypoint k, instance mm, lane w: 1 exactly on the lane of the clamped x coordinate. -/
theorem V_ohx (c : Dev nD) (b : Fin 32) (k : Fin 12) (mm : Fin 10) (w : Fin 256) :
    @Eq EReal ((V m c main_v17 : S32x12x10x256.Idx → EReal) (ix4 b k mm w))
      (if ((V m c main_v6 : S32x10x12.Idx → BitVec 32) (ix3 b mm k)).toNat = w.val then 1 else 0) := by
  rw [V_ohx_step m c]; exact oneHot_apply_toNat _ b k mm w

/-- The y one-hot array at batch b, keypoint k, instance mm, lane w: 1 exactly on the lane of the clamped y coordinate. -/
theorem V_ohy (c : Dev nD) (b : Fin 32) (k : Fin 12) (mm : Fin 10) (w : Fin 256) :
    @Eq EReal ((V m c main_v23 : S32x12x10x256.Idx → EReal) (ix4 b k mm w))
      (if ((V m c main_v7 : S32x10x12.Idx → BitVec 32) (ix3 b mm k)).toNat = w.val then 1 else 0) := by
  rw [V_ohy_step m c]; exact oneHot_apply_toNat _ b k mm w

/-- A row of 256 values against the x one-hot lanes of (b, k, mm) sums to the value at the clamped x coordinate. -/
theorem sum_mul_V_ohx (c : Dev nD) (g : Fin 256 → EReal) (b : Fin 32) (k : Fin 12) (mm : Fin 10) :
    ∑ w : Fin 256, @HMul.hMul EReal EReal EReal _ (g w) ((V m c main_v17 : S32x12x10x256.Idx → EReal) (ix4 b k mm w))
      = g ⟨((V m c main_v6 : S32x10x12.Idx → BitVec 32) (ix3 b mm k)).toNat, V_xc_lt m c _⟩ := by
  rw [← sum_mul_oneHot g _ (V_xc_lt m c (ix3 b mm k))]
  exact Finset.sum_congr rfl fun w _ => congrArg (g w * ·) (V_ohx m c b k mm w)

/-- A row of 256 values against the y one-hot lanes of (b, k, mm) sums to the value at the clamped y coordinate. -/
theorem sum_mul_V_ohy (c : Dev nD) (g : Fin 256 → EReal) (b : Fin 32) (k : Fin 12) (mm : Fin 10) :
    ∑ w : Fin 256, @HMul.hMul EReal EReal EReal _ (g w) ((V m c main_v23 : S32x12x10x256.Idx → EReal) (ix4 b k mm w))
      = g ⟨((V m c main_v7 : S32x10x12.Idx → BitVec 32) (ix3 b mm k)).toNat, V_yc_lt m c _⟩ := by
  rw [← sum_mul_oneHot g _ (V_yc_lt m c (ix3 b mm k))]
  exact Finset.sum_congr rfl fun w _ => congrArg (g w * ·) (V_ohy m c b k mm w)

end Cert.KernelIdeal.OneHot

end
-- ==== Proof.OneHot.lean ====
/-
  What the kernel region is handed by the operations that run before it, at the ideal instance: the clamped x and y
  coordinate arrays, and the integer coordinate arrays before clamping, are the reference program's own stages of
  the launched keypoint array (the two programs round, convert, split and clamp in the same way). With the one-hot
  arrays read at an index and the argument arrays as launched, which this file brings along, that is everything
  the region's inputs depend on.
-/
import proofs.«130083_j14061722927137_2_alg».proof.Proof.OneHotLanes
import proofs.«130083_j14061722927137_2_alg».proof.Proof.Gen.ReferenceIdeal.Read

noncomputable section

namespace Cert.KernelIdeal.OneHot

open Cert.KernelIdeal Cert.KernelIdeal.Gen Cert.KernelIdeal.Fr Idealize.ShloMosaic Idealize.ShloMosaic.TcCoe Idealize.SL.Sem

variable (m : (ℓ : Loc nD τ sig) → Buf (Elt Ideal) ℓ)

/-- The clamped x coordinates, as a function of the keypoint array, are the reference's stage. -/
theorem xcOf_eq (a2 : (⟨S32x10x12x2, .f32⟩ : BufTy).Contents (Elt Ideal)) :
    xcOf a2 = Cert.ReferenceIdeal.Read.val_main_v32 (F := Ideal) a2 := rfl

/-- The clamped y coordinates, as a function of the keypoint array, are the reference's stage. -/
theorem ycOf_eq (a2 : (⟨S32x10x12x2, .f32⟩ : BufTy).Contents (Elt Ideal)) :
    ycOf a2 = Cert.ReferenceIdeal.Read.val_main_v33 (F := Ideal) a2 := rfl

/-- The integer x coordinates, as a function of the keypoint array, are the reference's stage. -/
theorem xOf_eq (a2 : (⟨S32x10x12x2, .f32⟩ : BufTy).Contents (Elt Ideal)) :
    xOf a2 = Cert.ReferenceIdeal.Read.val_main_v9 (F := Ideal) a2 := rfl

/-- The integer y coordinates, as a function of the keypoint array, are the reference's stage. -/
theorem yOf_eq (a2 : (⟨S32x10x12x2, .f32⟩ : BufTy).Contents (Elt Ideal)) :
    yOf a2 = Cert.ReferenceIdeal.Read.val_main_v11 (F := Ideal) a2 := rfl

/-- The integer x coordinates the region finds are the reference's integer x coordinates of the launched keypoints. -/
theorem V_x (c : Dev nD) : (V m c main_v3 : S32x10x12.Idx → BitVec 32)
    = Cert.ReferenceIdeal.Read.val_main_v9 (F := Ideal) (m ((c : Thread nD τ).loc main_arg2)) :=
  (V_x_raw m c).trans (xOf_eq _)

/-- The integer y coordinates the region finds are the reference's integer y coordinates of the launched keypoints. -/
theorem V_y (c : Dev nD) : (V m c main_v5 : S32x10x12.Idx → BitVec 32)
    = Cert.ReferenceIdeal.Read.val_main_v11 (F := Ideal) (m ((c : Thread nD τ).loc main_arg2)) :=
  (V_y_raw m c).trans (yOf_eq _)

/-- The clamped x coordinates the region finds are the reference's clamped x coordinates of the launched keypoints. -/
theorem V_xc (c : Dev nD) : (V m c main_v6 : S32x10x12.Idx → BitVec 32)
    = Cert.ReferenceIdeal.Read.val_main_v32 (F := Ideal) (m ((c : Thread nD τ).loc main_arg2)) :=
  (V_xc_raw m c).trans (xcOf_eq _)

/-- The clamped y coordinates the region finds are the reference's clamped y coordinates of the launched keypoints. -/
theorem V_yc (c : Dev nD) : (V m c main_v7 : S32x10x12.Idx → BitVec 32)
    = Cert.ReferenceIdeal.Read.val_main_v33 (F := Ideal) (m ((c : Thread nD τ).loc main_arg2)) :=
  (V_yc_raw m c).trans (ycOf_eq _)

end Cert.KernelIdeal.OneHot

end
-- ==== Proof.RefReadLib.lean ====
/-
  Three shape facts the reference's reading needs, each about literal shapes only:
  a sum over a rank-4 index set is the fourfold sum over its coordinates; the three-piece
  concatenation of unit columns along the last axis reads the piece named by the last
  coordinate; and the batched single-element gather of a [32,12,256,256] operand at a
  [32,10,12,3] array of start indices reads the operand at the batch coordinate and the
  three components of the start index, each read signed and clamped into its axis.
-/
import proofs.«130083_j14061722927137_2_alg».proof.Proof.Gen.ReferenceIdeal
import Idealize.ShloMosaic.Lib.ValueIdx
import Idealize.ShloMosaic.Lib.Pipeline.Value

noncomputable section

open scoped BigOperators

namespace Cert.ReferenceIdeal.RefRead

open Cert.ReferenceIdeal Cert.ReferenceIdeal.Gen Idealize.ShloMosaic Idealize.ShloMosaic.ValueIdx

/-! ## A sum over a rank-4 index set -/

/-- A rank-4 index set is the product of its four coordinate ranges … -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## The concatenation of three unit columns along the last axis -/

section Concat
variable {α : Type}

/-- The last coordinate 0 reads the first piece. -/
theorem concat3_apply0 (x0 x1 x2 : S32x10x12x1.Idx → α) (b : Fin 32) (mm : Fin 10) (k : Fin 12) :
    concatenate S32x10x12x3 3 [⟨S32x10x12x1, x0⟩, ⟨S32x10x12x1, x1⟩, ⟨S32x10x12x1, x2⟩]
      concatenates_S32x10x12x1_S32x10x12x1_S32x10x12x1_S32x10x12x3_d3 (ix4 b mm k (0 : Fin 3))
      = x0 (ix4 b mm k (0 : Fin 1)) :=
  concatenate_apply_piece (t := S32x10x12x3) 3 _ _ (ix4 b mm k (0 : Fin 3)) 0 (by show 0 < 3; omega) S32x10x12x1 x0 rfl rfl 0 rfl
    (ix4 b mm k (0 : Fin 1))
    (fun a => match a with
      | ⟨0, _⟩ => fun _ => rfl
      | ⟨1, _⟩ => fun _ => rfl
      | ⟨2, _⟩ => fun _ => rfl
      | ⟨3, _⟩ => fun h => absurd rfl h)
    rfl

/-- The last coordinate 1 reads the second piece. -/
theorem concat3_apply1 (x0 x1 x2 : S32x10x12x1.Idx → α) (b : Fin 32) (mm : Fin 10) (k : Fin 12) :
    concatenate S32x10x12x3 3 [⟨S32x10x12x1, x0⟩, ⟨S32x10x12x1, x1⟩, ⟨S32x10x12x1, x2⟩]
      concatenates_S32x10x12x1_S32x10x12x1_S32x10x12x1_S32x10x12x3_d3 (ix4 b mm k (1 : Fin 3))
      = x1 (ix4 b mm k (0 : Fin 1)) :=
  concatenate_apply_piece (t := S32x10x12x3) 3 _ _ (ix4 b mm k (1 : Fin 3)) 1 (by show 1 < 3; omega) S32x10x12x1 x1 rfl rfl 1 rfl
    (ix4 b mm k (0 : Fin 1))
    (fun a => match a with
      | ⟨0, _⟩ => fun _ => rfl
      | ⟨1, _⟩ => fun _ => rfl
      | ⟨2, _⟩ => fun _ => rfl
      | ⟨3, _⟩ => fun h => absurd rfl h)
    rfl

/-- The last coordinate 2 reads the third piece. -/
theorem concat3_apply2 (x0 x1 x2 : S32x10x12x1.Idx → α) (b : Fin 32) (mm : Fin 10) (k : Fin 12) :
    concatenate S32x10x12x3 3 [⟨S32x10x12x1, x0⟩, ⟨S32x10x12x1, x1⟩, ⟨S32x10x12x1, x2⟩]
      concatenates_S32x10x12x1_S32x10x12x1_S32x10x12x1_S32x10x12x3_d3 (ix4 b mm k (2 : Fin 3))
      = x2 (ix4 b mm k (0 : Fin 1)) :=
  concatenate_apply_piece (t := S32x10x12x3) 3 _ _ (ix4 b mm k (2 : Fin 3)) 2 (by show 2 < 3; omega) S32x10x12x1 x2 rfl rfl 2 rfl
    (ix4 b mm k (0 : Fin 1))
    (fun a => match a with
      | ⟨0, _⟩ => fun _ => rfl
      | ⟨1, _⟩ => fun _ => rfl
      | ⟨2, _⟩ => fun _ => rfl
      | ⟨3, _⟩ => fun h => absurd rfl h)
    rfl

end Concat

/-! ## The batched single-element gather -/

section Gather
variable {α : Type}

/-- The start-indices index at which result index `(b, m, k)` reads component `c` of its start index is `(b, m, k, c)`. -/
theorem gd_siIdx (b : Fin 32) (mm : Fin 10) (k : Fin 12) (c : Fin 3) :
    gather_S32x12x256x256_S32x10x12x3_S32x10x12_n_123_0_0_123_3_1111.siIdx (ix3 b mm k) ⟨c.val, c.isLt⟩ = ix4 b mm k c := by
  funext a; refine Fin.ext ?_
  match a with
  | ⟨0, _⟩ => rfl
  | ⟨1, _⟩ => rfl
  | ⟨2, _⟩ => rfl
  | ⟨3, _⟩ => rfl

/-- THE GATHER READ AT `(b, m, k)`: the operand at batch `b` and at the three components of the start index
    `idx[b, m, k, ·]`, each read signed and clamped into its axis. -/
theorem gather_apply {w : Nat} (x : S32x12x256x256.Idx → α) (idx : IVec S32x10x12x3 w) (b : Fin 32) (mm : Fin 10) (k : Fin 12) :
    Host.gather gather_S32x12x256x256_S32x10x12x3_S32x10x12_n_123_0_0_123_3_1111 x idx (ix3 b mm k)
      = x (ix4 b ⟨min (idx (ix4 b mm k (0 : Fin 3))).toInt.toNat 11, by omega⟩
            ⟨min (idx (ix4 b mm k (1 : Fin 3))).toInt.toNat 255, by omega⟩
            ⟨min (idx (ix4 b mm k (2 : Fin 3))).toInt.toNat 255, by omega⟩) := by
  unfold Host.gather
  refine congrArg x (funext fun a => Fin.ext ?_)
  match a with
  | ⟨0, _⟩ =>
    show gather_S32x12x256x256_S32x10x12x3_S32x10x12_n_123_0_0_123_3_1111.start (ix3 b mm k) idx 0 + gather_S32x12x256x256_S32x10x12x3_S32x10x12_n_123_0_0_123_3_1111.batchCoord (ix3 b mm k) 0 + gather_S32x12x256x256_S32x10x12x3_S32x10x12_n_123_0_0_123_3_1111.offCoord (ix3 b mm k) 0 = b.val
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    unfold GatherDims.batchCoord
    rw [dif_pos (show (0 : Fin 4) ∈ gather_S32x12x256x256_S32x10x12x3_S32x10x12_n_123_0_0_123_3_1111.operandBatchingDims
      from List.mem_singleton.mpr rfl)]
    rfl
  | ⟨1, _⟩ =>
    show gather_S32x12x256x256_S32x10x12x3_S32x10x12_n_123_0_0_123_3_1111.start (ix3 b mm k) idx 1 + gather_S32x12x256x256_S32x10x12x3_S32x10x12_n_123_0_0_123_3_1111.batchCoord (ix3 b mm k) 1 + gather_S32x12x256x256_S32x10x12x3_S32x10x12_n_123_0_0_123_3_1111.offCoord (ix3 b mm k) 1 = _
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (show (1 : Fin 4) ∈ gather_S32x12x256x256_S32x10x12x3_S32x10x12_n_123_0_0_123_3_1111.startIndexMap by decide)]
    exact congrArg (fun i => min (idx i).toInt.toNat 11) (gd_siIdx b mm k 0)
  | ⟨2, _⟩ =>
    show gather_S32x12x256x256_S32x10x12x3_S32x10x12_n_123_0_0_123_3_1111.start (ix3 b mm k) idx 2 + gather_S32x12x256x256_S32x10x12x3_S32x10x12_n_123_0_0_123_3_1111.batchCoord (ix3 b mm k) 2 + gather_S32x12x256x256_S32x10x12x3_S32x10x12_n_123_0_0_123_3_1111.offCoord (ix3 b mm k) 2 = _
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (show (2 : Fin 4) ∈ gather_S32x12x256x256_S32x10x12x3_S32x10x12_n_123_0_0_123_3_1111.startIndexMap by decide)]
    exact congrArg (fun i => min (idx i).toInt.toNat 255) (gd_siIdx b mm k 1)
  | ⟨3, _⟩ =>
    show gather_S32x12x256x256_S32x10x12x3_S32x10x12_n_123_0_0_123_3_1111.start (ix3 b mm k) idx 3 + gather_S32x12x256x256_S32x10x12x3_S32x10x12_n_123_0_0_123_3_1111.batchCoord (ix3 b mm k) 3 + gather_S32x12x256x256_S32x10x12x3_S32x10x12_n_123_0_0_123_3_1111.offCoord (ix3 b mm k) 3 = _
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (show (3 : Fin 4) ∈ gather_S32x12x256x256_S32x10x12x3_S32x10x12_n_123_0_0_123_3_1111.startIndexMap by decide)]
    exact congrArg (fun i => min (idx i).toInt.toNat 255) (gd_siIdx b mm k 2)

end Gather

end Cert.ReferenceIdeal.RefRead

end
-- ==== Proof.RefRead.lean ====
/-
  The reference program read at an index, for the two values the kernel is compared with.
  (1) The clamped keypoint coordinates — minimum(255, maximum(0, ·)) of the rounded ones, signed — read signed in
  [0, 255]. (2) The gathered embedding value at (b, m, k) is the first argument at batch b, channel 12 + k, row the
  clamped y coordinate and column the clamped x coordinate: the start index's three components are the channel number
  (an iota, unchanged by the negative-index normalisation since it is not negative), the clamped y and the clamped x
  (likewise unchanged), the gather's own clamp moves none of them since each already names a position on its axis,
  and the slice of the embedding channels shifts the channel by 12. (3) The sum of squared differences is the
  fourfold sum over batch, heat channel, row and column of the square of the difference, the zero initial value
  contributing nothing.
-/
import proofs.«130083_j14061722927137_2_alg».proof.Proof.Gen.ReferenceIdeal.Read
import proofs.«130083_j14061722927137_2_alg».proof.Proof.RefReadLib
import Idealize.ShloMosaic.Lib.WordArith
import Idealize.ShloMosaic.Lib.DynamicIndex

noncomputable section

open scoped BigOperators

namespace Cert.ReferenceIdeal.RefRead

open Cert.ReferenceIdeal Cert.ReferenceIdeal.Gen Cert.ReferenceIdeal.Read Idealize.ShloMosaic Idealize.ShloMosaic.ValueIdx

/-! ## Signed 32-bit words: the minimum, the clamp into [0, 255], and the index normalisation -/

/-- The signed minimum of two words reads signed as the integers' minimum. -/
theorem toInt_minsi (a b : BitVec 32) : (IntOp.minsi a b).toInt = min a.toInt b.toInt := by
  unfold IntOp.minsi
  by_cases h : a.slt b = true
  · rw [if_pos h]; rw [BitVec.slt_iff_toInt_lt] at h; omega
  · rw [if_neg h]; rw [BitVec.slt_iff_toInt_lt] at h; omega

/-- minimum(255, maximum(0, v)), read signed, lies in [0, 255]. -/
theorem clip_range (v : BitVec 32) :
    0 ≤ (IntOp.minsi 255#32 (IntOp.maxsi 0#32 v)).toInt ∧ (IntOp.minsi 255#32 (IntOp.maxsi 0#32 v)).toInt ≤ 255 := by
  have h255 : (255#32 : BitVec 32).toInt = 255 := by decide
  rw [toInt_minsi, WordArith.toInt_maxsi_zero, h255]
  omega

/-- A word that reads signed in [0, 255] is, as a natural number, that reading, and at most 255. -/
theorem toNat_of_range (v : BitVec 32) (h0 : 0 ≤ v.toInt) (h1 : v.toInt ≤ 255) :
    v.toInt.toNat = v.toNat ∧ v.toNat ≤ 255 := by
  have e := BitVec.toInt_eq_toNat_cond v
  have hv := v.isLt
  split at e <;> omega

/-- select(v < 0, v + c, v) is v where v is not negative, read signed. -/
theorem select_norm (v c : BitVec 32) (h : 0 ≤ v.toInt) :
    Scalar.select (IntOp.cmpi .slt v 0#32) (IntOp.addi v c) v = v := by
  have hlt : v.slt 0#32 = false := by
    simp only [BitVec.slt, BitVec.toInt_zero, decide_eq_false_iff_not, Int.not_lt]
    exact h
  show (if BitVec.ofBool (v.slt 0#32) = 1 then _ else _) = _
  rw [hlt]
  rfl

/-! ## The clamped coordinates -/

/-- The clamped y coordinate is minimum(255, maximum(0, ·)) of the rounded one. -/
theorem v33_eq (x2 : (⟨S32x10x12x2, .f32⟩ : BufTy).Contents (Elt Ideal)) (i : S32x10x12.Idx) :
    val_main_v33 (F := Ideal) x2 i = IntOp.minsi 255#32 (IntOp.maxsi 0#32 (val_main_v11 (F := Ideal) x2 i)) := by
  rw [val_main_v33_apply, val_main_call2_v4_apply, val_main_call2_v2_apply, val_main_call2_v1_apply]
  rfl

/-- The clamped x coordinate is minimum(255, maximum(0, ·)) of the rounded one. -/
theorem v32_eq (x2 : (⟨S32x10x12x2, .f32⟩ : BufTy).Contents (Elt Ideal)) (i : S32x10x12.Idx) :
    val_main_v32 (F := Ideal) x2 i = IntOp.minsi 255#32 (IntOp.maxsi 0#32 (val_main_v9 (F := Ideal) x2 i)) := by
  rw [val_main_v32_apply, val_main_call1_v4_apply, val_main_call1_v2_apply, val_main_call1_v1_apply]
  rfl

/-- The clamped y coordinate, read signed, lies in [0, 255]. -/
theorem yc_range (x2 : (⟨S32x10x12x2, .f32⟩ : BufTy).Contents (Elt Ideal)) (i : S32x10x12.Idx) :
    0 ≤ (val_main_v33 (F := Ideal) x2 i).toInt ∧ (val_main_v33 (F := Ideal) x2 i).toInt ≤ 255 := by
  rw [v33_eq]; exact clip_range _

/-- The clamped x coordinate, read signed, lies in [0, 255]. -/
theorem xc_range (x2 : (⟨S32x10x12x2, .f32⟩ : BufTy).Contents (Elt Ideal)) (i : S32x10x12.Idx) :
    0 ≤ (val_main_v32 (F := Ideal) x2 i).toInt ∧ (val_main_v32 (F := Ideal) x2 i).toInt ≤ 255 := by
  rw [v32_eq]; exact clip_range _

/-- The clamped y coordinate names a row. -/
theorem yc_lt (x2 : (⟨S32x10x12x2, .f32⟩ : BufTy).Contents (Elt Ideal)) (i : S32x10x12.Idx) :
    (val_main_v33 (F := Ideal) x2 i).toNat < 256 := by
  have h := yc_range x2 i
  have := (toNat_of_range _ h.1 h.2).2
  omega

/-- The clamped x coordinate names a column. -/
theorem xc_lt (x2 : (⟨S32x10x12x2, .f32⟩ : BufTy).Contents (Elt Ideal)) (i : S32x10x12.Idx) :
    (val_main_v32 (F := Ideal) x2 i).toNat < 256 := by
  have h := xc_range x2 i
  have := (toNat_of_range _ h.1 h.2).2
  omega

/-! ## The three components of the start index -/

/-- The channel iota after its index normalisation is the channel number. -/
theorem v40_eq (i : S1x12.Idx) : val_main_v40 (F := Ideal) i = BitVec.ofNat 32 (i 1).val := by
  rw [val_main_v40_apply, val_main_v37_apply, val_main_v39_apply, val_main_v35_apply, val_main_v34_apply,
    val_main_v36_apply, val_main_c_8_apply]
  refine select_norm _ _ ?_
  have h1 : (i 1).val < 12 := (i 1).isLt
  show 0 ≤ (BitVec.ofNat 32 (i 1).val).toInt
  rw [toInt_ofNat_of_lt (by omega)]
  omega

/-- Component 0 of the start index at (b, m, k) is the channel k. -/
theorem v56_k (x2 : (⟨S32x10x12x2, .f32⟩ : BufTy).Contents (Elt Ideal)) (b : Fin 32) (mm : Fin 10) (k : Fin 12) :
    val_main_v56 (F := Ideal) x2 (ix4 b mm k (0 : Fin 3)) = BitVec.ofNat 32 k.val := by
  unfold val_main_v56
  refine (concat3_apply0 _ _ _ b mm k).trans ?_
  rw [val_main_v55_apply, val_main_v52_apply, val_main_v51_apply, v40_eq]

/-- Component 1 of the start index at (b, m, k) is the clamped y coordinate there. -/
theorem v56_y (x2 : (⟨S32x10x12x2, .f32⟩ : BufTy).Contents (Elt Ideal)) (b : Fin 32) (mm : Fin 10) (k : Fin 12) :
    val_main_v56 (F := Ideal) x2 (ix4 b mm k (1 : Fin 3)) = val_main_v33 (F := Ideal) x2 (ix3 b mm k) := by
  unfold val_main_v56
  refine (concat3_apply1 _ _ _ b mm k).trans ?_
  have hi : idx_main_v53 (ix4 b mm k (0 : Fin 1)) = ix3 b mm k := by
    funext a
    match a with
    | ⟨0, _⟩ => rfl
    | ⟨1, _⟩ => rfl
    | ⟨2, _⟩ => rfl
  rw [val_main_v53_apply, hi, val_main_v45_apply, val_main_v42_apply, val_main_v44_apply, val_main_v41_apply,
    val_main_c_10_apply]
  exact select_norm _ _ (yc_range x2 _).1

/-- Component 2 of the start index at (b, m, k) is the clamped x coordinate there. -/
theorem v56_x (x2 : (⟨S32x10x12x2, .f32⟩ : BufTy).Contents (Elt Ideal)) (b : Fin 32) (mm : Fin 10) (k : Fin 12) :
    val_main_v56 (F := Ideal) x2 (ix4 b mm k (2 : Fin 3)) = val_main_v32 (F := Ideal) x2 (ix3 b mm k) := by
  unfold val_main_v56
  refine (concat3_apply2 _ _ _ b mm k).trans ?_
  have hi : idx_main_v54 (ix4 b mm k (0 : Fin 1)) = ix3 b mm k := by
    funext a
    match a with
    | ⟨0, _⟩ => rfl
    | ⟨1, _⟩ => rfl
    | ⟨2, _⟩ => rfl
  rw [val_main_v54_apply, hi, val_main_v50_apply, val_main_v47_apply, val_main_v49_apply, val_main_v46_apply,
    val_main_c_12_apply]
  exact select_norm _ _ (xc_range x2 _).1

/-! ## The gather read at an index -/

/-- THE GATHERED EMBEDDING VALUE at (b, m, k): the first argument at batch b, channel 12 + k, row the clamped y
    coordinate and column the clamped x coordinate of keypoint (b, m, k). -/
theorem gather_read (x0 : (⟨S32x24x256x256, .f32⟩ : BufTy).Contents (Elt Ideal))
    (x2 : (⟨S32x10x12x2, .f32⟩ : BufTy).Contents (Elt Ideal)) (b : Fin 32) (mm : Fin 10) (k : Fin 12) :
    val_main_v57 (F := Ideal) x0 x2 (ix3 b mm k)
      = x0 (ix4 b ⟨12 + k.val, by omega⟩
          ⟨(val_main_v33 (F := Ideal) x2 (ix3 b mm k)).toNat, yc_lt x2 _⟩
          ⟨(val_main_v32 (F := Ideal) x2 (ix3 b mm k)).toNat, xc_lt x2 _⟩) := by
  unfold val_main_v57
  rw [gather_apply, val_main_v1_apply]
  refine congrArg x0 (funext fun a => Fin.ext ?_)
  match a with
  | ⟨0, _⟩ => rfl
  | ⟨1, _⟩ =>
    show 12 + min (val_main_v56 (F := Ideal) x2 (ix4 b mm k (0 : Fin 3))).toInt.toNat 11 = 12 + k.val
    rw [v56_k, toInt_ofNat_of_lt (by omega)]
    omega
  | ⟨2, _⟩ =>
    show min (val_main_v56 (F := Ideal) x2 (ix4 b mm k (1 : Fin 3))).toInt.toNat 255
      = (val_main_v33 (F := Ideal) x2 (ix3 b mm k)).toNat
    rw [v56_y]
    have h := yc_range x2 (ix3 b mm k)
    have := toNat_of_range _ h.1 h.2
    omega
  | ⟨3, _⟩ =>
    show min (val_main_v56 (F := Ideal) x2 (ix4 b mm k (2 : Fin 3))).toInt.toNat 255
      = (val_main_v32 (F := Ideal) x2 (ix3 b mm k)).toNat
    rw [v56_x]
    have h := xc_range x2 (ix3 b mm k)
    have := toNat_of_range _ h.1 h.2
    omega

/-! ## The sum of squared differences -/

/-- THE SUM OF SQUARED DIFFERENCES: over every batch, heat channel, row and column, the square of the first argument's
    heat channel less the second argument. -/
theorem pose_sum (x0 : (⟨S32x24x256x256, .f32⟩ : BufTy).Contents (Elt Ideal))
    (x1 : (⟨S32x12x256x256, .f32⟩ : BufTy).Contents (Elt Ideal)) (i : S_.Idx) :
    val_main_v4 (F := Ideal) x0 x1 i
      = ∑ b : Fin 32, ∑ k : Fin 12, ∑ h : Fin 256, ∑ w : Fin 256,
          (x0 (ix4 b ⟨k.val, by omega⟩ h w) - x1 (ix4 b k h w)) * (x0 (ix4 b ⟨k.val, by omega⟩ h w) - x1 (ix4 b k h w)) := by
  rw [val_main_v4_apply, val_main_cst_apply,
    show (FloatOps.ofBits FTy.f32 0x00000000#32 : Ideal FTy.f32) = 0 from Ideal.ofBits_zero_f32, zero_add, sum_idx4]
  refine Finset.sum_congr rfl fun b _ => Finset.sum_congr rfl fun k _ => Finset.sum_congr rfl fun h _ =>
    Finset.sum_congr rfl fun w _ => ?_
  have hi : idx_main_v0 (ix4 b k h w) = ix4 b ⟨k.val, by omega⟩ h w := by
    funext a
    match a with
    | ⟨0, _⟩ => rfl
    | ⟨1, _⟩ => rfl
    | ⟨2, _⟩ => rfl
    | ⟨3, _⟩ => rfl
  rw [val_main_v3_apply, val_main_v2_apply, val_main_v0_apply, hi]
  rfl

end Cert.ReferenceIdeal.RefRead

end
-- ==== Proof.EmbedCore.lean ====
/-
  The one-hot selection is the gather, as mathematics over literal shapes. A row one-hot at y and a column one-hot at x
  select from a 256 × 256 plane its element at (y, x): the sum over columns w of (the sum over rows h of
  onehotY(h) · A(h, w)) · onehotX(w) is A(y, x), since in each sum every term but one has a zero factor.
-/
import Idealize.ShloMosaic.Lib.ValueIdx

noncomputable section

open scoped BigOperators

namespace Cert.EmbedCore

open Idealize.ShloMosaic Idealize.ShloMosaic.ValueIdx

/-! ## A sum against a one-hot factor -/

/-- A sum whose terms carry the factor "h is y" on the left keeps the term at y. -/
theorem onehot_sum_left {n : Nat} (y : Fin n) (g : Fin n → EReal) :
    ∑ h : Fin n, (if h = y then (1 : EReal) else 0) * g h = g y := by
  rw [Finset.sum_eq_single y]
  · rw [if_pos rfl, one_mul]
  · intro h _ hne; rw [if_neg hne, zero_mul]
  · intro hy; exact absurd (Finset.mem_univ y) hy

/-- A sum whose terms carry the factor "w is x" on the right keeps the term at x. -/
theorem onehot_sum_right {n : Nat} (x : Fin n) (g : Fin n → EReal) :
    ∑ w : Fin n, g w * (if w = x then (1 : EReal) else 0) = g x := by
  rw [Finset.sum_eq_single x]
  · rw [if_pos rfl, mul_one]
  · intro w _ hne; rw [if_neg hne, mul_zero]
  · intro hx; exact absurd (Finset.mem_univ x) hx

/-! ## The selection, with the selected row and column given as positions -/

/-- At one keypoint (b, m, k): if the y array's row at (b, k, m) is the one-hot of y and the x array's row there the
    one-hot of x, the doubly contracted plane of embedding channel k is its element at row y, column x. -/
theorem embed_core_fin (A0 : (Shape.mk 4 ![32, 24, 256, 256]).Idx → EReal) (OX OY : (Shape.mk 4 ![32, 12, 10, 256]).Idx → EReal)
    (b : Fin 32) (mm : Fin 10) (k : Fin 12) (x y : Fin 256)
    (hOX : ∀ w : Fin 256, OX (ix4 b k mm w) = if w = x then 1 else 0)
    (hOY : ∀ h : Fin 256, OY (ix4 b k mm h) = if h = y then 1 else 0) :
    (∑ w : Fin 256, (∑ h : Fin 256, OY (ix4 b k mm h) * A0 (ix4 b ⟨12 + k.val, by omega⟩ h w)) * OX (ix4 b k mm w))
      = A0 (ix4 b ⟨12 + k.val, by omega⟩ y x) := by
  have e : ∀ w : Fin 256,
      (∑ h : Fin 256, OY (ix4 b k mm h) * A0 (ix4 b ⟨12 + k.val, by omega⟩ h w)) * OX (ix4 b k mm w)
        = (∑ h : Fin 256, (if h = y then (1 : EReal) else 0) * A0 (ix4 b ⟨12 + k.val, by omega⟩ h w))
            * (if w = x then (1 : EReal) else 0) := fun w => by
    rw [hOX w]
    refine congrArg (· * _) (Finset.sum_congr rfl fun h _ => ?_)
    rw [hOY h]
  rw [Finset.sum_congr rfl fun w _ => e w]
  exact (onehot_sum_right x fun w => ∑ h : Fin 256, (if h = y then (1 : EReal) else 0) * A0 (ix4 b ⟨12 + k.val, by omega⟩ h w)).trans
    (onehot_sum_left y fun h => A0 (ix4 b ⟨12 + k.val, by omega⟩ h x))

/-! ## The selection, with the selected row and column given as 32-bit words below 256 -/

/-- THE ONE-HOT SELECTION IS THE GATHER, the one-hot arrays read through the words' natural values: an element of the
    x array is one exactly where the column number is the word xc of its keypoint, and likewise the y array. -/
theorem embed_core (A0 : (Shape.mk 4 ![32, 24, 256, 256]).Idx → EReal) (OX OY : (Shape.mk 4 ![32, 12, 10, 256]).Idx → EReal)
    (xc yc : (Shape.mk 3 ![32, 10, 12]).Idx → BitVec 32) (hx : ∀ i, (xc i).toNat < 256) (hy : ∀ i, (yc i).toNat < 256)
    (hOX : ∀ (b : Fin 32) (k : Fin 12) (mm : Fin 10) (w : Fin 256),
      OX (ix4 b k mm w) = if (xc (ix3 b mm k)).toNat = w.val then 1 else 0)
    (hOY : ∀ (b : Fin 32) (k : Fin 12) (mm : Fin 10) (h : Fin 256),
      OY (ix4 b k mm h) = if (yc (ix3 b mm k)).toNat = h.val then 1 else 0)
    (b : Fin 32) (mm : Fin 10) (k : Fin 12) :
    (∑ w : Fin 256, (∑ h : Fin 256, OY (ix4 b k mm h) * A0 (ix4 b ⟨12 + k.val, by omega⟩ h w)) * OX (ix4 b k mm w))
      = A0 (ix4 b ⟨12 + k.val, by omega⟩ ⟨(yc (ix3 b mm k)).toNat, hy _⟩ ⟨(xc (ix3 b mm k)).toNat, hx _⟩) :=
  embed_core_fin A0 OX OY b mm k ⟨(xc (ix3 b mm k)).toNat, hx _⟩ ⟨(yc (ix3 b mm k)).toNat, hy _⟩
    (fun w => (hOX b k mm w).trans (if_congr ⟨fun h => Fin.ext h.symm, fun h => (congrArg Fin.val h).symm⟩ rfl rfl))
    (fun h => (hOY b k mm h).trans (if_congr ⟨fun e => Fin.ext e.symm, fun e => (congrArg Fin.val e).symm⟩ rfl rfl))

/-- The same at a result index i = (b, m, k) given whole. -/
theorem embed_core_idx (A0 : (Shape.mk 4 ![32, 24, 256, 256]).Idx → EReal) (OX OY : (Shape.mk 4 ![32, 12, 10, 256]).Idx → EReal)
    (xc yc : (Shape.mk 3 ![32, 10, 12]).Idx → BitVec 32) (hx : ∀ i, (xc i).toNat < 256) (hy : ∀ i, (yc i).toNat < 256)
    (hOX : ∀ (b : Fin 32) (k : Fin 12) (mm : Fin 10) (w : Fin 256),
      OX (ix4 b k mm w) = if (xc (ix3 b mm k)).toNat = w.val then 1 else 0)
    (hOY : ∀ (b : Fin 32) (k : Fin 12) (mm : Fin 10) (h : Fin 256),
      OY (ix4 b k mm h) = if (yc (ix3 b mm k)).toNat = h.val then 1 else 0)
    (i : (Shape.mk 3 ![32, 10, 12]).Idx) :
    (∑ w : Fin 256, (∑ h : Fin 256, OY (ix4 (i 0 : Fin 32) (i 2 : Fin 12) (i 1 : Fin 10) h)
          * A0 (ix4 (i 0 : Fin 32) ⟨12 + (i 2 : Fin 12).val, by have h2 : (i 2).val < 12 := (i 2).isLt; omega⟩ h w)) * OX (ix4 (i 0 : Fin 32) (i 2 : Fin 12) (i 1 : Fin 10) w))
      = A0 (ix4 (i 0 : Fin 32) ⟨12 + (i 2 : Fin 12).val, by have h2 : (i 2).val < 12 := (i 2).isLt; omega⟩
          ⟨(yc i).toNat, hy i⟩ ⟨(xc i).toNat, hx i⟩) := by
  obtain ⟨b, mm, k, rfl⟩ : ∃ (b : Fin 32) (mm : Fin 10) (k : Fin 12), i = ix3 b mm k := ⟨i 0, i 1, i 2, eq_ix3 i⟩
  exact embed_core A0 OX OY xc yc hx hy hOX hOY b mm k

/-! ## The same with the one-hot arrays read through an equality of words -/

/-- A word below 256 is the word of a column number exactly when its natural value is that number. -/
theorem word_eq_iff (v : BitVec 32) (w : Fin 256) : v = BitVec.ofNat 32 w.val ↔ v.toNat = w.val := by
  have hw : w.val < 256 := w.isLt
  constructor
  · intro h; rw [h, BitVec.toNat_ofNat]; exact Nat.mod_eq_of_lt (by omega)
  · intro h; apply BitVec.eq_of_toNat_eq; rw [BitVec.toNat_ofNat, h]; exact (Nat.mod_eq_of_lt (by omega)).symm

/-- THE ONE-HOT SELECTION IS THE GATHER, the one-hot arrays read through word equality: an element of the x array is one
    exactly where the column number, as a 32-bit word, is the word xc of its keypoint, and likewise the y array. -/
theorem embed_core_word (A0 : (Shape.mk 4 ![32, 24, 256, 256]).Idx → EReal) (OX OY : (Shape.mk 4 ![32, 12, 10, 256]).Idx → EReal)
    (xc yc : (Shape.mk 3 ![32, 10, 12]).Idx → BitVec 32) (hx : ∀ i, (xc i).toNat < 256) (hy : ∀ i, (yc i).toNat < 256)
    (hOX : ∀ (b : Fin 32) (k : Fin 12) (mm : Fin 10) (w : Fin 256),
      OX (ix4 b k mm w) = if xc (ix3 b mm k) = BitVec.ofNat 32 w.val then 1 else 0)
    (hOY : ∀ (b : Fin 32) (k : Fin 12) (mm : Fin 10) (h : Fin 256),
      OY (ix4 b k mm h) = if yc (ix3 b mm k) = BitVec.ofNat 32 h.val then 1 else 0)
    (b : Fin 32) (mm : Fin 10) (k : Fin 12) :
    (∑ w : Fin 256, (∑ h : Fin 256, OY (ix4 b k mm h) * A0 (ix4 b ⟨12 + k.val, by omega⟩ h w)) * OX (ix4 b k mm w))
      = A0 (ix4 b ⟨12 + k.val, by omega⟩ ⟨(yc (ix3 b mm k)).toNat, hy _⟩ ⟨(xc (ix3 b mm k)).toNat, hx _⟩) :=
  embed_core A0 OX OY xc yc hx hy
    (fun b k mm w => (hOX b k mm w).trans (if_congr (word_eq_iff _ w) rfl rfl))
    (fun b k mm h => (hOY b k mm h).trans (if_congr (word_eq_iff _ h) rfl rfl))
    b mm k

end Cert.EmbedCore

end
-- ==== Proof.BridgeEmbed.lean ====
/-
  The kernel's gathered array is the reference's gather. At (b, m, k) the kernel's block holds the sum over the lanes
  w of (the sum over the rows h of the vertical one-hot times the embedding map at (h, w)) times the horizontal
  one-hot: each one-hot row is one at the clamped coordinate and zero elsewhere, so the double sum is the map's entry
  at the clamped coordinates. The reference's gather reads that same entry: its start indices are the same clamped
  coordinates, already within the map.
-/
import proofs.«130083_j14061722927137_2_alg».proof.Proof.KI_Value
import proofs.«130083_j14061722927137_2_alg».proof.Proof.KI_Final
import proofs.«130083_j14061722927137_2_alg».proof.Proof.OneHot
import proofs.«130083_j14061722927137_2_alg».proof.Proof.RefRead
import proofs.«130083_j14061722927137_2_alg».proof.Proof.EmbedCore
import proofs.«130083_j14061722927137_2_alg».proof.Proof.Gen.ReferenceIdeal.Read

noncomputable section

namespace Cert.Proof.Bridge

open Idealize.ShloMosaic Idealize.ShloMosaic.TcCoe Idealize.SL.Sem Idealize.ShloMosaic.ValueIdx
open Cert.KernelIdeal Cert.KernelIdeal.Gen Cert.KernelIdeal.Fr

variable (m : (ℓ : Loc nD τ sig) → Buf (Elt Ideal) ℓ) (c : Dev nD)

theorem embed_eq :
    Wx m c (Proc.devRef .tc main_v24_1)
      = Cert.ReferenceIdeal.Read.val_main_v57 (F := Ideal) (m ((c : Thread nD τ).loc main_arg0)) (m ((c : Thread nD τ).loc main_arg2)) := by
  rw [Wx_v24_1]
  refine (Cert.KernelIdeal.Final.final6 m c).trans ?_
  funext i
  obtain ⟨b, mm, k, rfl⟩ : ∃ (b : Fin 32) (mm : Fin 10) (k : Fin 12), i = ix3 b mm k := ⟨i 0, i 1, i 2, eq_ix3 i⟩
  rw [Cert.ReferenceIdeal.RefRead.gather_read (m ((c : Thread nD τ).loc main_arg0)) (m ((c : Thread nD τ).loc main_arg2)) b mm k]
  refine (Cert.EmbedCore.embed_core (Cert.KernelIdeal.Final.A0 m c) (Cert.KernelIdeal.Final.OX m c) (Cert.KernelIdeal.Final.OY m c)
    (V m c main_v6) (V m c main_v7) (Cert.KernelIdeal.OneHot.V_xc_lt m c) (Cert.KernelIdeal.OneHot.V_yc_lt m c)
    (fun b k mm w => Cert.KernelIdeal.OneHot.V_ohx m c b k mm w) (fun b k mm h => Cert.KernelIdeal.OneHot.V_ohy m c b k mm h) b mm k).trans ?_
  have hA : Cert.KernelIdeal.Final.A0 m c = m ((c : Thread nD τ).loc main_arg0) := Cert.KernelIdeal.OneHot.V_arg0 m c
  have hyy : (V m c main_v7 (ix3 b mm k)).toNat
      = (Cert.ReferenceIdeal.Read.val_main_v33 (F := Ideal) (m ((c : Thread nD τ).loc main_arg2)) (ix3 b mm k)).toNat :=
    congrArg BitVec.toNat (congrFun (Cert.KernelIdeal.OneHot.V_yc m c) _)
  have hxx : (V m c main_v6 (ix3 b mm k)).toNat
      = (Cert.ReferenceIdeal.Read.val_main_v32 (F := Ideal) (m ((c : Thread nD τ).loc main_arg2)) (ix3 b mm k)).toNat :=
    congrArg BitVec.toNat (congrFun (Cert.KernelIdeal.OneHot.V_xc m c) _)
  rw [hA]
  exact congrArg₂ (fun (y x : Fin 256) => m ((c : Thread nD τ).loc main_arg0) (ix4 b ⟨12 + k.val, by omega⟩ y x)) (Fin.ext hyy) (Fin.ext hxx)

end Cert.Proof.Bridge

end
-- ==== Proof.PoseBridge.lean ====
/-
  The mean-square term, kernel side. At each of the 32 grid points the kernel leaves one partial sum (repeated over
  128 lanes); after the region the host keeps lane 0 of each, flattens the 32 numbers to a vector and sums them
  onto a zero. Over the extended reals that is the plain sum of the 32 partial sums; when each partial sum is the sum
  over the twelve channels and the 256×256 pixels of the squared differences, it is the sum of the squared
  differences over everything.
-/
import proofs.«130083_j14061722927137_2_alg».proof.Proof.Gen.KernelIdeal
import Idealize.ShloMosaic.PureOps.Ideal.Laws
import Idealize.ShloMosaic.Lib.ValueIdx
import Idealize.ShloMosaic.Lib.Pipeline.Value

noncomputable section

open scoped BigOperators

namespace Cert.KernelIdeal.PoseBridge

open Idealize.ShloMosaic Idealize.ShloMosaic.ValueIdx Idealize.SL.Sem
open Cert.KernelIdeal Cert.KernelIdeal.Gen

/-- A sum over the indices of a one-axis shape is the sum over the axis's coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- The host's sum of a vector of 32 extended reals onto zero is the sum of its 32 entries, at the one index of the
    scalar result. -/
theorem pose_tail_fun (f : S32.Idx → EReal) (g : Fin 32 → EReal) (hf : ∀ b : Fin 32, f (ix1 b) = g b) :
    Host.reduceAdd (F := Ideal) f (constant (F := Ideal) S_ .f32 0x00000000#32) reducesTo_S32_S_d0 h_S_ = fun _ => ∑ b : Fin 32, g b := by
  funext j
  simp only [Host.reduceAdd, Ideal.hostReduceAdd_def]
  rw [Ideal.hostReduceAdd_total reducesTo_S32_S_d0 (fun b => b.elim0) _ _ j]
  rw [show (constant (F := Ideal) S_ .f32 0x00000000#32) (Shape.Idx.first h_S_) = 0 from Ideal.ofBits_zero_f32, zero_add]
  rw [sum_idx1]
  exact Finset.sum_congr rfl fun b _ => hf b

/-- Lane 0 of each row, flattened to a vector of 32, read at entry `b`: the block's entry (b, 0, 0). The slice keeps
    the coordinates (offsets zero) and the flattening keeps the row-major position, which is `b` on both sides. -/
theorem slice_read_S32 (P : S32x1x128.Idx → EReal) (b : Fin 32) :
    shapeCast S32 (extractStridedSlice S32x1x1 ![0, 0, 0] P slices_S32x1x128_S32x1x1_0_0_0) shapeCasts_S32x1x1_S32 (ix1 b) = P (ix3 b 0 0) := by
  refine (shapeCast_apply _ shapeCasts_S32x1x1_S32 (ix1 b) (ix3 b (0 : Fin 1) (0 : Fin 1)) (by
    rw [Shape.rowMajor_val_three, Shape.rowMajor_val_one]; show (b.val * 1 + 0) * 1 + 0 = b.val; omega)).trans ?_
  exact extractStridedSlice_apply ![0, 0, 0] P slices_S32x1x128_S32x1x1_0_0_0 (ix3 b (0 : Fin 1) (0 : Fin 1))
    (ix3 b (0 : Fin 1) (0 : Fin 128)) (fun a => match a with
      | ⟨0, _⟩ => by show b.val = 0 + b.val; omega
      | ⟨1, _⟩ => by show 0 = 0 + 0; omega
      | ⟨2, _⟩ => by show 0 = 0 + 0; omega)

/-- The same with the vector's shape named as the shape of the buffer the flattening writes. -/
theorem slice_read (P : S32x1x128.Idx → EReal) (b : Fin 32) :
    shapeCast main_v26.ty.shape (extractStridedSlice S32x1x1 ![0, 0, 0] P slices_S32x1x128_S32x1x1_0_0_0) shapeCasts_S32x1x1_S32 (ix1 b) = P (ix3 b 0 0) :=
  slice_read_S32 P b

/-- The host's tail on the per-point partial sums: lane 0 of each of the 32 rows, flattened, summed onto zero — the sum
    of the 32 values `g b` the rows hold. -/
theorem pose_tail (P : (⟨S32x1x128, .f32⟩ : BufTy).Contents (Elt Ideal)) (g : Fin 32 → EReal)
    (hP : ∀ i : S32x1x128.Idx, P i = g (i 0)) (j : S_.Idx) :
    Host.reduceAdd (F := Ideal) (shapeCast S32 (extractStridedSlice S32x1x1 ![0, 0, 0] P slices_S32x1x128_S32x1x1_0_0_0) shapeCasts_S32x1x1_S32)
        (constant (F := Ideal) S_ .f32 0x00000000#32) reducesTo_S32_S_d0 h_S_ j
      = ∑ b : Fin 32, g b :=
  congrFun (pose_tail_fun _ g fun b => (slice_read_S32 P b).trans (hP _)) j

/-- With each entry the sum over channels and pixels of the squared differences, the host's sum is the sum over all
    batches, channels and pixels. -/
theorem pose_bridge_sum_fun (f : S32.Idx → EReal) (x0 : S32x24x256x256.Idx → EReal) (x1 : S32x12x256x256.Idx → EReal)
    (hf : ∀ b : Fin 32, f (ix1 b) = ∑ k : Fin 12, ∑ h : Fin 256, ∑ w : Fin 256,
      (x0 (ix4 b ⟨k.val, by omega⟩ h w) - x1 (ix4 b k h w)) * (x0 (ix4 b ⟨k.val, by omega⟩ h w) - x1 (ix4 b k h w))) :
    Host.reduceAdd (F := Ideal) f (constant (F := Ideal) S_ .f32 0x00000000#32) reducesTo_S32_S_d0 h_S_
      = fun _ => ∑ b : Fin 32, ∑ k : Fin 12, ∑ h : Fin 256, ∑ w : Fin 256,
          (x0 (ix4 b ⟨k.val, by omega⟩ h w) - x1 (ix4 b k h w)) * (x0 (ix4 b ⟨k.val, by omega⟩ h w) - x1 (ix4 b k h w)) :=
  pose_tail_fun f _ hf

/-- The same for the tail applied to the block of partial sums. -/
theorem pose_bridge_sum (P : (⟨S32x1x128, .f32⟩ : BufTy).Contents (Elt Ideal)) (x0 : S32x24x256x256.Idx → EReal) (x1 : S32x12x256x256.Idx → EReal)
    (hP : ∀ i : S32x1x128.Idx, P i = ∑ k : Fin 12, ∑ h : Fin 256, ∑ w : Fin 256,
      (x0 (ix4 (i 0) ⟨k.val, by omega⟩ h w) - x1 (ix4 (i 0) k h w)) * (x0 (ix4 (i 0) ⟨k.val, by omega⟩ h w) - x1 (ix4 (i 0) k h w)))
    (j : S_.Idx) :
    Host.reduceAdd (F := Ideal) (shapeCast S32 (extractStridedSlice S32x1x1 ![0, 0, 0] P slices_S32x1x128_S32x1x1_0_0_0) shapeCasts_S32x1x1_S32)
        (constant (F := Ideal) S_ .f32 0x00000000#32) reducesTo_S32_S_d0 h_S_ j
      = ∑ b : Fin 32, ∑ k : Fin 12, ∑ h : Fin 256, ∑ w : Fin 256,
          (x0 (ix4 b ⟨k.val, by omega⟩ h w) - x1 (ix4 b k h w)) * (x0 (ix4 b ⟨k.val, by omega⟩ h w) - x1 (ix4 b k h w)) :=
  pose_tail P (fun b => ∑ k : Fin 12, ∑ h : Fin 256, ∑ w : Fin 256,
      (x0 (ix4 b ⟨k.val, by omega⟩ h w) - x1 (ix4 b k h w)) * (x0 (ix4 b ⟨k.val, by omega⟩ h w) - x1 (ix4 b k h w))) hP j

end Cert.KernelIdeal.PoseBridge

end
-- ==== Proof.PoseBridgeRef.lean ====
/-
  The mean-square term, both sides. The reference sums the squared differences over all batches, channels and
  pixels at once; the kernel's host tail sums the 32 per-batch partial sums. Both are the same fourfold sum.
-/
import proofs.«130083_j14061722927137_2_alg».proof.Proof.PoseBridge
import proofs.«130083_j14061722927137_2_alg».proof.Proof.RefRead

noncomputable section

open scoped BigOperators

namespace Cert.KernelIdeal.PoseBridge

open Idealize.ShloMosaic Idealize.ShloMosaic.ValueIdx Idealize.SL.Sem
open Cert.KernelIdeal Cert.KernelIdeal.Gen

/-- The host's sum of a vector of 32 entries, each one batch's sum of squared differences, is the reference's total. -/
theorem pose_bridge_fun (f : S32.Idx → EReal) (x0 : S32x24x256x256.Idx → EReal) (x1 : S32x12x256x256.Idx → EReal)
    (hf : ∀ b : Fin 32, f (ix1 b) = ∑ k : Fin 12, ∑ h : Fin 256, ∑ w : Fin 256,
      (x0 (ix4 b ⟨k.val, by omega⟩ h w) - x1 (ix4 b k h w)) * (x0 (ix4 b ⟨k.val, by omega⟩ h w) - x1 (ix4 b k h w))) :
    Host.reduceAdd (F := Ideal) f (constant (F := Ideal) S_ .f32 0x00000000#32) reducesTo_S32_S_d0 h_S_
      = Cert.ReferenceIdeal.Read.val_main_v4 (F := Ideal) x0 x1 := by
  rw [pose_bridge_sum_fun f x0 x1 hf]
  funext j
  exact (Cert.ReferenceIdeal.RefRead.pose_sum x0 x1 j).symm

/-- The kernel's tail on partial sums that are each batch's sum of squared differences is the reference's total sum. -/
theorem pose_bridge (P : (⟨S32x1x128, .f32⟩ : BufTy).Contents (Elt Ideal)) (x0 : S32x24x256x256.Idx → EReal) (x1 : S32x12x256x256.Idx → EReal)
    (hP : ∀ i : S32x1x128.Idx, P i = ∑ k : Fin 12, ∑ h : Fin 256, ∑ w : Fin 256,
      (x0 (ix4 (i 0) ⟨k.val, by omega⟩ h w) - x1 (ix4 (i 0) k h w)) * (x0 (ix4 (i 0) ⟨k.val, by omega⟩ h w) - x1 (ix4 (i 0) k h w))) :
    Host.reduceAdd (F := Ideal) (shapeCast S32 (extractStridedSlice S32x1x1 ![0, 0, 0] P slices_S32x1x128_S32x1x1_0_0_0) shapeCasts_S32x1x1_S32)
        (constant (F := Ideal) S_ .f32 0x00000000#32) reducesTo_S32_S_d0 h_S_
      = Cert.ReferenceIdeal.Read.val_main_v4 (F := Ideal) x0 x1 :=
  pose_bridge_fun _ x0 x1 fun b => (slice_read_S32 P b).trans (hP _)

end Cert.KernelIdeal.PoseBridge

end
-- ==== Proof.WhereBcast.lean ====
/-
  A scalar broadcast in two steps is the broadcast in one step.

  The reference spreads the scalar zero of its selections first over a [10, 12] (or [10, 10]) array and then over the batch
  axis. A broadcast of a rank-zero value reads its one element at every index, and a further broadcast reads that
  constant array at some index, so both roads give the constant array of the one element (the rank-zero shape has one
  index: two of them agree on the empty set of axes). Nothing depends on the element type or on which proofs of the
  shape conditions the three broadcasts carry.
-/
import proofs.«130083_j14061722927137_2_alg».proof.ReferenceIdeal
import Idealize.ShloMosaic.PureOps.Ideal

noncomputable section

namespace Cert.ReferenceIdeal.WhereBcast

open Cert.ReferenceIdeal Idealize.ShloMosaic

/-- A scalar spread over [10, 12] and then over the 32 batch elements is the scalar spread over [32, 10, 12]. -/
theorem bcast2_10x12 {α : Type} (z : S_.Idx → α) (h1 : S10x12.BroadcastsInDim S32x10x12 ![1, 2])
    (h2 : S_.BroadcastsInDim S10x12 ![]) (h3 : S_.BroadcastsInDim S32x10x12 ![]) :
    broadcastInDim S32x10x12 ![1, 2] h1 (broadcastInDim S10x12 ![] h2 z) = broadcastInDim S32x10x12 ![] h3 z := by
  funext i
  unfold broadcastInDim
  exact congrArg z (funext fun d => d.elim0)

/-- A scalar spread over [10, 10] and then over the 32 batch elements is the scalar spread over [32, 10, 10]. -/
theorem bcast2_10x10 {α : Type} (z : S_.Idx → α) (h1 : S10x10.BroadcastsInDim S32x10x10 ![1, 2])
    (h2 : S_.BroadcastsInDim S10x10 ![]) (h3 : S_.BroadcastsInDim S32x10x10 ![]) :
    broadcastInDim S32x10x10 ![1, 2] h1 (broadcastInDim S10x10 ![] h2 z) = broadcastInDim S32x10x10 ![] h3 z := by
  funext i
  unfold broadcastInDim
  exact congrArg z (funext fun d => d.elim0)

end Cert.ReferenceIdeal.WhereBcast

end
-- ==== Proof.Bridge.lean ====
/-
  The kernel's result is the reference's. After the region the kernel's host operations compute, from the 32 partial
  sums and the gathered array, exactly what the reference computes from its one sum and its gather: the sum of the
  partial sums is the reference's sum over everything (sums on the extended reals regroup), the gathered array is the
  reference's gather, the integer coordinates and the instance counts are the same functions of the arguments, and
  every later operation is the same in both programs, the zero of each mask being one constant array whether it is
  broadcast in one step or in two.
-/
import proofs.«130083_j14061722927137_2_alg».proof.Proof.BridgeEmbed
import proofs.«130083_j14061722927137_2_alg».proof.Proof.PoseBridgeRef
import proofs.«130083_j14061722927137_2_alg».proof.Proof.WhereBcast

set_option maxRecDepth 16384

noncomputable section

namespace Cert.Proof.Bridge

open Idealize.ShloMosaic Idealize.ShloMosaic.TcCoe Idealize.SL.Sem Idealize.ShloMosaic.ValueIdx
open Cert.KernelIdeal Cert.KernelIdeal.Gen Cert.KernelIdeal.Fr

variable (m : (ℓ : Loc nD τ sig) → Buf (Elt Ideal) ℓ) (c : Dev nD)

/-- The 32 per-batch partial sums add up to the reference's sum of all the squared differences. -/
theorem pose_eq :
    Host.reduceAdd (F := Ideal) (fun i => shapeCast main_v26.ty.shape (extractStridedSlice S32x1x1 ![0, 0, 0] (Wx m c (Proc.devRef .tc main_v24_0)) slices_S32x1x128_S32x1x1_0_0_0) shapeCasts_S32x1x1_S32 i)
        (constant (F := Ideal) S_ .f32 0x00000000#32) reducesTo_S32_S_d0 h_S_
      = Cert.ReferenceIdeal.Read.val_main_v4 (F := Ideal) (m ((c : Thread nD τ).loc main_arg0)) (m ((c : Thread nD τ).loc main_arg1)) := by
  refine Cert.KernelIdeal.PoseBridge.pose_bridge_fun _ _ _ fun b => ?_
  refine (Cert.KernelIdeal.PoseBridge.slice_read _ b).trans ?_
  rw [Wx_v24_0]
  refine (congrFun (Cert.KernelIdeal.Final.final5 m c) (ix3 b 0 0)).trans ?_
  rw [show Cert.KernelIdeal.Final.A0 m c = m ((c : Thread nD τ).loc main_arg0) from Cert.KernelIdeal.OneHot.V_arg0 m c,
    show Cert.KernelIdeal.Final.A1 m c = m ((c : Thread nD τ).loc main_arg1) from Cert.KernelIdeal.OneHot.V_arg1 m c]

theorem x_eq : Wx m c (Proc.devRef .tc main_v3) = Cert.ReferenceIdeal.Read.val_main_v9 (F := Ideal) (m ((c : Thread nD τ).loc main_arg2)) :=
  (Wx_of_ne m c main_v3 (by decide) (by decide)).trans (Cert.KernelIdeal.OneHot.V_x m c)
theorem y_eq : Wx m c (Proc.devRef .tc main_v5) = Cert.ReferenceIdeal.Read.val_main_v11 (F := Ideal) (m ((c : Thread nD τ).loc main_arg2)) :=
  (Wx_of_ne m c main_v5 (by decide) (by decide)).trans (Cert.KernelIdeal.OneHot.V_y m c)
theorem cnt_eq : Wx m c (Proc.devRef .tc main_arg3) = m ((c : Thread nD τ).loc main_arg3) :=
  (Wx_of_ne m c main_arg3 (by decide) (by decide)).trans (Cert.KernelIdeal.OneHot.V_arg3 m c)

set_option maxHeartbeats 16000000 in
/-- The kernel's result buffer ends at the reference's last stage of the same four arguments. -/
theorem result_eq :
    result m c = Cert.ReferenceIdeal.Read.val_main_v131 (F := Ideal) (m ((c : Thread nD τ).loc main_arg0)) (m ((c : Thread nD τ).loc main_arg1))
      (m ((c : Thread nD τ).loc main_arg2)) (m ((c : Thread nD τ).loc main_arg3)) := by
  unfold result
  simp only [postOps, hostOps1, hostOps1_1, hostOps1_2, hostOps1_3, hostOps1_4, hostOps1_5, hostOps1_6, hostOps1_7, hostOps1_8, hostOps1_9, hostOps1_10, List.flatten_cons, List.flatten_nil, List.append_nil, List.cons_append, List.nil_append]
  after_results_simp
  rw [pose_eq m c, embed_eq m c, x_eq m c, y_eq m c, cnt_eq m c]
  simp only [Cert.ReferenceIdeal.Read.val_main_cst_0, Cert.ReferenceIdeal.Read.val_main_v5, Cert.ReferenceIdeal.Read.val_main_cst_38, Cert.ReferenceIdeal.Read.val_main_v129, Cert.ReferenceIdeal.Read.val_main_c, Cert.ReferenceIdeal.Read.val_main_v18, Cert.ReferenceIdeal.Read.val_main_v19, Cert.ReferenceIdeal.Read.val_main_c_1, Cert.ReferenceIdeal.Read.val_main_v20, Cert.ReferenceIdeal.Read.val_main_v21, Cert.ReferenceIdeal.Read.val_main_v22, Cert.ReferenceIdeal.Read.val_main_c_2, Cert.ReferenceIdeal.Read.val_main_v23, Cert.ReferenceIdeal.Read.val_main_v24, Cert.ReferenceIdeal.Read.val_main_v25, Cert.ReferenceIdeal.Read.val_main_c_3, Cert.ReferenceIdeal.Read.val_main_v26, Cert.ReferenceIdeal.Read.val_main_v27, Cert.ReferenceIdeal.Read.val_main_v28, Cert.ReferenceIdeal.Read.val_main_v12, Cert.ReferenceIdeal.Read.val_main_v13, Cert.ReferenceIdeal.Read.val_main_v15, Cert.ReferenceIdeal.Read.val_main_v14, Cert.ReferenceIdeal.Read.val_main_v16, Cert.ReferenceIdeal.Read.val_main_v17, Cert.ReferenceIdeal.Read.val_main_v29, Cert.ReferenceIdeal.Read.val_main_v30, Cert.ReferenceIdeal.Read.val_main_v31, Cert.ReferenceIdeal.Read.val_main_v59, Cert.ReferenceIdeal.Read.val_main_c_15, Cert.ReferenceIdeal.Read.val_main_v60, Cert.ReferenceIdeal.Read.val_main_c_16, Cert.ReferenceIdeal.Read.val_main_v61, Cert.ReferenceIdeal.Read.val_main_v62, Cert.ReferenceIdeal.Read.val_main_v68, Cert.ReferenceIdeal.Read.val_main_c_19, Cert.ReferenceIdeal.Read.val_main_v69, Cert.ReferenceIdeal.Read.val_main_c_21, Cert.ReferenceIdeal.Read.val_main_v76, Cert.ReferenceIdeal.Read.val_main_v77, Cert.ReferenceIdeal.Read.val_main_cst_14, Cert.ReferenceIdeal.Read.val_main_call3_v0, Cert.ReferenceIdeal.Read.val_main_call3_v1, Cert.ReferenceIdeal.Read.val_main_call3_v2, Cert.ReferenceIdeal.Read.val_main_v58, Cert.ReferenceIdeal.Read.val_main_cst_17, Cert.ReferenceIdeal.Read.val_main_v63, Cert.ReferenceIdeal.Read.val_main_c_18, Cert.ReferenceIdeal.Read.val_main_v64, Cert.ReferenceIdeal.Read.val_main_v65, Cert.ReferenceIdeal.Read.val_main_v66, Cert.ReferenceIdeal.Read.val_main_v67, Cert.ReferenceIdeal.Read.val_main_v71, Cert.ReferenceIdeal.Read.val_main_v72, Cert.ReferenceIdeal.Read.val_main_v73, Cert.ReferenceIdeal.Read.val_main_v74, Cert.ReferenceIdeal.Read.val_main_cst_20, Cert.ReferenceIdeal.Read.val_main_call4_v0, Cert.ReferenceIdeal.Read.val_main_call4_v1, Cert.ReferenceIdeal.Read.val_main_call4_v2, Cert.ReferenceIdeal.Read.val_main_v75, Cert.ReferenceIdeal.Read.val_main_cst_22, Cert.ReferenceIdeal.Read.val_main_v78, Cert.ReferenceIdeal.Read.val_main_v70, Cert.ReferenceIdeal.Read.val_main_cst_23, Cert.ReferenceIdeal.Read.val_main_v79, Cert.ReferenceIdeal.Read.val_main_v80, Cert.ReferenceIdeal.Read.val_main_v81, Cert.ReferenceIdeal.Read.val_main_cst_24, Cert.ReferenceIdeal.Read.val_main_call5_v0, Cert.ReferenceIdeal.Read.val_main_call5_v1, Cert.ReferenceIdeal.Read.val_main_v82, Cert.ReferenceIdeal.Read.val_main_cst_34, Cert.ReferenceIdeal.Read.val_main_v122, Cert.ReferenceIdeal.Read.val_main_v123, Cert.ReferenceIdeal.Read.val_main_c_31, Cert.ReferenceIdeal.Read.val_main_v116, Cert.ReferenceIdeal.Read.val_main_v117, Cert.ReferenceIdeal.Read.val_main_v90, Cert.ReferenceIdeal.Read.val_main_v92, Cert.ReferenceIdeal.Read.val_main_v91, Cert.ReferenceIdeal.Read.val_main_v93, Cert.ReferenceIdeal.Read.val_main_v94, Cert.ReferenceIdeal.Read.val_main_v89, Cert.ReferenceIdeal.Read.val_main_v95, Cert.ReferenceIdeal.Read.val_main_v97, Cert.ReferenceIdeal.Read.val_main_v96, Cert.ReferenceIdeal.Read.val_main_v98, Cert.ReferenceIdeal.Read.val_main_v99, Cert.ReferenceIdeal.Read.val_main_v100, Cert.ReferenceIdeal.Read.val_main_v101, Cert.ReferenceIdeal.Read.val_main_v102, Cert.ReferenceIdeal.Read.val_main_cst_25, Cert.ReferenceIdeal.Read.val_main_v103, Cert.ReferenceIdeal.Read.val_main_v83, Cert.ReferenceIdeal.Read.val_main_v85, Cert.ReferenceIdeal.Read.val_main_v84, Cert.ReferenceIdeal.Read.val_main_v86, Cert.ReferenceIdeal.Read.val_main_v87, Cert.ReferenceIdeal.Read.val_main_v88, Cert.ReferenceIdeal.Read.val_main_v104, Cert.ReferenceIdeal.Read.val_main_v105, Cert.ReferenceIdeal.Read.val_main_cst_26, Cert.ReferenceIdeal.Read.val_main_call6_v0, Cert.ReferenceIdeal.Read.val_main_call6_v1, Cert.ReferenceIdeal.Read.val_main_call6_v2, Cert.ReferenceIdeal.Read.val_main_v106, Cert.ReferenceIdeal.Read.val_main_cst_27, Cert.ReferenceIdeal.Read.val_main_v107, Cert.ReferenceIdeal.Read.val_main_cst_28, Cert.ReferenceIdeal.Read.val_main_v108, Cert.ReferenceIdeal.Read.val_main_v109, Cert.ReferenceIdeal.Read.val_main_v110, Cert.ReferenceIdeal.Read.val_main_cst_29, Cert.ReferenceIdeal.Read.val_main_v111, Cert.ReferenceIdeal.Read.val_main_v112, Cert.ReferenceIdeal.Read.val_main_cst_30, Cert.ReferenceIdeal.Read.val_main_v113, Cert.ReferenceIdeal.Read.val_main_v114, Cert.ReferenceIdeal.Read.val_main_v115, Cert.ReferenceIdeal.Read.val_main_cst_32, Cert.ReferenceIdeal.Read.val_main_v118, Cert.ReferenceIdeal.Read.val_main_v119, Cert.ReferenceIdeal.Read.val_main_v120, Cert.ReferenceIdeal.Read.val_main_cst_33, Cert.ReferenceIdeal.Read.val_main_call7_v0, Cert.ReferenceIdeal.Read.val_main_call7_v1, Cert.ReferenceIdeal.Read.val_main_v121, Cert.ReferenceIdeal.Read.val_main_cst_35, Cert.ReferenceIdeal.Read.val_main_v124, Cert.ReferenceIdeal.Read.val_main_v125, Cert.ReferenceIdeal.Read.val_main_v126, Cert.ReferenceIdeal.Read.val_main_cst_36, Cert.ReferenceIdeal.Read.val_main_v127, Cert.ReferenceIdeal.Read.val_main_cst_37, Cert.ReferenceIdeal.Read.val_main_v128, Cert.ReferenceIdeal.Read.val_main_cst_39, Cert.ReferenceIdeal.Read.val_main_v130, Cert.ReferenceIdeal.Read.val_main_v131, Cert.ReferenceIdeal.WhereBcast.bcast2_10x12 _ _ _ Cert.ReferenceIdeal.Gen.bcast_S_S32x10x12,
    Cert.ReferenceIdeal.WhereBcast.bcast2_10x10 _ _ _ Cert.ReferenceIdeal.Gen.bcast_S_S32x10x10]
  rfl

end Cert.Proof.Bridge

end
-- ==== Proof.lean ====
/-
  The certificate of the pose-estimation loss kernel against its jnp reference, on the extended reals.

  The loss is the mean squared difference between the twelve predicted heat-map channels and the target heat maps,
  plus a grouping-and-separation loss of embedding values read at the rounded, clamped keypoint coordinates. The
  reference sums the squared differences at once and gathers the embedding values by an index gather. The kernel, over
  a grid of the 32 batches, sums each batch's squared differences along the three axes of its block and leaves the 32
  partial sums to be added on the host; it gathers by multiplying the embedding map by the one-hot row of the clamped
  vertical coordinate (a matrix product, contracted over the map's rows) and the result by the one-hot row of the
  clamped horizontal coordinate (a lane sum). On the extended reals a sum may be regrouped freely, so the 32 partial
  sums add up to the reference's one sum; a one-hot row picks out exactly one entry, zero times anything being zero, so
  the two products are the gathered entry: the clamp keeps each coordinate within the map, where the gather's own
  clamp and its negative-index wrap-around move nothing. Everything after these two arrays is the same sequence of
  host operations in both programs, except that the reference broadcasts the zero of its masks in two steps.

  The three frames: the kernel program (at the word level and idealized) is one region between host operations; its
  first argument is read through two windows, each holding half of the array's share through the region. The
  reference is host operations only. The idealization rewrote nothing, so the fourth conjunct is trivial.
-/
import proofs.«130083_j14061722927137_2_alg».proof.Defs
import proofs.«130083_j14061722927137_2_alg».proof.Proof.Gen.Kernel
import proofs.«130083_j14061722927137_2_alg».proof.Proof.Gen.KernelIdeal
import proofs.«130083_j14061722927137_2_alg».proof.Proof.Gen.ReferenceIdeal
import proofs.«130083_j14061722927137_2_alg».proof.Proof.Gen.ReferenceIdeal.Run
import proofs.«130083_j14061722927137_2_alg».proof.Proof.Gen.ReferenceIdeal.Read
import proofs.«130083_j14061722927137_2_alg».proof.Proof.Gen.Pre_finite_inputs
import proofs.«130083_j14061722927137_2_alg».proof.Proof.KB_Args
import proofs.«130083_j14061722927137_2_alg».proof.Proof.KI_Args
import proofs.«130083_j14061722927137_2_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Fr.frame m ρ

theorem frame_ki : Cert.frame_KernelIdeal (hKernelIdeal := Cert.KernelIdeal.Gen.facts) (hPre_finite_inputs := Cert.Pre_finite_inputs.Gen.facts) :=
  fun m ρ _ => Cert.KernelIdeal.Fr.frame m ρ

/-- The reference is host operations only: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the same scalar: the kernel's result read off its run is the reference's composed term of
    the same arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Fr.result m c, Cert.KernelIdeal.Fr.value_run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v131_eq, (hagree c).1, (hagree c).2.1, (hagree c).2.2.1, (hagree c).2.2.2]
  exact (Cert.Proof.Bridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
